-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S2097152x42 : S_.BroadcastsInDim S2097152x42 (![] : Fin 0 → Fin S2097152x42.rank)
  reducesTo_S2097152x42_S_d0_1 : S2097152x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part6 {F : FTy → Type} [FloatOps F] (main_arg23 : FVec F S2x128x128 .f32) (main_arg24 : FVec F S2x128 .f32) (main_v98 : IVec S_ 1) (main_v101 : IVec S2x128 1) (main_c_39 : IVec S_ 1) : IVec S_ 1 :=
  let main_v102 : IVec S_ 1 := (fun x v => Host.reduce IntOp.andi x v reducesTo_S2x128_S_d0_1 h_S_) main_v101 main_c_39
  let main_v103 : IVec S_ 1 := andi main_v98 main_v102
  let main_v104 : FVec F S2x128x128 .f32 := Host.absf main_arg23
  let main_cst_40 : FVec F S_ .f32 := constant S_ .f32 0x7F800000#32
  let main_v105 : FVec F S2x128x128 .f32 := broadcastInDim S2x128x128 ![] bcast_S_S2x128x128 main_cst_40
  let main_v106 : IVec S2x128x128 1 := cmpf .olt main_v104 main_v105
  let main_c_41 : IVec S_ 1 := constantI S_ 1 1#1
  let main_v107 : IVec S_ 1 := (fun x v => Host.reduce IntOp.andi x v reducesTo_S2x128x128_S_d0_1_2 h_S_) main_v106 main_c_41
  let main_v108 : IVec S_ 1 := andi main_v103 main_v107
  let main_v109 : FVec F S2x128 .f32 := Host.absf main_arg24
  let main_cst_42 : FVec F S_ .f32 := constant S_ .f32 0x7F800000#32
  let main_v110 : FVec F S2x128 .f32 := broadcastInDim S2x128 ![] bcast_S_S2x128 main_cst_42
  let main_v111 : IVec S2x128 1 := cmpf .olt main_v109 main_v110
  let main_c_43 : IVec S_ 1 := constantI S_ 1 1#1
  let main_v112 : IVec S_ 1 := (fun x v => Host.reduce IntOp.andi x v reducesTo_S2x128_S_d0_1 h_S_) main_v111 main_c_43
  let main_v113 : IVec S_ 1 := andi main_v108 main_v112
  main_v113

def fn_part5 {F : FTy → Type} [FloatOps F] (main_arg20 : FVec F S128 .f32) (main_arg21 : FVec F S2x128x128 .f32) (main_arg22 : FVec F S2x128 .f32) (main_arg23 : FVec F S2x128x128 .f32) (main_arg24 : FVec F S2x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S2x128x128 .f32 := Host.absf main_arg21
  let main_cst_36 : FVec F S_ .f32 := constant S_ .f32 0x7F800000#32
  let main_v95 : FVec F S2x128x128 .f32 := broadcastInDim S2x128x128 ![] bcast_S_S2x128x128 main_cst_36
  let main_v96 : IVec S2x128x128 1 := cmpf .olt main_v94 main_v95
  let main_c_37 : IVec S_ 1 := constantI S_ 1 1#1
  let main_v97 : IVec S_ 1 := (fun x v => Host.reduce IntOp.andi x v reducesTo_S2x128x128_S_d0_1_2 h_S_) main_v96 main_c_37
  let main_v98 : IVec S_ 1 := andi main_v93 main_v97
  let main_v99 : FVec F S2x128 .f32 := Host.absf main_arg22
  let main_cst_38 : FVec F S_ .f32 := constant S_ .f32 0x7F800000#32
  let main_v100 : FVec F S2x128 .f32 := broadcastInDim S2x128 ![] bcast_S_S2x128 main_cst_38
  let main_v101 : IVec S2x128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1x128x128 .f32 := Host.absf main_arg17
  let main_cst_28 : FVec F S_ .f32 := constant S_ .f32 0x7F800000#32
  let main_v75 : FVec F S1x128x128 .f32 := broadcastInDim S1x128x128 ![] bcast_S_S1x128x128 main_cst_28
  let main_v76 : IVec S1x128x128 1 := cmpf .olt main_v74 main_v75
  let main_c_29 : IVec S_ 1 := constantI S_ 1 1#1
  let main_v77 : IVec S_ 1 := (fun x v => Host.reduce IntOp.andi x v reducesTo_S1x128x128_S_d0_1_2 h_S_) main_v76 main_c_29
  let main_v78 : IVec S_ 1 := andi main_v73 main_v77
  let main_v79 : FVec F S1x128 .f32 := Host.absf main_arg18
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S1x128x128 .f32 := Host.absf main_arg15
  let main_cst_24 : FVec F S_ .f32 := constant S_ .f32 0x7F800000#32
  let main_v65 : FVec F S1x128x128 .f32 := broadcastInDim S1x128x128 ![] bcast_S_S1x128x128 main_cst_24
  let main_v66 : IVec S1x128x128 1 := cmpf .olt main_v64 main_v65
  let main_c_25 : IVec S_ 1 := constantI S_ 1 1#1
  let main_v67 : IVec S_ 1 := (fun x v => Host.reduce IntOp.andi x v reducesTo_S1x128x128_S_d0_1_2 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg7
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg8
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S262144x128 .f32) (main_arg1 : FVec F S262144x6 .f32) (main_arg2 : FVec F S2097152x42 .f32) (main_arg3 : IVec S2097152 32) (main_arg4 : IVec S2097152 32) (main_arg5 : FVec F S6x8 .f32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S2097152x42 .f32 := Host.absf main_arg2
  let main_cst_2 : FVec F S_ .f32 := constant S_ .f32 0x7F800000#32
  let main_v10 : FVec F S2097152x42 .f32 := broadcastInDim S2097152x42 ![] bcast_S_S2097152x42 main_cst_2
  let main_v11 : IVec S2097152x42 1 := cmpf .olt main_v9 main_v10
  let main_c_3 : IVec S_ 1 := constantI S_ 1 1#1
  let main_v12 : IVec S_ 1 := (fun x v => Host.reduce IntOp.andi x v reducesTo_S2097152x42_S_d0_1 h_S_) main_v11 main_c_3
  let main_v13 : IVec S_ 1 := andi main_v8 main_v12
  let main_v14 : FVec F S6x8 .f32 := Host.absf main_arg5
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S262144x64 : Shape := ⟨2, ![262144, 64]⟩
abbrev S4096x128 : Shape := ⟨2, ![4096, 128]⟩
abbrev S4096x6 : Shape := ⟨2, ![4096, 6]⟩
abbrev S4096x64 : Shape := ⟨2, ![4096, 64]⟩
abbrev S4096x8 : Shape := ⟨2, ![4096, 8]⟩
abbrev S_ : Shape := ⟨0, ![]⟩
abbrev S2097152x1 : Shape := ⟨2, ![2097152, 1]⟩
abbrev S2097152x64 : Shape := ⟨2, ![2097152, 64]⟩
abbrev S4096x42 : Shape := ⟨2, ![4096, 42]⟩

abbrev nBuf : Space → Nat
  | .hbm => 70
  | .vmem => 42
  | .smem => 0
  | _ => 0

abbrev bufTy : (tb : Table) → Fin (tcTables nBuf tb) → BufTy
  | .hbm, ⟨0, _⟩ => ⟨S262144x128, .f32⟩
  | .hbm, ⟨1, _⟩ => ⟨S262144x6, .f32⟩
  | .hbm, ⟨2, _⟩ => ⟨S2097152x42, .f32⟩
  | .hbm, ⟨3, _⟩ => ⟨S2097152, .i32⟩
  | .hbm, ⟨4, _⟩ => ⟨S2097152, .i32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64x128, .f32⟩
  | .hbm, ⟨15, _⟩ => ⟨S1x128x128, .f32⟩
  | .hbm, ⟨16, _⟩ => ⟨S1x128, .f32⟩
  | .hbm, ⟨17, _⟩ => ⟨S1x128x128, .f32⟩
  | .hbm, ⟨18, _⟩ => ⟨S1x128, .f32⟩
  | .hbm, ⟨19, _⟩ => ⟨S128x128, .f32⟩
  | .hbm, ⟨20, _⟩ => ⟨S128, .f32⟩
  | .hbm, ⟨21, _⟩ => ⟨S2x128x128, .f32⟩
  | .hbm, ⟨22, _⟩ => ⟨S2x128, .f32⟩
  | .hbm, ⟨23, _⟩ => ⟨S2x128x128, .f32⟩
  | .hbm, ⟨24, _⟩ => ⟨S2x128, .f32⟩
  | .hbm, ⟨25, _⟩ => ⟨S1x128, .f32⟩
  | .hbm, ⟨26, _⟩ => ⟨S262144x64, .f32⟩
  | .hbm, ⟨27, _⟩ => ⟨S_, .i32⟩
  | .hbm, ⟨28, _⟩ => ⟨S2097152, .i32⟩
  | .hbm, ⟨29, _⟩ => ⟨S2097152, .i1⟩
  | .hbm, ⟨30, _⟩ => ⟨S_, .i32⟩
  | .hbm, ⟨31, _⟩ => ⟨S2097152, .i32⟩
  | .hbm, ⟨32, _⟩ => ⟨S2097152, .i32⟩
  | .hbm, ⟨33, _⟩ => ⟨S2097152, .i32⟩
  | .hbm, ⟨34, _⟩ => ⟨S2097152x1, .i32⟩
  | .hbm, ⟨35, _⟩ => ⟨S2097152x64, .f32⟩
  | .hbm, ⟨36, _⟩ => ⟨S2097152x64, .f32⟩
  | .hbm, ⟨37, _⟩ => ⟨S_, .f32⟩
  | .hbm, ⟨38, _⟩ => ⟨S262144x64, .f32⟩
  | .hbm, ⟨39, _⟩ => ⟨S2097152x1, .i32⟩
  | .hbm, ⟨40, _⟩ => ⟨S262144x64, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S128x128, .f32⟩
  | .hbm, ⟨63, _⟩ => ⟨S1x128x128, .f32⟩
  | .hbm, ⟨64, _⟩ => ⟨S128x128, .f32⟩
  | .hbm, ⟨65, _⟩ => ⟨S1x128x128, .f32⟩
  | .hbm, ⟨66, _⟩ => ⟨S128x128, .f32⟩
  | .hbm, ⟨67, _⟩ => ⟨S1x128x128, .f32⟩
  | .hbm, ⟨68, _⟩ => ⟨S128x128, .f32⟩
  | .hbm, ⟨69, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x6, .f32⟩
  | .local _ .vmem, ⟨3, _⟩ => ⟨S4096x6, .f32⟩
  | .local _ .vmem, ⟨4, _⟩ => ⟨S6x8, .f32⟩
  | .local _ .vmem, ⟨5, _⟩ => ⟨S8x128, .f32⟩
  | .local _ .vmem, ⟨6, _⟩ => ⟨S128x128, .f32⟩
  | .local _ .vmem, ⟨7, _⟩ => ⟨S1x128, .f32⟩
  | .local _ .vmem, ⟨8, _⟩ => ⟨S128x64, .f32⟩
  | .local _ .vmem, ⟨9, _⟩ => ⟨S4096x64, .f32⟩
  | .local _ .vmem, ⟨10, _⟩ => ⟨S4096x64, .f32⟩
  | .local _ .vmem, ⟨11, _⟩ => ⟨S4096x42, .f32⟩
  | .local _ .vmem, ⟨12, _⟩ => ⟨S4096x42, .f32⟩
  | .local _ .vmem, ⟨13, _⟩ => ⟨S4096x64, .f32⟩
  | .local _ .vmem, ⟨14, _⟩ => ⟨S4096x64, .f32⟩
  | .local _ .vmem, ⟨15, _⟩ => ⟨S42x8, .f32⟩
  | .local _ .vmem, ⟨16, _⟩ => ⟨S8x64, .f32⟩
  | .local _ .vmem, ⟨17, _⟩ => ⟨S4096x64, .f32⟩
  | .local _ .vmem, ⟨18, _⟩ => ⟨S4096x64, .f32⟩
  | .local _ .vmem, ⟨19, _⟩ => ⟨S4096x128, .f32⟩
  | .local _ .vmem, ⟨20, _⟩ => ⟨S4096x128, .f32⟩
  | .local _ .vmem, ⟨21, _⟩ => ⟨S4096x64, .f32⟩
  | .local _ .vmem, ⟨22, _⟩ => ⟨S4096x64, .f32⟩
  | .local _ .vmem, ⟨23, _⟩ => ⟨S128x128, .f32⟩
  | .local _ .vmem, ⟨24, _⟩ => ⟨S1x128, .f32⟩
  | .local _ .vmem, ⟨25, _⟩ => ⟨S64x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S4096x128, .f32⟩
  | .local _ .vmem, ⟨41, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg16_0 : Ref sig .tc := ⟨.vmem, 37, rfl⟩
abbrev cc2_stg17_0 : Ref sig .tc := ⟨.vmem, 38, rfl⟩
abbrev cc2_stg18_0 : Ref sig .tc := ⟨.vmem, 39, rfl⟩
abbrev cc2_stg19_0 : Ref sig .tc := ⟨.vmem, 40, rfl⟩
abbrev cc2_stg19_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem16_0 : DmaSem sig := 37
abbrev cc2_sem17_0 : DmaSem sig := 38
abbrev cc2_sem18_0 : DmaSem sig := 39
abbrev cc2_sem19_0 : DmaSem sig := 40
abbrev cc2_sem19_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S4096x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S4096x6_S4096x6_0_0 : ∀ a, (![0, 0] : Fin 2 → Nat) a + S4096x6.size a ≤ S4096x6.size a
  h_S4096x6 : 0 < S4096x6.numel
  inb_S6x8_S6x8_0_0 : ∀ a, (![0, 0] : Fin 2 → Nat) a + S6x8.size a ≤ S6x8.size a
  h_S6x8 : 0 < S6x8.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  inb_S4096x42_S4096x42_0_0 : ∀ a, (![0, 0] : Fin 2 → Nat) a + S4096x42.size a ≤ S4096x42.size a
  h_S4096x42 : 0 < S4096x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  shapeCasts_S4096x64_S4096x64 : S4096x64.ShapeCasts S4096x64
  bcast_S_S262144x64 : S_.BroadcastsInDim S262144x64 (![] : Fin 0 → Fin S262144x64.rank)
  shapeCasts_S1x128_S128 : S1x128.ShapeCasts S128
  slices_S2x128_S1x128_0_0 : S2x128.Slices ![0, 0] S1x128
  slices_S2x128_S1x128_1_0 : S2x128.Slices ![1, 0] S1x128
  shapeCasts_S1x128x128_S128x128 : S1x128x128.ShapeCasts S128x128
  slices_S2x128x128_S1x128x128_0_0_0 : S2x128x128.Slices ![0, 0, 0] S1x128x128
  slices_S2x128x128_S1x128x128_1_0_0 : S2x128x128.Slices ![1, 0, 0] S1x128x128
  inb_S64x128_S64x128_0_0 : ∀ a, (![0, 0] : Fin 2 → Nat) a + S64x128.size a ≤ S64x128.size a
  h_S64x128 : 0 < S64x128.numel
  shapeCasts_S128x128_S128x128 : S128x128.ShapeCasts S128x128
  dot_S4096x6_S6x8_S4096x8_1_0_0_1_n_n_wf : DotDims.WF S4096x6 S6x8 S4096x8 [1] [0] [0] [1] [] []
  dot_S4096x8_S8x128_S4096x128_1_0_0_1_n_n_wf : DotDims.WF S4096x8 S8x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  gather_S262144x64_S2097152x1_S2097152x64_1_0_n_n_0_1_164_wf : GatherDims.WF S262144x64 S2097152x1 S2097152x64 [1] [0] [] [0] [] 1 ![1, 64]
  dot_S4096x42_S42x8_S4096x8_1_0_0_1_n_n_wf : DotDims.WF S4096x42 S42x8 S4096x8 [1] [0] [0] [1] [] []
  dot_S4096x8_S8x64_S4096x64_1_0_0_1_n_n_wf : DotDims.WF S4096x8 S8x64 S4096x64 [1] [0] [0] [1] [] []
  scatter_S262144x64_S2097152x1_S2097152x64_1_0_0_1_wf : ScatterDims.WF S262144x64 S2097152x1 S2097152x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S262144x6.size a
  hwx0_1 : ∀ i : grid0.Coords, EltTy.bits .f32 = 32 ∨ (Rect.block (s := S262144x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x8.size a ≤ S6x8.size a
  hwx0_2 : ∀ i : grid0.Coords, EltTy.bits .f32 = 32 ∨ (Rect.block (s := S6x8) S6x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x64.size a ≤ S262144x64.size a
  hwx0_7 : ∀ i : grid0.Coords, EltTy.bits .f32 = 32 ∨ (Rect.block (s := S262144x64) S4096x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x42.size a ≤ S2097152x42.size a
  hwx1_0 : ∀ i : grid1.Coords, EltTy.bits .f32 = 32 ∨ (Rect.block (s := S2097152x42) S4096x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S2097152x64.size a
  hwx1_1 : ∀ i : grid1.Coords, EltTy.bits .f32 = 32 ∨ (Rect.block (s := S2097152x64) S4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S2097152x64.size a
  hwx1_4 : ∀ i : grid1.Coords, EltTy.bits .f32 = 32 ∨ (Rect.block (s := S2097152x64) S4096x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S262144x64.size a
  hwx2_1 : ∀ i : grid2.Coords, EltTy.bits .f32 = 32 ∨ (Rect.block (s := S262144x64) S4096x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128x128.size a ≤ S128x128.size a
  hwx2_17 : ∀ i : grid2.Coords, EltTy.bits .f32 = 32 ∨ (Rect.block (s := S128x128) S128x128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S4096x128.size a ≤ S262144x128.size a
  hwx2_19 : ∀ i : grid2.Coords, EltTy.bits .f32 = 32 ∨ (Rect.block (s := S262144x128) S4096x128.size (cc2_transform_19 i) (hinb2_19 i)).WholeWords (EltTy.packing .f32)

variable [Facts₀]

def dot_S4096x6_S6x8_S4096x8_1_0_0_1_n_n : DotDims S4096x6 S6x8 S4096x8 where
  lhsContracting := [1]
  rhsContracting := [0]
  lhsNonContracting := [0]
  rhsNonContracting := [1]
  lhsBatch := []
  rhsBatch := []
  wf := dot_S4096x6_S6x8_S4096x8_1_0_0_1_n_n_wf
def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def dot_S4096x42_S42x8_S4096x8_1_0_0_1_n_n : DotDims S4096x42 S42x8 S4096x8 where
  lhsContracting := [1]
  rhsContracting := [0]
  lhsNonContracting := [0]
  rhsNonContracting := [1]
  lhsBatch := []
  rhsBatch := []
  wf := dot_S4096x42_S42x8_S4096x8_1_0_0_1_n_n_wf
def dot_S4096x8_S8x64_S4096x64_1_0_0_1_n_n : DotDims S4096x8 S8x64 S4096x64 where
  lhsContracting := [1]
  rhsContracting := [0]
  lhsNonContracting := [0]
  rhsNonContracting := [1]
  lhsBatch := []
  rhsBatch := []
  wf := dot_S4096x8_S8x64_S4096x64_1_0_0_1_n_n_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S4096x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S4096x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v18) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v34) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v21) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v38) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v27) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v36) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v24) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v40) S128x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v30) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v41) S4096x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S262144x8 : Shape := ⟨2, ![262144, 8]⟩
abbrev S_ : Shape := ⟨0, ![]⟩
abbrev S262144x64 : Shape := ⟨2, ![262144, 64]⟩
abbrev S2097152x8 : Shape := ⟨2, ![2097152, 8]⟩
abbrev S2097152x64 : Shape := ⟨2, ![2097152, 64]⟩
abbrev S2097152x1 : Shape := ⟨2, ![2097152, 1]⟩

abbrev nBuf : Space → Nat
  | .hbm => 206
  | .vmem => 0
  | .smem => 0
  | _ => 0

abbrev hbmTy0_0 (i : Nat) : BufTy := match i % 128 with
  | 0 => ⟨S262144x128, .f32⟩
  | 1 => ⟨S262144x6, .f32⟩
  | 2 => ⟨S2097152x42, .f32⟩
  | 3 => ⟨S2097152, .i32⟩
  | 4 => ⟨S2097152, .i32⟩
  | 5 => ⟨S6x8, .f32⟩
  | 6 => ⟨S8x128, .f32⟩
  | 7 => ⟨S42x8, .f32⟩
  | 8 => ⟨S8x64, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64x128, .f32⟩
  | 15 => ⟨S1x128x128, .f32⟩
  | 16 => ⟨S1x128, .f32⟩
  | 17 => ⟨S1x128x128, .f32⟩
  | 18 => ⟨S1x128, .f32⟩
  | 19 => ⟨S128x128, .f32⟩
  | 20 => ⟨S128, .f32⟩
  | 21 => ⟨S2x128x128, .f32⟩
  | 22 => ⟨S2x128, .f32⟩
  | 23 => ⟨S2x128x128, .f32⟩
  | 24 => ⟨S2x128, .f32⟩
  | 25 => ⟨S262144x8, .f32⟩
  | 26 => ⟨S262144x128, .f32⟩
  | 27 => ⟨S262144x128, .f32⟩
  | 28 => ⟨S1x128, .f32⟩
  | 29 => ⟨S262144x128, .f32⟩
  | 30 => ⟨S262144x128, .f32⟩
  | 31 => ⟨S262144x128, .f32⟩
  | 32 => ⟨S262144x128, .f32⟩
  | 33 => ⟨S_, .f32⟩
  | 34 => ⟨S262144x128, .f32⟩
  | 35 => ⟨S262144x128, .f32⟩
  | 36 => ⟨S_, .f32⟩
  | 37 => ⟨S262144x128, .f32⟩
  | 38 => ⟨S262144x128, .f32⟩
  | 39 => ⟨S262144x128, .f32⟩
  | 40 => ⟨S262144x128, .f32⟩
  | 41 => ⟨S1x128, .f32⟩
  | 42 => ⟨S262144x128, .f32⟩
  | 43 => ⟨S262144x128, .f32⟩
  | 44 => ⟨S262144x128, .f32⟩
  | 45 => ⟨S262144x128, .f32⟩
  | 46 => ⟨S_, .f32⟩
  | 47 => ⟨S262144x128, .f32⟩
  | 48 => ⟨S262144x128, .f32⟩
  | 49 => ⟨S_, .f32⟩
  | 50 => ⟨S262144x128, .f32⟩
  | 51 => ⟨S262144x128, .f32⟩
  | 52 => ⟨S262144x128, .f32⟩
  | 53 => ⟨S262144x128, .f32⟩
  | 54 => ⟨S262144x64, .f32⟩
  | 55 => ⟨S262144x64, .f32⟩
  | 56 => ⟨S262144x64, .f32⟩
  | 57 => ⟨S_, .f32⟩
  | 58 => ⟨S262144x64, .f32⟩
  | 59 => ⟨S262144x64, .f32⟩
  | 60 => ⟨S_, .f32⟩
  | 61 => ⟨S262144x64, .f32⟩
  | 62 => ⟨S262144x64, .f32⟩
  | 63 => ⟨S262144x64, .f32⟩
  | 64 => ⟨S2097152x8, .f32⟩
  | 65 => ⟨S2097152x64, .f32⟩
  | 66 => ⟨S_, .i32⟩
  | 67 => ⟨S2097152, .i32⟩
  | 68 => ⟨S2097152, .i1⟩
  | 69 => ⟨S_, .i32⟩
  | 70 => ⟨S2097152, .i32⟩
  | 71 => ⟨S2097152, .i32⟩
  | 72 => ⟨S2097152, .i32⟩
  | 73 => ⟨S2097152x1, .i32⟩
  | 74 => ⟨S2097152x64, .f32⟩
  | 75 => ⟨S2097152x64, .f32⟩
  | 76 => ⟨S_, .f32⟩
  | 77 => ⟨S262144x64, .f32⟩
  | 78 => ⟨S2097152x1, .i32⟩
  | 79 => ⟨S262144x64, .f32⟩
  | 80 => ⟨S262144x128, .f32⟩
  | 81 => ⟨S262144x128, .f32⟩
  | 82 => ⟨S262144x128, .f32⟩
  | 83 => ⟨S_, .f32⟩
  | 84 => ⟨S262144x128, .f32⟩
  | 85 => ⟨S262144x128, .f32⟩
  | 86 => ⟨S_, .f32⟩
  | 87 => ⟨S262144x128, .f32⟩
  | 88 => ⟨S262144x128, .f32⟩
  | 89 => ⟨S262144x128, .f32⟩
  | 90 => ⟨S262144x128, .f32⟩
  | 91 => ⟨S128x128, .f32⟩
  | 92 => ⟨S128, .f32⟩
  | 93 => ⟨S128x128, .f32⟩
  | 94 => ⟨S128, .f32⟩
  | 95 => ⟨S262144x128, .f32⟩
  | 96 => ⟨S1x128, .f32⟩
  | 97 => ⟨S262144x128, .f32⟩
  | 98 => ⟨S262144x128, .f32⟩
  | 99 => ⟨S262144x128, .f32⟩
  | 100 => ⟨S262144x128, .f32⟩
  | 101 => ⟨S_, .f32⟩
  | 102 => ⟨S262144x128, .f32⟩
  | 103 => ⟨S262144x128, .f32⟩
  | 104 => ⟨S_, .f32⟩
  | 105 => ⟨S262144x128, .f32⟩
  | 106 => ⟨S262144x128, .f32⟩
  | 107 => ⟨S262144x128, .f32⟩
  | 108 => ⟨S262144x128, .f32⟩
  | 109 => ⟨S1x128, .f32⟩
  | 110 => ⟨S262144x128, .f32⟩
  | 111 => ⟨S262144x128, .f32⟩
  | 112 => ⟨S262144x128, .f32⟩
  | 113 => ⟨S262144x128, .f32⟩
  | 114 => ⟨S_, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S262144x128, .f32⟩
  | 121 => ⟨S262144x128, .f32⟩
  | 122 => ⟨S262144x128, .f32⟩
  | 123 => ⟨S1x128, .f32⟩
  | 124 => ⟨S262144x128, .f32⟩
  | 125 => ⟨S262144x128, .f32⟩
  | 126 => ⟨S262144x128, .f32⟩
  | 127 => ⟨S262144x128, .f32⟩
  | _ => ⟨S262144x128, .f32⟩

abbrev hbmTy0_1 (i : Nat) : BufTy := match i % 128 with
  | 0 => ⟨S_, .f32⟩
  | 1 => ⟨S262144x128, .f32⟩
  | 2 => ⟨S262144x128, .f32⟩
  | 3 => ⟨S_, .f32⟩
  | 4 => ⟨S262144x128, .f32⟩
  | 5 => ⟨S262144x128, .f32⟩
  | 6 => ⟨S262144x128, .f32⟩
  | 7 => ⟨S262144x128, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S262144x128, .f32⟩
  | 17 => ⟨S1x128, .f32⟩
  | 18 => ⟨S262144x128, .f32⟩
  | 19 => ⟨S262144x128, .f32⟩
  | 20 => ⟨S262144x128, .f32⟩
  | 21 => ⟨S262144x128, .f32⟩
  | 22 => ⟨S_, .f32⟩
  | 23 => ⟨S262144x128, .f32⟩
  | 24 => ⟨S262144x128, .f32⟩
  | 25 => ⟨S_, .f32⟩
  | 26 => ⟨S262144x128, .f32⟩
  | 27 => ⟨S262144x128, .f32⟩
  | 28 => ⟨S262144x128, .f32⟩
  | 29 => ⟨S262144x128, .f32⟩
  | 30 => ⟨S1x128, .f32⟩
  | 31 => ⟨S262144x128, .f32⟩
  | 32 => ⟨S262144x128, .f32⟩
  | 33 => ⟨S262144x128, .f32⟩
  | 34 => ⟨S262144x128, .f32⟩
  | 35 => ⟨S_, .f32⟩
  | 36 => ⟨S262144x128, .f32⟩
  | 37 => ⟨S262144x128, .f32⟩
  | 38 => ⟨S_, .f32⟩
  | 39 => ⟨S262144x128, .f32⟩
  | 40 => ⟨S262144x128, .f32⟩
  | 41 => ⟨S262144x128, .f32⟩
  | 42 => ⟨S262144x128, .f32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S262144x128, .f32⟩
  | 52 => ⟨S1x128, .f32⟩
  | 53 => ⟨S262144x128, .f32⟩
  | 54 => ⟨S262144x128, .f32⟩
  | 55 => ⟨S262144x128, .f32⟩
  | 56 => ⟨S262144x128, .f32⟩
  | 57 => ⟨S_, .f32⟩
  | 58 => ⟨S262144x128, .f32⟩
  | 59 => ⟨S262144x128, .f32⟩
  | 60 => ⟨S_, .f32⟩
  | 61 => ⟨S262144x128, .f32⟩
  | 62 => ⟨S262144x128, .f32⟩
  | 63 => ⟨S262144x128, .f32⟩
  | 64 => ⟨S262144x128, .f32⟩
  | 65 => ⟨S1x128, .f32⟩
  | 66 => ⟨S262144x128, .f32⟩
  | 67 => ⟨S262144x128, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S_, .f32⟩
  | 74 => ⟨S262144x128, .f32⟩
  | 75 => ⟨S262144x128, .f32⟩
  | 76 => ⟨S262144x128, .f32⟩
  | 77 => ⟨S262144x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c : Ref sig .tc := ⟨.hbm, 66, rfl⟩
abbrev main_v17 : Ref sig .tc := ⟨.hbm, 67, rfl⟩
abbrev main_v18 : Ref sig .tc := ⟨.hbm, 68, rfl⟩
abbrev main_c_0 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_call7_v0 : Ref sig .tc := ⟨.hbm, 148, rfl⟩
abbrev main_call7_v1 : Ref sig .tc := ⟨.hbm, 149, rfl⟩
abbrev main_call7_cst : Ref sig .tc := ⟨.hbm, 150, rfl⟩
abbrev main_call7_v2 : Ref sig .tc := ⟨.hbm, 151, rfl⟩
abbrev main_call7_v3 : Ref sig .tc := ⟨.hbm, 152, rfl⟩
abbrev main_call7_cst_0 : Ref sig .tc := ⟨.hbm, 153, rfl⟩
abbrev main_call7_v4 : Ref sig .tc := ⟨.hbm, 154, rfl⟩
abbrev main_call7_v5 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_call9_v0 : Ref sig .tc := ⟨.hbm, 183, rfl⟩
abbrev main_call9_v1 : Ref sig .tc := ⟨.hbm, 184, rfl⟩
abbrev main_call9_cst : Ref sig .tc := ⟨.hbm, 185, rfl⟩
abbrev main_call9_v2 : Ref sig .tc := ⟨.hbm, 186, rfl⟩
abbrev main_call9_v3 : Ref sig .tc := ⟨.hbm, 187, rfl⟩
abbrev main_call9_cst_0 : Ref sig .tc := ⟨.hbm, 188, rfl⟩
abbrev main_call9_v4 : Ref sig .tc := ⟨.hbm, 189, rfl⟩
abbrev main_call9_v5 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v88 : Ref sig .tc := ⟨.hbm, 204, rfl⟩
abbrev main_v89 : Ref sig .tc := ⟨.hbm, 205, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x64 : S_.BroadcastsInDim S262144x64 (![] : Fin 0 → Fin S262144x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S1x128x128_S128x128 : S1x128x128.ShapeCasts S128x128
  shapeCasts_S1x128_S128 : S1x128.ShapeCasts S128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  dot_S262144x6_S6x8_S262144x8_1_0_0_1_n_n_wf : DotDims.WF S262144x6 S6x8 S262144x8 [1] [0] [0] [1] [] []
  dot_S262144x8_S8x128_S262144x128_1_0_0_1_n_n_wf : DotDims.WF S262144x8 S8x128 S262144x128 [1] [0] [0] [1] [] []
  dot_S262144x128_S128x128_S262144x128_1_0_0_1_n_n_wf : DotDims.WF S262144x128 S128x128 S262144x128 [1] [0] [0] [1] [] []
  dot_S262144x128_S128x64_S262144x64_1_0_0_1_n_n_wf : DotDims.WF S262144x128 S128x64 S262144x64 [1] [0] [0] [1] [] []
  dot_S2097152x42_S42x8_S2097152x8_1_0_0_1_n_n_wf : DotDims.WF S2097152x42 S42x8 S2097152x8 [1] [0] [0] [1] [] []
  dot_S2097152x8_S8x64_S2097152x64_1_0_0_1_n_n_wf : DotDims.WF S2097152x8 S8x64 S2097152x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x128_S262144x128_1_0_0_1_n_n_wf : DotDims.WF S262144x64 S64x128 S262144x128 [1] [0] [0] [1] [] []

variable [Facts₀]

def dot_S262144x6_S6x8_S262144x8_1_0_0_1_n_n : DotDims S262144x6 S6x8 S262144x8 where
  lhsContracting := [1]
  rhsContracting := [0]
  lhsNonContracting := [0]
  rhsNonContracting := [1]
  lhsBatch := []
  rhsBatch := []
  wf := dot_S262144x6_S6x8_S262144x8_1_0_0_1_n_n_wf
def dot_S262144x8_S8x128_S262144x128_1_0_0_1_n_n : DotDims S262144x8 S8x128 S262144x128 where
  lhsContracting := [1]
  rhsContracting := [0]
  lhsNonContracting := [0]
  rhsNonContracting := [1]
  lhsBatch := []
  rhsBatch := []
  wf := dot_S262144x8_S8x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S2097152x42_S42x8_S2097152x8_1_0_0_1_n_n : DotDims S2097152x42 S42x8 S2097152x8 where
  lhsContracting := [1]
  rhsContracting := [0]
  lhsNonContracting := [0]
  rhsNonContracting := [1]
  lhsBatch := []
  rhsBatch := []
  wf := dot_S2097152x42_S42x8_S2097152x8_1_0_0_1_n_n_wf
def dot_S2097152x8_S8x64_S2097152x64_1_0_0_1_n_n : DotDims S2097152x8 S8x64 S2097152x64 where
  lhsContracting := [1]
  rhsContracting := [0]
  lhsNonContracting := [0]
  rhsNonContracting := [1]
  lhsBatch := []
  rhsBatch := []
  wf := dot_S2097152x8_S8x64_S2097152x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf

class Facts : Prop extends Facts₀ where

variable [Facts]
-- ==== Proof.KRun.lean ====
/-
  The kernel program's run, with every buffer of the TensorCore read at the end.

  The program is six segments in order: a stretch of host operations, the first launch, a stretch, the second launch,
  a stretch, the third launch.  The buffer contents at each boundary are a fold from the launch memory: a stretch
  applies its operations; a launch leaves each of its arrays at what its write-backs leave and every other buffer as
  it was.  Every weakly fair execution terminates, nothing faults, and every unscoped buffer of the TensorCore then
  holds the last boundary's contents.
-/
import proofs.«124901_j62199716381203_2_alg».proof.Proof.Gen.KernelIdeal.Frame

set_option maxRecDepth 16384

noncomputable section

namespace Cert.Block.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every unscoped buffer ends at the contents after the
    last segment. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Block.KRun

end
-- ==== Proof.LibDense.lean ====
/-
  A dense layer read entry by entry, at the exact (extended-real) values.

  A dense layer takes an M × K array x, a K × N weight W and a bias of length N and returns the M × N array whose
  (p, q) entry is  Σ_c x(p, c) · W(c, q) + bias(q).  A kernel computes it on a block of rows with its matrix unit
  (a product accumulated into zeros) and adds the bias laid out as a 1 × N row repeated down the block; a host
  program computes it with a general product of the whole arrays and adds the bias laid out first as a 1 × N row
  and then as an M × N array.  Here both are read at an entry as that one expression, the sum running over the
  contracted coordinate itself.  Also here: a leading axis of extent one dropped or added reads at an entry as the
  same array at the entry with that coordinate left out or set to zero.
-/
import Idealize.ShloMosaic.Lib.ValueIdx
import Idealize.ShloMosaic.Lib.Pipeline.Value
import Idealize.ShloMosaic.Lib.StackMember
import Idealize.ShloMosaic.PureOps.Ideal.Laws

noncomputable section

namespace Cert.Lib.Dense

open Idealize.ShloMosaic Idealize.ShloMosaic.ValueIdx
open scoped BigOperators

variable {M K N : Nat}

/-- Entry (p, q) of x · W with the bias β added to every row:  Σ_c x(p, c) · W(c, q) + β(q). -/
def denseAt (x : (⟨2, ![M, K]⟩ : Shape).Idx → EReal) (W : (⟨2, ![K, N]⟩ : Shape).Idx → EReal) (β : Fin N → EReal)
    (p : Fin M) (q : Fin N) : EReal :=
  (∑ c : Fin K, x (ix2 p c) * W (ix2 c q)) + β q

/-- The M × N array of those entries. -/
def dense (x : (⟨2, ![M, K]⟩ : Shape).Idx → EReal) (W : (⟨2, ![K, N]⟩ : Shape).Idx → EReal) (β : Fin N → EReal) :
    (⟨2, ![M, N]⟩ : Shape).Idx → EReal :=
  fun i => denseAt x W β (i 0) (i 1)

theorem dense_ix2 (x : (⟨2, ![M, K]⟩ : Shape).Idx → EReal) (W : (⟨2, ![K, N]⟩ : Shape).Idx → EReal) (β : Fin N → EReal)
    (p : Fin M) (q : Fin N) : dense x W β (ix2 p q) = denseAt x W β p q := rfl

/-- The product of an M × K by a K × N matrix accumulated into zeros, at (a, b), is the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A 1 × N row repeated down M rows (a vector broadcast), at (p, q), is the row at q. -/
theorem broadcastTo_row_apply {α : Type} (r : (⟨2, ![1, N]⟩ : Shape).Idx → α)
    (h : (⟨2, ![1, N]⟩ : Shape).Broadcasts ⟨2, ![M, N]⟩) (p : Fin M) (q : Fin N) :
    broadcastTo ⟨2, ![M, N]⟩ r h (ix2 p q) = r (ix2 (0 : Fin 1) q) := by
  refine broadcastTo_apply r h (ix2 p q) (ix2 (0 : Fin 1) q) fun a => ?_
  match a with
  | ⟨0, _⟩ => rfl
  | ⟨1, _⟩ =>
    show q.val = if N = 1 then 0 else q.val
    split
    · have := q.isLt; omega
    · rfl

/-- A 1 × N row laid out as an M × N array (a broadcast along both axes in place), at (p, q), is the row at q. -/
theorem broadcastInDim_row_apply {α : Type} (r : (⟨2, ![1, N]⟩ : Shape).Idx → α)
    (h : (⟨2, ![1, N]⟩ : Shape).BroadcastsInDim ⟨2, ![M, N]⟩ (![0, 1] : Fin 2 → Fin 2)) (p : Fin M) (q : Fin N) :
    broadcastInDim ⟨2, ![M, N]⟩ (![0, 1] : Fin 2 → Fin 2) h r (ix2 p q) = r (ix2 (0 : Fin 1) q) := by
  refine broadcastInDim_apply _ h r (ix2 p q) (ix2 (0 : Fin 1) q) fun a => ?_
  match a with
  | ⟨0, _⟩ => rfl
  | ⟨1, _⟩ =>
    show q.val = if N = 1 then 0 else q.val
    split
    · have := q.isLt; omega
    · rfl

/-- A vector of length N laid out as a 1 × N row, at (0, q), is the vector at q. -/
theorem broadcastInDim_vec_row_apply {α : Type} (v : (⟨1, ![N]⟩ : Shape).Idx → α)
    (h : (⟨1, ![N]⟩ : Shape).BroadcastsInDim ⟨2, ![1, N]⟩ (![1] : Fin 1 → Fin 2)) (q : Fin N) :
    broadcastInDim ⟨2, ![1, N]⟩ (![1] : Fin 1 → Fin 2) h v (ix2 (0 : Fin 1) q) = v (ix1 q) := by
  refine broadcastInDim_apply _ h v (ix2 (0 : Fin 1) q) (ix1 q) fun a => ?_
  match a with
  | ⟨0, _⟩ =>
    show q.val = if N = 1 then 0 else q.val
    split
    · have := q.isLt; omega
    · rfl

/-- A vector of length N reshaped to a 1 × N row, at (0, q), is the vector at q. -/
theorem shapeCast_vec_row_apply {α : Type} (v : (⟨1, ![N]⟩ : Shape).Idx → α)
    (h : (⟨1, ![N]⟩ : Shape).ShapeCasts ⟨2, ![1, N]⟩) (q : Fin N) :
    shapeCast ⟨2, ![1, N]⟩ v h (ix2 (0 : Fin 1) q) = v (ix1 q) := by
  refine shapeCast_apply v h _ _ ?_
  rw [Shape.rowMajor_val_two, Shape.rowMajor_val_one]
  show q.val = 0 * N + q.val
  omega

/-- The host's layer: the general product of the whole arrays, plus the bias laid out as a row and then as an
    array, is the array of dense entries. -/
theorem host_dense_eq {φ₁ φ₂ : FTy} (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) prec x W)
        (broadcastInDim ⟨2, ![M, N]⟩ (![0, 1] : Fin 2 → Fin 2) h2 (broadcastInDim ⟨2, ![1, N]⟩ (![1] : Fin 1 → Fin 2) h1 b))
      = dense x W (fun q => b (ix1 q)) := by
  funext i
  obtain ⟨p, q, rfl⟩ : ∃ (p : Fin M) (q : Fin N), i = ix2 p q := ⟨i 0, i 1, eq_ix2 i⟩
  rw [addf_apply, StackMember.dotGeneral_plain_apply, broadcastInDim_row_apply, broadcastInDim_vec_row_apply]
  rfl

/-- The kernel's layer on a block of rows: the product into zeros plus the bias row repeated down the block, at (p, q),
    is the dense entry. -/
theorem block_dense_apply {φ₁ φ₂ : FTy} (prec : Option ContractPrecision)
    (x : FVec Ideal ⟨2, ![M, K]⟩ φ₁) (W : FVec Ideal ⟨2, ![K, N]⟩ φ₂) (r : FVec Ideal ⟨2, ![1, N]⟩ .f32)
    (h : (⟨2, ![1, N]⟩ : Shape).Broadcasts ⟨2, ![M, N]⟩) (p : Fin M) (q : Fin N) :
    addf (FloatOps.matmul (DotDims.plain M K N) prec x W (constant (F := Ideal) ⟨2, ![M, N]⟩ .f32 0x00000000#32))
        (broadcastTo ⟨2, ![M, N]⟩ r h) (ix2 p q)
      = denseAt x W (fun q => r (ix2 (0 : Fin 1) q)) p q := by
  rw [addf_apply, matmul_plain_zero_apply, broadcastTo_row_apply]
  rfl

end Cert.Lib.Dense

end
-- ==== Proof.Layers.lean ====
/-
  The layers of an edge-message block, read as whole arrays at the exact (extended-real) values.

  Every array here is a matrix M × N of extended reals.  Three operations build all the layers:
  the matrix product  (x · W)(p, q) = Σ_c x(p, c) · W(c, q),  a vector of length N laid out along every one of M rows,
  and the activation  silu z = z · 1 / (1 + e^(-z))  applied entry by entry.  A kernel computes them on a block of rows
  (its matrix unit accumulating into zeros, a 1 × N row repeated down the block, z times the logistic of z); a host
  program computes them on the whole arrays (a general product, the vector laid out first as a row and then as an
  array, z times the quotient of one by one plus the exponential of minus z).  Both spellings are shown here to be
  the same three operations.  All three act on each row by itself: taking the rows f(0), f(1), … of the result is
  the same as applying the operation to those rows of the argument.  That is what lets a result computed block of
  rows by block of rows be compared with the one computed on the whole array.
-/
import Idealize.ShloMosaic.Lib.ValueIdx
import Idealize.ShloMosaic.Lib.Pipeline.Value
import Idealize.ShloMosaic.Lib.StackMember
import Idealize.ShloMosaic.Lib.IdealHost
import Idealize.ShloMosaic.PureOps.Ideal.Laws
import proofs.«124901_j62199716381203_2_alg».proof.Proof.LibDense

noncomputable section

namespace Cert.Block

open Idealize.ShloMosaic Idealize.ShloMosaic.ValueIdx Cert.Lib.Dense
open scoped BigOperators

variable {M M' K N : Nat}

/-- An M × N array of extended reals. -/
abbrev Mat (M N : Nat) : Type := (⟨2, ![M, N]⟩ : Shape).Idx → EReal

/-- The matrix product: entry (p, q) is Σ_c x(p, c) · W(c, q). -/
def mm (x : Mat M K) (W : Mat K N) : Mat M N := fun i => ∑ c : Fin K, x (ix2 (i 0) c) * W (ix2 c (i 1))

/-- A vector of length N laid out along each of M rows. -/
def rep (M : Nat) (b : Fin N → EReal) : Mat M N := fun i => b (i 1)

/-- Entrywise sum and product. -/
def add (a b : Mat M N) : Mat M N := fun i => a i + b i
def mul (a b : Mat M N) : Mat M N := fun i => a i * b i

/-- The activation z · 1 / (1 + e^(-z)), entry by entry. -/
def silu (z : Mat M N) : Mat M N := fun i => z i * Ideal.logistic (z i)

/-- The rows f(0), f(1), …, f(M' - 1) of an array. -/
def rowsAt (f : Fin M' → Fin M) (x : Mat M N) : Mat M' N := fun i => x (ix2 (f (i 0)) (i 1))

/-! ## Each operation acts on every row by itself -/

theorem rowsAt_mm (f : Fin M' → Fin M) (x : Mat M K) (W : Mat K N) : rowsAt f (mm x W) = mm (rowsAt f x) W := rfl
theorem rowsAt_rep (f : Fin M' → Fin M) (b : Fin N → EReal) : rowsAt f (rep M b) = rep M' b := rfl
theorem rowsAt_add (f : Fin M' → Fin M) (a b : Mat M N) : rowsAt f (add a b) = add (rowsAt f a) (rowsAt f b) := rfl
theorem rowsAt_mul (f : Fin M' → Fin M) (a b : Mat M N) : rowsAt f (mul a b) = mul (rowsAt f a) (rowsAt f b) := rfl
theorem rowsAt_silu (f : Fin M' → Fin M) (z : Mat M N) : rowsAt f (silu z) = silu (rowsAt f z) := rfl

/-- The product of entries commutes. -/
theorem mul_comm' (a b : Mat M N) : mul a b = mul b a := funext fun i => mul_comm (a i) (b i)

/-! ## The kernel's spellings -/

/-- The matrix unit's product accumulated into zeros. -/
theorem matmul_eq_mm {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant (F := Ideal) ⟨2, ![M, N]⟩ .f32 0x00000000#32) = mm A B := by
  funext i
  obtain ⟨p, q, rfl⟩ : ∃ (p : Fin M) (q : Fin N), i = ix2 p q := ⟨i 0, i 1, eq_ix2 i⟩
  exact matmul_plain_zero_apply prec A B p q

/-- A 1 × N row repeated down the block. -/
theorem broadcastTo_eq_rep (r : (⟨2, ![1, N]⟩ : Shape).Idx → EReal)
    (h : (⟨2, ![1, N]⟩ : Shape).Broadcasts ⟨2, ![M, N]⟩) :
    broadcastTo ⟨2, ![M, N]⟩ r h = rep M (fun q => r (ix2 (0 : Fin 1) q)) := by
  funext i
  obtain ⟨p, q, rfl⟩ : ∃ (p : Fin M) (q : Fin N), i = ix2 p q := ⟨i 0, i 1, eq_ix2 i⟩
  exact broadcastTo_row_apply r h p q

/-- A change of float format does nothing to the exact values. -/
theorem truncf_eq {s : Shape} {φ ψ : FTy} (a : FVec Ideal s φ) (h : ψ.bits < φ.bits) :
    (truncf ψ a h : FVec Ideal s ψ) = a := rfl

/-- z times the logistic of z. -/
theorem mulf_logistic_eq (z : FVec Ideal ⟨2, ![M, N]⟩ .f32) : mulf z (logistic z) = silu z := rfl

theorem addf_eq (a b : FVec Ideal ⟨2, ![M, N]⟩ .f32) : addf a b = add a b := rfl
theorem mulf_eq (a b : FVec Ideal ⟨2, ![M, N]⟩ .f32) : mulf a b = mul a b := rfl

/-! ## The host's spellings -/

/-- The general product of the whole arrays. -/
theorem dotGeneral_eq_mm {φ₁ φ₂ : FTy} (prec : Option ContractPrecision)
    (A : FVec Ideal ⟨2, ![M, K]⟩ φ₁) (B : FVec Ideal ⟨2, ![K, N]⟩ φ₂) :
    Host.dotGeneral (DotDims.plain M K N) prec A B = mm A B := by
  funext i
  obtain ⟨p, q, rfl⟩ : ∃ (p : Fin M) (q : Fin N), i = ix2 p q := ⟨i 0, i 1, eq_ix2 i⟩
  exact StackMember.dotGeneral_plain_apply prec A B p q

/-- A vector laid out as a 1 × N row and then as an M × N array. -/
theorem broadcastInDim2_eq_rep (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ (![0, 1] : Fin 2 → Fin 2) h2 (broadcastInDim ⟨2, ![1, N]⟩ (![1] : Fin 1 → Fin 2) h1 b)
      = rep M (fun q => b (ix1 q)) := by
  funext i
  obtain ⟨p, q, rfl⟩ : ∃ (p : Fin M) (q : Fin N), i = ix2 p q := ⟨i 0, i 1, eq_ix2 i⟩
  rw [broadcastInDim_row_apply, broadcastInDim_vec_row_apply]
  rfl

/-- A vector reshaped to a 1 × N row, read along the row, is the vector. -/
theorem shapeCast_row_eq (v : (⟨1, ![N]⟩ : Shape).Idx → EReal) (h : (⟨1, ![N]⟩ : Shape).ShapeCasts ⟨2, ![1, N]⟩) :
    (fun q : Fin N => shapeCast ⟨2, ![1, N]⟩ v h (ix2 (0 : Fin 1) q)) = fun q => v (ix1 q) :=
  funext fun q => shapeCast_vec_row_apply v h q

/-- z times the quotient of one by one plus the exponential of minus z, the ones being the float pattern of 1.0
    laid out over the array. -/
theorem host_silu_eq (h : (⟨0, ![]⟩ : Shape).BroadcastsInDim ⟨2, ![M, N]⟩ ![]) (z : FVec Ideal ⟨2, ![M, N]⟩ .f32) :
    mulf z (Host.divf (broadcastInDim ⟨2, ![M, N]⟩ ![] h (constant (F := Ideal) ⟨0, ![]⟩ .f32 0x3F800000#32))
        (addf (broadcastInDim ⟨2, ![M, N]⟩ ![] h (constant (F := Ideal) ⟨0, ![]⟩ .f32 0x3F800000#32))
          (Host.exp (Host.negf z))))
      = silu z := by
  funext i
  rw [mulf_apply, hostDivf_apply, addf_apply, broadcastInDim_scalar_apply, constant_apply, Ideal.ofBits_one_f32]
  rfl

end Cert.Block

end
-- ==== Proof.BlockSpec.lean ====
/-
  The three stages of the edge-message block as functions of whole arrays, for any number M of rows.

  Stage one takes the edge embeddings m (M × 128) and the radial basis (M × 6) and returns, row by row,
      silu( ( silu(m · W_kj + b_kj)  ⊙  ((rbf · W₁) · W₂) ) · W_down ),        an M × 64 array.
  Stage two takes the angular basis (M × 42) and a gathered M × 64 array g and returns  ((sbf · V₁) · V₂) ⊙ g.
  Stage three takes m again and the aggregated messages μ (M × 64) and returns
      o₂   where  u₀ = silu(μ · W_up) + silu(m · W_ji + b_ji),   u₁ = res(u₀),   u₂ = silu(u₁ · W_f + b_f),
                  o₀ = m + u₂,   o₁ = res(o₀),   o₂ = res(o₁),
  each res(x) = x + silu(silu(x · A + a) · B + b) with its own weights.
  Every stage is built from row-wise operations only, so the rows f(0), f(1), … of a stage's result are the
  stage applied to those rows of its row arguments (the weights stay whole).
-/
import proofs.«124901_j62199716381203_2_alg».proof.Proof.Layers

noncomputable section

namespace Cert.Block

open Idealize.ShloMosaic Idealize.ShloMosaic.ValueIdx

variable {M M' K N : Nat}

/-- A dense layer with bias followed by the activation: silu(x · W + b). -/
def act (x : Mat M K) (W : Mat K N) (b : Fin N → EReal) : Mat M N := silu (add (mm x W) (rep M b))

/-- A residual pair of such layers: x + silu(silu(x · A + a) · B + b). -/
def res (x : Mat M N) (A : Mat N N) (a : Fin N → EReal) (B : Mat N N) (b : Fin N → EReal) : Mat M N :=
  add x (act (act x A a) B b)

/-- Stage one. -/
def edgeStage (m : Mat M 128) (rbf : Mat M 6) (W₁ : Mat 6 8) (W₂ : Mat 8 128) (Wkj : Mat 128 128)
    (bkj : Fin 128 → EReal) (Wd : Mat 128 64) : Mat M 64 :=
  silu (mm (mul (act m Wkj bkj) (mm (mm rbf W₁) W₂)) Wd)

/-- Stage two. -/
def msgStage (sbf : Mat M 42) (g : Mat M 64) (V₁ : Mat 42 8) (V₂ : Mat 8 64) : Mat M 64 :=
  mul (mm (mm sbf V₁) V₂) g

/-- Stage three. -/
def updStage (m : Mat M 128) (μ : Mat M 64) (Wji : Mat 128 128) (bji : Fin 128 → EReal) (Wup : Mat 64 128)
    (A₀ : Mat 128 128) (a₀ : Fin 128 → EReal) (B₀ : Mat 128 128) (b₀ : Fin 128 → EReal)
    (Wf : Mat 128 128) (bf : Fin 128 → EReal)
    (A₁ : Mat 128 128) (a₁ : Fin 128 → EReal) (B₁ : Mat 128 128) (b₁ : Fin 128 → EReal)
    (A₂ : Mat 128 128) (a₂ : Fin 128 → EReal) (B₂ : Mat 128 128) (b₂ : Fin 128 → EReal) : Mat M 128 :=
  res (res (add m (act (res (add (silu (mm μ Wup)) (act m Wji bji)) A₀ a₀ B₀ b₀) Wf bf)) A₁ a₁ B₁ b₁) A₂ a₂ B₂ b₂

/-- The whole block: stage one on the E edges, its rows gathered to the T triplets (`gatherF`), stage two on the
    triplets, the messages summed back onto the edges (`scatterF`), stage three on the edges.  The gather and the sum
    are parameters: both programs apply the same two host operations there, and nothing is asked of them. -/
def blockValue {E T : Nat} (gatherF : Mat E 64 → Mat T 64) (scatterF : Mat T 64 → Mat E 64)
    (m : Mat E 128) (rbf : Mat E 6) (sbf : Mat T 42) (W₁ : Mat 6 8) (W₂ : Mat 8 128) (V₁ : Mat 42 8) (V₂ : Mat 8 64)
    (Wji : Mat 128 128) (bji : Fin 128 → EReal) (Wkj : Mat 128 128) (bkj : Fin 128 → EReal) (Wd : Mat 128 64) (Wup : Mat 64 128)
    (A₀ : Mat 128 128) (a₀ : Fin 128 → EReal) (B₀ : Mat 128 128) (b₀ : Fin 128 → EReal)
    (Wf : Mat 128 128) (bf : Fin 128 → EReal)
    (A₁ : Mat 128 128) (a₁ : Fin 128 → EReal) (B₁ : Mat 128 128) (b₁ : Fin 128 → EReal)
    (A₂ : Mat 128 128) (a₂ : Fin 128 → EReal) (B₂ : Mat 128 128) (b₂ : Fin 128 → EReal) : Mat E 128 :=
  updStage m (scatterF (msgStage sbf (gatherF (edgeStage m rbf W₁ W₂ Wkj bkj Wd)) V₁ V₂))
    Wji bji Wup A₀ a₀ B₀ b₀ Wf bf A₁ a₁ B₁ b₁ A₂ a₂ B₂ b₂

/-- A vector of length N as a function of its one coordinate. -/
abbrev vec {N : Nat} (v : (⟨1, ![N]⟩ : Shape).Idx → EReal) : Fin N → EReal := fun q => v (ix1 q)

/-! ## The stages act on every row by itself -/

theorem rowsAt_edgeStage (f : Fin M' → Fin M) (m : Mat M 128) (rbf : Mat M 6) (W₁ : Mat 6 8) (W₂ : Mat 8 128)
    (Wkj : Mat 128 128) (bkj : Fin 128 → EReal) (Wd : Mat 128 64) :
    rowsAt f (edgeStage m rbf W₁ W₂ Wkj bkj Wd) = edgeStage (rowsAt f m) (rowsAt f rbf) W₁ W₂ Wkj bkj Wd := rfl

theorem rowsAt_msgStage (f : Fin M' → Fin M) (sbf : Mat M 42) (g : Mat M 64) (V₁ : Mat 42 8) (V₂ : Mat 8 64) :
    rowsAt f (msgStage sbf g V₁ V₂) = msgStage (rowsAt f sbf) (rowsAt f g) V₁ V₂ := rfl

theorem rowsAt_updStage (f : Fin M' → Fin M) (m : Mat M 128) (μ : Mat M 64) (Wji : Mat 128 128) (bji : Fin 128 → EReal)
    (Wup : Mat 64 128) (A₀ : Mat 128 128) (a₀ : Fin 128 → EReal) (B₀ : Mat 128 128) (b₀ : Fin 128 → EReal)
    (Wf : Mat 128 128) (bf : Fin 128 → EReal)
    (A₁ : Mat 128 128) (a₁ : Fin 128 → EReal) (B₁ : Mat 128 128) (b₁ : Fin 128 → EReal)
    (A₂ : Mat 128 128) (a₂ : Fin 128 → EReal) (B₂ : Mat 128 128) (b₂ : Fin 128 → EReal) :
    rowsAt f (updStage m μ Wji bji Wup A₀ a₀ B₀ b₀ Wf bf A₁ a₁ B₁ b₁ A₂ a₂ B₂ b₂)
      = updStage (rowsAt f m) (rowsAt f μ) Wji bji Wup A₀ a₀ B₀ b₀ Wf bf A₁ a₁ B₁ b₁ A₂ a₂ B₂ b₂ := rfl

end Cert.Block

end
-- ==== Proof.Pay.lean ====
/-
  What each kernel body computes from its loaded blocks, at the exact values: a stage of the edge-message block on
  the block's rows.

  A body loads a block of 4096 rows of each row array and the whole of each weight, and stores one block of 4096
  rows.  Read at the exact values (a change of float format does nothing, a product accumulated into zeros is the
  product, a 1 × N row repeated down the block is the bias laid along every row, z times the logistic of z is the
  activation) the stored block is: for the first body stage one of the loaded blocks, for the second stage two, for
  the third stage three.
-/
import proofs.«124901_j62199716381203_2_alg».proof.Proof.Gen.KernelIdeal.Skeleton
import proofs.«124901_j62199716381203_2_alg».proof.Proof.BlockSpec

set_option maxRecDepth 16384

noncomputable section

namespace Cert.Block

open Idealize.ShloMosaic Idealize.ShloMosaic.ValueIdx Cert.KernelIdeal Cert.KernelIdeal.Gen

/-! The products' dimension records are the plain M × K by K × N ones. -/
theorem d_6_8 : dot_S4096x6_S6x8_S4096x8_1_0_0_1_n_n = DotDims.plain 4096 6 8 := rfl
theorem d_8_128 : dot_S4096x8_S8x128_S4096x128_1_0_0_1_n_n = DotDims.plain 4096 8 128 := rfl
theorem d_128_128 : dot_S4096x128_S128x128_S4096x128_1_0_0_1_n_n = DotDims.plain 4096 128 128 := rfl
theorem d_128_64 : dot_S4096x128_S128x64_S4096x64_1_0_0_1_n_n = DotDims.plain 4096 128 64 := rfl
theorem d_42_8 : dot_S4096x42_S42x8_S4096x8_1_0_0_1_n_n = DotDims.plain 4096 42 8 := rfl
theorem d_8_64 : dot_S4096x8_S8x64_S4096x64_1_0_0_1_n_n = DotDims.plain 4096 8 64 := rfl
theorem d_64_128 : dot_S4096x64_S64x128_S4096x128_1_0_0_1_n_n = DotDims.plain 4096 64 128 := rfl

/-- The bias a 1 × 128 row carries. -/
abbrev rowVec (r : Vec Ideal S1x128 .f32) : Fin 128 → EReal := fun q => r (ix2 (0 : Fin 1) q)

/-- The first body stores stage one of its blocks. -/
theorem pay_edge (x0 : Vec Ideal S4096x128 .f32) (x1 : Vec Ideal S4096x6 .f32) (x2 : Vec Ideal S6x8 .f32)
    (x3 : Vec Ideal S8x128 .f32) (x4 : Vec Ideal S128x128 .f32) (x5 : Vec Ideal S1x128 .f32) (x6 : Vec Ideal S128x64 .f32) :
    k0_pay1 (F := Ideal) x0 x1 x2 x3 x4 x5 x6 = edgeStage x0 x1 x2 x3 x4 (rowVec x5) x6 := by
  unfold k0_pay1
  simp only [d_6_8, d_8_128, d_128_128, d_128_64, truncf_eq, matmul_eq_mm, shapeCast_self, broadcastTo_eq_rep]
  rfl

/-- The second body stores stage two of its blocks. -/
theorem pay_msg (x0 : Vec Ideal S4096x42 .f32) (x2 : Vec Ideal S42x8 .f32) (x3 : Vec Ideal S8x64 .f32)
    (x1 : Vec Ideal S4096x64 .f32) :
    k1_pay1 (F := Ideal) x0 x2 x3 x1 = msgStage x0 x1 x2 x3 := by
  unfold k1_pay1
  simp only [d_42_8, d_8_64, truncf_eq, matmul_eq_mm, shapeCast_self]
  rfl

/-- The third body stores stage three of its blocks. -/
theorem pay_upd (x0 : Vec Ideal S4096x128 .f32) (x1 : Vec Ideal S4096x64 .f32) (x2 : Vec Ideal S128x128 .f32)
    (x3 : Vec Ideal S1x128 .f32) (x4 : Vec Ideal S64x128 .f32) (x5 : Vec Ideal S128x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32)
    (x15 : Vec Ideal S128x128 .f32) (x16 : Vec Ideal S1x128 .f32) (x17 : Vec Ideal S128x128 .f32) (x18 : Vec Ideal S1x128 .f32) :
    k2_pay1 (F := Ideal) (k2_pay6 x0 (k2_pay2 x0 x1 x2 x3 x4) (k2_pay3 x7) (k2_pay4 x8) (k2_pay5 x0 x1 x2 x3 x4 x5 x6)
        (constant S4096x128 .f32 0x00000000#32) x9 x10 x11 x12 x13 x14) (k2_pay7 x15) x16 x17 x18
      = updStage x0 x1 x2 (rowVec x3) x4 x5 (rowVec x6) x7 (rowVec x8) x9 (rowVec x10) x11 (rowVec x12) x13 (rowVec x14)
          x15 (rowVec x16) x17 (rowVec x18) := by
  unfold k2_pay1 k2_pay6 k2_pay7 k2_pay5 k2_pay4 k2_pay3 k2_pay2
  simp only [d_128_128, d_64_128, truncf_eq, matmul_eq_mm, shapeCast_self, broadcastTo_eq_rep]
  rfl

end Cert.Block

end
-- ==== Proof.Region0.lean ====
/-
  The first launch: what its output array holds afterwards.

  The launch runs the first body at 64 points.  At point t the row windows (the edge embeddings, the radial basis and
  the output) are the rows t·4096 … t·4096 + 4095 of their arrays, and every weight window is its whole array.  The
  body stores stage one of its blocks; stage one acts on every row by itself, so the stored block is rows
  t·4096 … of stage one of the whole arrays.  The 64 blocks tile the output array (row r lies in block r / 4096), so
  after the launch the array is stage one of the arrays the launch found.
-/
import proofs.«124901_j62199716381203_2_alg».proof.Proof.Gen.KernelIdeal.Frame
import proofs.«124901_j62199716381203_2_alg».proof.Proof.Pay

set_option maxRecDepth 16384

noncomputable section

namespace Cert.Block.R0

open Idealize.ShloMosaic Idealize.ShloMosaic.TcCoe Idealize.ShloMosaic.ValueIdx Idealize.ShloMosaic.Pipeline Idealize.SL.Sem Cert.KernelIdeal Cert.KernelIdeal.Gen Cert.Block

variable (V : (c : Dev nD) → (b : Ref sig .tc) → Buf (Elt Ideal) ((c : Thread nD τ).loc b))

theorem hz : (![0, 0] : Fin 2 → Nat) = fun _ => 0 := funext fun a => by fin_cases a <;> rfl

/-- The block indices at every point: (t, 0) for the row windows, (0, 0) for the weights. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 64 := lt_of_lt_of_eq t.isLt N_0

/-- Row y of block t is row t·4096 + y of the array. -/
def rows (t : Fin cfg0.N) : Fin 4096 → Fin 262144 := fun y => ⟨t.val * 4096 + y.val, by have := t_lt t; have := y.isLt; omega⟩

theorem blk_0 (c : Dev nD) (t : Fin cfg0.N) : iblk0 V c 0 t = rowsAt (rows t) (V c main_arg0) := by
  obtain ⟨e0, e1, -⟩ := idx t
  funext j
  show V c main_arg0 (((cfg0.win 0).blk t).view.emb j) = V c main_arg0 (ix2 (rows t (j 0)) (j 1))
  refine congrArg _ (funext fun a => Fin.ext ?_)
  match a with
  | ⟨0, _⟩ => show win0_0.index t (0 : Fin 2) * 4096 + 1 * (j 0).val = t.val * 4096 + (j 0).val; omega
  | ⟨1, _⟩ => show win0_0.index t (1 : Fin 2) * 128 + 1 * (j 1).val = (j 1).val; omega

theorem blk_1 (c : Dev nD) (t : Fin cfg0.N) : iblk0 V c 1 t = rowsAt (rows t) (V c main_arg1) := by
  obtain ⟨-, -, e0, e1, -⟩ := idx t
  funext j
  show V c main_arg1 (((cfg0.win 1).blk t).view.emb j) = V c main_arg1 (ix2 (rows t (j 0)) (j 1))
  refine congrArg _ (funext fun a => Fin.ext ?_)
  match a with
  | ⟨0, _⟩ => show win0_1.index t (0 : Fin 2) * 4096 + 1 * (j 0).val = t.val * 4096 + (j 0).val; omega
  | ⟨1, _⟩ => show win0_1.index t (1 : Fin 2) * 6 + 1 * (j 1).val = (j 1).val; omega

theorem blk_2 (c : Dev nD) (t : Fin cfg0.N) : iblk0 V c 2 t = V c main_arg5 := by
  obtain ⟨-, -, -, -, e0, e1, -⟩ := idx t
  funext j
  show V c main_arg5 (((cfg0.win 2).blk t).view.emb j) = V c main_arg5 j
  refine congrArg _ (funext fun a => Fin.ext ?_)
  match a with
  | ⟨0, _⟩ => show win0_2.index t (0 : Fin 2) * 6 + 1 * (j 0).val = (j 0).val; omega
  | ⟨1, _⟩ => show win0_2.index t (1 : Fin 2) * 8 + 1 * (j 1).val = (j 1).val; omega

theorem blk_3 (c : Dev nD) (t : Fin cfg0.N) : iblk0 V c 3 t = V c main_arg6 := by
  obtain ⟨-, -, -, -, -, -, e0, e1, -⟩ := idx t
  funext j
  show V c main_arg6 (((cfg0.win 3).blk t).view.emb j) = V c main_arg6 j
  refine congrArg _ (funext fun a => Fin.ext ?_)
  match a with
  | ⟨0, _⟩ => show win0_3.index t (0 : Fin 2) * 8 + 1 * (j 0).val = (j 0).val; omega
  | ⟨1, _⟩ => show win0_3.index t (1 : Fin 2) * 128 + 1 * (j 1).val = (j 1).val; omega

theorem blk_4 (c : Dev nD) (t : Fin cfg0.N) : iblk0 V c 4 t = V c main_arg11 := by
  obtain ⟨-, -, -, -, -, -, -, -, e0, e1, -⟩ := idx t
  funext j
  show V c main_arg11 (((cfg0.win 4).blk t).view.emb j) = V c main_arg11 j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem blk_5 (c : Dev nD) (t : Fin cfg0.N) : iblk0 V c 5 t = V c main_v0 := by
  obtain ⟨-, -, -, -, -, -, -, -, -, -, e0, e1, -⟩ := idx t
  funext j
  show V c main_v0 (((cfg0.win 5).blk t).view.emb j) = V c main_v0 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem blk_6 (c : Dev nD) (t : Fin cfg0.N) : iblk0 V c 6 t = V c main_arg13 := by
  obtain ⟨-, -, -, -, -, -, -, -, -, -, -, -, e0, e1, -⟩ := idx t
  funext j
  show V c main_arg13 (((cfg0.win 6).blk t).view.emb j) = V c main_arg13 j
  refine congrArg _ (funext fun a => Fin.ext ?_)
  match a with
  | ⟨0, _⟩ => show win0_6.index t (0 : Fin 2) * 128 + 1 * (j 0).val = (j 0).val; omega
  | ⟨1, _⟩ => show win0_6.index t (1 : Fin 2) * 64 + 1 * (j 1).val = (j 1).val; omega

/-- Reading the output window's block t off an array is taking its rows t·4096 …. -/
theorem read_7 (t : Fin cfg0.N) (X : Mat 262144 64) :
    ((cfg0.win 7).blk t).view.read (Elt Ideal) X = rowsAt (rows t) X := by
  obtain ⟨-, -, -, -, -, -, -, -, -, -, -, -, -, -, e0, e1⟩ := idx t
  funext j
  show X (((cfg0.win 7).blk t).view.emb j) = X (ix2 (rows t (j 0)) (j 1))
  refine congrArg _ (funext fun a => Fin.ext ?_)
  match a with
  | ⟨0, _⟩ => show win0_7.index t (0 : Fin 2) * 4096 + 1 * (j 0).val = t.val * 4096 + (j 0).val; omega
  | ⟨1, _⟩ => show win0_7.index t (1 : Fin 2) * 64 + 1 * (j 1).val = (j 1).val; omega

/-- Stage one of the arrays the launch finds. -/
def G (c : Dev nD) : Mat 262144 64 :=
  edgeStage (V c main_arg0) (V c main_arg1) (V c main_arg5) (V c main_arg6) (V c main_arg11) (rowVec (V c main_v0)) (V c main_arg13)

/-- What point t writes back is block t of stage one of the arrays. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S4096x128) hz, View.ld_unit_zero (S := S4096x6) hz, View.ld_unit_zero (S := S6x8) hz,
    View.ld_unit_zero (S := S8x128) hz, View.ld_unit_zero (S := S128x128) hz, View.ld_unit_zero (S := S1x128) hz,
    View.ld_unit_zero (S := S128x64) hz]
  rw [pay_edge, blk_0 V c t, blk_1 V c t, blk_2 V c t, blk_3 V c t, blk_4 V c t, blk_5 V c t, blk_6 V c t, read_7 t]
  rfl

/-- An index of the output array is in point t's block iff each coordinate is in the block's range. -/
theorem mem_blk (t : Fin cfg0.N) (i : S262144x64.Idx) :
    i ∈ ((cfg0.win 7).blk t).view.set ↔ ∀ a : Fin 2, win0_7.index t a * S4096x64.size a ≤ (i a).val ∧ (i a).val < win0_7.index t a * S4096x64.size a + S4096x64.size a := by
  show i ∈ ((View.whole main_v1).slice (win0_7.rect t)).set ↔ _
  rw [View.set_slice_whole, Rect.mem_set_unit]
  exact Iff.rfl

/-- Every row lies in some point's block. -/
theorem cover (i : S262144x64.Idx) : ∃ t : Fin cfg0.N, (cfg0.win 7).flush t = true ∧ i ∈ ((cfg0.win 7).blk t).view.set := by
  have hi0 : (i 0).val < 262144 := (i 0).isLt
  have hi1 : (i 1).val < 64 := (i 1).isLt
  let t : Fin cfg0.N := ⟨(i 0).val / 4096, lt_of_lt_of_eq (by omega : (i 0).val / 4096 < 64) N_0.symm⟩
  obtain ⟨-, -, -, -, -, -, -, -, -, -, -, -, -, -, e0, e1⟩ := idx t
  have et : t.val = (i 0).val / 4096 := rfl
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 64 ≤ (i 1).val ∧ (i 1).val < win0_7.index t (1 : Fin 2) * 64 + 64; omega

/-- After the launch the output array is stage one of the arrays the launch found. -/
theorem final (c : Dev nD) : (dat0 V c).arrAt 7 cfg0.N = G V c :=
  (dat0 V c).arrAt_eq_of_cover 7 (G V c) (fun t _ => flushed_eq V c t) (cover)

end Cert.Block.R0

end
-- ==== Proof.Region1.lean ====
/-
  The second launch: what its output array holds afterwards.

  The launch runs the second body at 512 points.  At point t the row windows (the angular basis, the gathered
  array and the output) are the rows t·4096 … t·4096 + 4095 of their arrays, and the two weight windows are their
  whole arrays.  The body stores stage two of its blocks; stage two acts on every row by itself, so the stored block
  is rows t·4096 … of stage two of the whole arrays.  The 512 blocks tile the output array, so after the launch the
  array is stage two of the arrays the launch found.
-/
import proofs.«124901_j62199716381203_2_alg».proof.Proof.Gen.KernelIdeal.Frame
import proofs.«124901_j62199716381203_2_alg».proof.Proof.Pay

set_option maxRecDepth 16384

noncomputable section

namespace Cert.Block.R1

open Idealize.ShloMosaic Idealize.ShloMosaic.TcCoe Idealize.ShloMosaic.ValueIdx Idealize.ShloMosaic.Pipeline Idealize.SL.Sem Cert.KernelIdeal Cert.KernelIdeal.Gen Cert.Block

variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg1.N) : t.val < 512 := lt_of_lt_of_eq t.isLt N_1

/-- Row y of block t is row t·4096 + y of the array. -/
def rows (t : Fin cfg1.N) : Fin 4096 → Fin 2097152 := fun y => ⟨t.val * 4096 + y.val, by have := t_lt t; have := y.isLt; omega⟩

/-! The block indices at every point: (t, 0) for a row window, (0, 0) for a weight. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = t.val ∧ win1_4.index t (1 : Fin 2) = 0 :=
  (by decide +kernel : ∀ t : Fin grid1.N, _)

/-! Each input window's block at point t, read off the array the launch finds. -/
theorem blk_0 (c : Dev nD) (t : Fin cfg1.N) : iblk1 V c 0 t = rowsAt (rows t) (V c main_arg2) := by
  obtain ⟨e0, e1⟩ := idx_0 t
  funext j
  show V c main_arg2 (((cfg1.win 0).blk t).view.emb j) = V c main_arg2 (ix2 (rows t (j 0)) (j 1))
  refine congrArg _ (funext fun a => Fin.ext ?_)
  match a with
  | ⟨0, _⟩ => show win1_0.index t (0 : Fin 2) * 4096 + 1 * (j 0).val = t.val * 4096 + (j 0).val; omega
  | ⟨1, _⟩ => show win1_0.index t (1 : Fin 2) * 42 + 1 * (j 1).val = (j 1).val; omega
theorem blk_1 (c : Dev nD) (t : Fin cfg1.N) : iblk1 V c 1 t = rowsAt (rows t) (V c main_v8) := by
  obtain ⟨e0, e1⟩ := idx_1 t
  funext j
  show V c main_v8 (((cfg1.win 1).blk t).view.emb j) = V c main_v8 (ix2 (rows t (j 0)) (j 1))
  refine congrArg _ (funext fun a => Fin.ext ?_)
  match a with
  | ⟨0, _⟩ => show win1_1.index t (0 : Fin 2) * 4096 + 1 * (j 0).val = t.val * 4096 + (j 0).val; omega
  | ⟨1, _⟩ => show win1_1.index t (1 : Fin 2) * 64 + 1 * (j 1).val = (j 1).val; omega
theorem blk_2 (c : Dev nD) (t : Fin cfg1.N) : iblk1 V c 2 t = V c main_arg7 := by
  obtain ⟨e0, e1⟩ := idx_2 t
  funext j
  show V c main_arg7 (((cfg1.win 2).blk t).view.emb j) = V c main_arg7 j
  refine congrArg _ (funext fun a => Fin.ext ?_)
  match a with
  | ⟨0, _⟩ => show win1_2.index t (0 : Fin 2) * 42 + 1 * (j 0).val = (j 0).val; omega
  | ⟨1, _⟩ => show win1_2.index t (1 : Fin 2) * 8 + 1 * (j 1).val = (j 1).val; omega
theorem blk_3 (c : Dev nD) (t : Fin cfg1.N) : iblk1 V c 3 t = V c main_arg8 := by
  obtain ⟨e0, e1⟩ := idx_3 t
  funext j
  show V c main_arg8 (((cfg1.win 3).blk t).view.emb j) = V c main_arg8 j
  refine congrArg _ (funext fun a => Fin.ext ?_)
  match a with
  | ⟨0, _⟩ => show win1_3.index t (0 : Fin 2) * 8 + 1 * (j 0).val = (j 0).val; omega
  | ⟨1, _⟩ => show win1_3.index t (1 : Fin 2) * 64 + 1 * (j 1).val = (j 1).val; omega

/-- Reading the output window's block t off an array is taking its rows t·4096 …. -/
theorem read_out (t : Fin cfg1.N) (X : Mat 2097152 64) :
    ((cfg1.win 4).blk t).view.read (Elt Ideal) X = rowsAt (rows t) X := by
  obtain ⟨e0, e1⟩ := idx_4 t
  funext j
  show X (((cfg1.win 4).blk t).view.emb j) = X (ix2 (rows t (j 0)) (j 1))
  refine congrArg _ (funext fun a => Fin.ext ?_)
  match a with
  | ⟨0, _⟩ => show win1_4.index t (0 : Fin 2) * 4096 + 1 * (j 0).val = t.val * 4096 + (j 0).val; omega
  | ⟨1, _⟩ => show win1_4.index t (1 : Fin 2) * 64 + 1 * (j 1).val = (j 1).val; omega

/-- The stage of the arrays the launch finds. -/
def G (c : Dev nD) : Mat 2097152 64 :=
  msgStage (V c main_arg2) (V c main_v8) (V c main_arg7) (V c main_arg8)

/-- What point t writes back is block t of that stage of the arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S4096x42) hz, View.ld_unit_zero (S := S42x8) hz, View.ld_unit_zero (S := S8x64) hz, View.ld_unit_zero (S := S4096x64) hz]
  rw [pay_msg, blk_0 V c t, blk_1 V c t, blk_2 V c t, blk_3 V c t, read_out t]
  rfl

/-- An index of the output array is in point t's block iff each coordinate is in the block's range. -/
theorem mem_blk (t : Fin cfg1.N) (i : S2097152x64.Idx) :
    i ∈ ((cfg1.win 4).blk t).view.set ↔ ∀ a : Fin 2, win1_4.index t a * S4096x64.size a ≤ (i a).val ∧ (i a).val < win1_4.index t a * S4096x64.size a + S4096x64.size a := by
  show i ∈ ((View.whole main_v9).slice (win1_4.rect t)).set ↔ _
  rw [View.set_slice_whole, Rect.mem_set_unit]
  exact Iff.rfl

/-- Every row lies in some point's block: row r in block r / 4096. -/
theorem cover (i : S2097152x64.Idx) : ∃ t : Fin cfg1.N, (cfg1.win 4).flush t = true ∧ i ∈ ((cfg1.win 4).blk t).view.set := by
  have hi0 : (i 0).val < 2097152 := (i 0).isLt
  have hi1 : (i 1).val < 64 := (i 1).isLt
  let t : Fin cfg1.N := ⟨(i 0).val / 4096, lt_of_lt_of_eq (by omega : (i 0).val / 4096 < 512) N_1.symm⟩
  obtain ⟨e0, e1⟩ := idx_4 t
  have et : t.val = (i 0).val / 4096 := rfl
  refine ⟨t, flush1_4 t, ?_⟩
  rw [mem_blk]
  intro a
  match a with
  | ⟨0, _⟩ => show win1_4.index t (0 : Fin 2) * 4096 ≤ (i 0).val ∧ (i 0).val < win1_4.index t (0 : Fin 2) * 4096 + 4096; omega
  | ⟨1, _⟩ => show win1_4.index t (1 : Fin 2) * 64 ≤ (i 1).val ∧ (i 1).val < win1_4.index t (1 : Fin 2) * 64 + 64; omega

/-- After the launch the output array is that stage of the arrays the launch found. -/
theorem final (c : Dev nD) : (dat1 V c).arrAt 4 cfg1.N = G V c :=
  (dat1 V c).arrAt_eq_of_cover 4 (G V c) (fun t _ => flushed_eq V c t) (cover)

end Cert.Block.R1

end
-- ==== Proof.Region2.lean ====
/-
  The third launch: what its output array holds afterwards.

  The launch runs the third body at 64 points.  At point t the row windows (the edge embeddings, the aggregated
  messages and the output) are the rows t·4096 … t·4096 + 4095 of their arrays, and each of the seventeen weight and
  bias windows is its whole array.  The body stores stage three of its blocks; stage three acts on every row by
  itself, so the stored block is rows t·4096 … of stage three of the whole arrays.  The 64 blocks tile the output
  array, so after the launch the array is stage three of the arrays the launch found.
-/
import proofs.«124901_j62199716381203_2_alg».proof.Proof.Gen.KernelIdeal.Frame
import proofs.«124901_j62199716381203_2_alg».proof.Proof.Pay

set_option maxRecDepth 16384

noncomputable section

namespace Cert.Block.R2

open Idealize.ShloMosaic Idealize.ShloMosaic.TcCoe Idealize.ShloMosaic.ValueIdx Idealize.ShloMosaic.Pipeline Idealize.SL.Sem Cert.KernelIdeal Cert.KernelIdeal.Gen Cert.Block

variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg2.N) : t.val < 64 := lt_of_lt_of_eq t.isLt N_2

/-- Row y of block t is row t·4096 + y of the array. -/
def rows (t : Fin cfg2.N) : Fin 4096 → Fin 262144 := fun y => ⟨t.val * 4096 + y.val, by have := t_lt t; have := y.isLt; omega⟩

/-! The block indices at every point: (t, 0) for a row window, (0, 0) for a weight. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = 0 ∧ win2_10.index t (1 : Fin 2) = 0 :=
  (by decide +kernel : ∀ t : Fin grid2.N, _)
theorem idx_11 : ∀ t : Fin cfg2.N, win2_11.index t (0 : Fin 2) = 0 ∧ win2_11.index t (1 : Fin 2) = 0 :=
  (by decide +kernel : ∀ t : Fin grid2.N, _)
theorem idx_12 : ∀ t : Fin cfg2.N, win2_12.index t (0 : Fin 2) = 0 ∧ win2_12.index t (1 : Fin 2) = 0 :=
  (by decide +kernel : ∀ t : Fin grid2.N, _)
theorem idx_13 : ∀ t : Fin cfg2.N, win2_13.index t (0 : Fin 2) = 0 ∧ win2_13.index t (1 : Fin 2) = 0 :=
  (by decide +kernel : ∀ t : Fin grid2.N, _)
theorem idx_14 : ∀ t : Fin cfg2.N, win2_14.index t (0 : Fin 2) = 0 ∧ win2_14.index t (1 : Fin 2) = 0 :=
  (by decide +kernel : ∀ t : Fin grid2.N, _)
theorem idx_15 : ∀ t : Fin cfg2.N, win2_15.index t (0 : Fin 2) = 0 ∧ win2_15.index t (1 : Fin 2) = 0 :=
  (by decide +kernel : ∀ t : Fin grid2.N, _)
theorem idx_16 : ∀ t : Fin cfg2.N, win2_16.index t (0 : Fin 2) = 0 ∧ win2_16.index t (1 : Fin 2) = 0 :=
  (by decide +kernel : ∀ t : Fin grid2.N, _)
theorem idx_17 : ∀ t : Fin cfg2.N, win2_17.index t (0 : Fin 2) = 0 ∧ win2_17.index t (1 : Fin 2) = 0 :=
  (by decide +kernel : ∀ t : Fin grid2.N, _)
theorem idx_18 : ∀ t : Fin cfg2.N, win2_18.index t (0 : Fin 2) = 0 ∧ win2_18.index t (1 : Fin 2) = 0 :=
  (by decide +kernel : ∀ t : Fin grid2.N, _)
theorem idx_19 : ∀ t : Fin cfg2.N, win2_19.index t (0 : Fin 2) = t.val ∧ win2_19.index t (1 : Fin 2) = 0 :=
  (by decide +kernel : ∀ t : Fin grid2.N, _)

/-! Each input window's block at point t, read off the array the launch finds. -/
theorem blk_0 (c : Dev nD) (t : Fin cfg2.N) : iblk2 V c 0 t = rowsAt (rows t) (V c main_arg0) := by
  obtain ⟨e0, e1⟩ := idx_0 t
  funext j
  show V c main_arg0 (((cfg2.win 0).blk t).view.emb j) = V c main_arg0 (ix2 (rows t (j 0)) (j 1))
  refine congrArg _ (funext fun a => Fin.ext ?_)
  match a with
  | ⟨0, _⟩ => show win2_0.index t (0 : Fin 2) * 4096 + 1 * (j 0).val = t.val * 4096 + (j 0).val; omega
  | ⟨1, _⟩ => show win2_0.index t (1 : Fin 2) * 128 + 1 * (j 1).val = (j 1).val; omega
theorem blk_1 (c : Dev nD) (t : Fin cfg2.N) : iblk2 V c 1 t = rowsAt (rows t) (V c main_v12) := by
  obtain ⟨e0, e1⟩ := idx_1 t
  funext j
  show V c main_v12 (((cfg2.win 1).blk t).view.emb j) = V c main_v12 (ix2 (rows t (j 0)) (j 1))
  refine congrArg _ (funext fun a => Fin.ext ?_)
  match a with
  | ⟨0, _⟩ => show win2_1.index t (0 : Fin 2) * 4096 + 1 * (j 0).val = t.val * 4096 + (j 0).val; omega
  | ⟨1, _⟩ => show win2_1.index t (1 : Fin 2) * 64 + 1 * (j 1).val = (j 1).val; omega
theorem blk_2 (c : Dev nD) (t : Fin cfg2.N) : iblk2 V c 2 t = V c main_arg9 := by
  obtain ⟨e0, e1⟩ := idx_2 t
  funext j
  show V c main_arg9 (((cfg2.win 2).blk t).view.emb j) = V c main_arg9 j
  refine congrArg _ (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega
theorem blk_3 (c : Dev nD) (t : Fin cfg2.N) : iblk2 V c 3 t = V c main_v13 := by
  obtain ⟨e0, e1⟩ := idx_3 t
  funext j
  show V c main_v13 (((cfg2.win 3).blk t).view.emb j) = V c main_v13 j
  refine congrArg _ (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega
theorem blk_4 (c : Dev nD) (t : Fin cfg2.N) : iblk2 V c 4 t = V c main_arg14 := by
  obtain ⟨e0, e1⟩ := idx_4 t
  funext j
  show V c main_arg14 (((cfg2.win 4).blk t).view.emb j) = V c main_arg14 j
  refine congrArg _ (funext fun a => Fin.ext ?_)
  match a with
  | ⟨0, _⟩ => show win2_4.index t (0 : Fin 2) * 64 + 1 * (j 0).val = (j 0).val; omega
  | ⟨1, _⟩ => show win2_4.index t (1 : Fin 2) * 128 + 1 * (j 1).val = (j 1).val; omega
theorem blk_5 (c : Dev nD) (t : Fin cfg2.N) : iblk2 V c 5 t = V c main_v31 := by
  obtain ⟨e0, e1⟩ := idx_5 t
  funext j
  show V c main_v31 (((cfg2.win 5).blk t).view.emb j) = V c main_v31 j
  refine congrArg _ (funext fun a => Fin.ext ?_)
  match a with
  | ⟨0, _⟩ => show win2_5.index t (0 : Fin 2) * 128 + 1 * (j 0).val = (j 0).val; omega
  | ⟨1, _⟩ => show win2_5.index t (1 : Fin 2) * 128 + 1 * (j 1).val = (j 1).val; omega
theorem blk_6 (c : Dev nD) (t : Fin cfg2.N) : iblk2 V c 6 t = V c main_v15 := by
  obtain ⟨e0, e1⟩ := idx_6 t
  funext j
  show V c main_v15 (((cfg2.win 6).blk t).view.emb j) = V c main_v15 j
  refine congrArg _ (funext fun a => Fin.ext ?_)
  match a with
  | ⟨0, _⟩ => show win2_6.index t (0 : Fin 2) * 1 + 1 * (j 0).val = (j 0).val; omega
  | ⟨1, _⟩ => show win2_6.index t (1 : Fin 2) * 128 + 1 * (j 1).val = (j 1).val; omega
theorem blk_7 (c : Dev nD) (t : Fin cfg2.N) : iblk2 V c 7 t = V c main_v32 := by
  obtain ⟨e0, e1⟩ := idx_7 t
  funext j
  show V c main_v32 (((cfg2.win 7).blk t).view.emb j) = V c main_v32 j
  refine congrArg _ (funext fun a => Fin.ext ?_)
  match a with
  | ⟨0, _⟩ => show win2_7.index t (0 : Fin 2) * 128 + 1 * (j 0).val = (j 0).val; omega
  | ⟨1, _⟩ => show win2_7.index t (1 : Fin 2) * 128 + 1 * (j 1).val = (j 1).val; omega
theorem blk_8 (c : Dev nD) (t : Fin cfg2.N) : iblk2 V c 8 t = V c main_v17 := by
  obtain ⟨e0, e1⟩ := idx_8 t
  funext j
  show V c main_v17 (((cfg2.win 8).blk t).view.emb j) = V c main_v17 j
  refine congrArg _ (funext fun a => Fin.ext ?_)
  match a with
  | ⟨0, _⟩ => show win2_8.index t (0 : Fin 2) * 1 + 1 * (j 0).val = (j 0).val; omega
  | ⟨1, _⟩ => show win2_8.index t (1 : Fin 2) * 128 + 1 * (j 1).val = (j 1).val; omega
theorem blk_9 (c : Dev nD) (t : Fin cfg2.N) : iblk2 V c 9 t = V c main_arg19 := by
  obtain ⟨e0, e1⟩ := idx_9 t
  funext j
  show V c main_arg19 (((cfg2.win 9).blk t).view.emb j) = V c main_arg19 j
  refine congrArg _ (funext fun a => Fin.ext ?_)
  match a with
  | ⟨0, _⟩ => show win2_9.index t (0 : Fin 2) * 128 + 1 * (j 0).val = (j 0).val; omega
  | ⟨1, _⟩ => show win2_9.index t (1 : Fin 2) * 128 + 1 * (j 1).val = (j 1).val; omega
theorem blk_10 (c : Dev nD) (t : Fin cfg2.N) : iblk2 V c 10 t = V c main_v18 := by
  obtain ⟨e0, e1⟩ := idx_10 t
  funext j
  show V c main_v18 (((cfg2.win 10).blk t).view.emb j) = V c main_v18 j
  refine congrArg _ (funext fun a => Fin.ext ?_)
  match a with
  | ⟨0, _⟩ => show win2_10.index t (0 : Fin 2) * 1 + 1 * (j 0).val = (j 0).val; omega
  | ⟨1, _⟩ => show win2_10.index t (1 : Fin 2) * 128 + 1 * (j 1).val = (j 1).val; omega
theorem blk_11 (c : Dev nD) (t : Fin cfg2.N) : iblk2 V c 11 t = V c main_v34 := by
  obtain ⟨e0, e1⟩ := idx_11 t
  funext j
  show V c main_v34 (((cfg2.win 11).blk t).view.emb j) = V c main_v34 j
  refine congrArg _ (funext fun a => Fin.ext ?_)
  match a with
  | ⟨0, _⟩ => show win2_11.index t (0 : Fin 2) * 128 + 1 * (j 0).val = (j 0).val; omega
  | ⟨1, _⟩ => show win2_11.index t (1 : Fin 2) * 128 + 1 * (j 1).val = (j 1).val; omega
theorem blk_12 (c : Dev nD) (t : Fin cfg2.N) : iblk2 V c 12 t = V c main_v21 := by
  obtain ⟨e0, e1⟩ := idx_12 t
  funext j
  show V c main_v21 (((cfg2.win 12).blk t).view.emb j) = V c main_v21 j
  refine congrArg _ (funext fun a => Fin.ext ?_)
  match a with
  | ⟨0, _⟩ => show win2_12.index t (0 : Fin 2) * 1 + 1 * (j 0).val = (j 0).val; omega
  | ⟨1, _⟩ => show win2_12.index t (1 : Fin 2) * 128 + 1 * (j 1).val = (j 1).val; omega
theorem blk_13 (c : Dev nD) (t : Fin cfg2.N) : iblk2 V c 13 t = V c main_v38 := by
  obtain ⟨e0, e1⟩ := idx_13 t
  funext j
  show V c main_v38 (((cfg2.win 13).blk t).view.emb j) = V c main_v38 j
  refine congrArg _ (funext fun a => Fin.ext ?_)
  match a with
  | ⟨0, _⟩ => show win2_13.index t (0 : Fin 2) * 128 + 1 * (j 0).val = (j 0).val; omega
  | ⟨1, _⟩ => show win2_13.index t (1 : Fin 2) * 128 + 1 * (j 1).val = (j 1).val; omega
theorem blk_14 (c : Dev nD) (t : Fin cfg2.N) : iblk2 V c 14 t = V c main_v27 := by
  obtain ⟨e0, e1⟩ := idx_14 t
  funext j
  show V c main_v27 (((cfg2.win 14).blk t).view.emb j) = V c main_v27 j
  refine congrArg _ (funext fun a => Fin.ext ?_)
  match a with
  | ⟨0, _⟩ => show win2_14.index t (0 : Fin 2) * 1 + 1 * (j 0).val = (j 0).val; omega
  | ⟨1, _⟩ => show win2_14.index t (1 : Fin 2) * 128 + 1 * (j 1).val = (j 1).val; omega
theorem blk_15 (c : Dev nD) (t : Fin cfg2.N) : iblk2 V c 15 t = V c main_v36 := by
  obtain ⟨e0, e1⟩ := idx_15 t
  funext j
  show V c main_v36 (((cfg2.win 15).blk t).view.emb j) = V c main_v36 j
  refine congrArg _ (funext fun a => Fin.ext ?_)
  match a with
  | ⟨0, _⟩ => show win2_15.index t (0 : Fin 2) * 128 + 1 * (j 0).val = (j 0).val; omega
  | ⟨1, _⟩ => show win2_15.index t (1 : Fin 2) * 128 + 1 * (j 1).val = (j 1).val; omega
theorem blk_16 (c : Dev nD) (t : Fin cfg2.N) : iblk2 V c 16 t = V c main_v24 := by
  obtain ⟨e0, e1⟩ := idx_16 t
  funext j
  show V c main_v24 (((cfg2.win 16).blk t).view.emb j) = V c main_v24 j
  refine congrArg _ (funext fun a => Fin.ext ?_)
  match a with
  | ⟨0, _⟩ => show win2_16.index t (0 : Fin 2) * 1 + 1 * (j 0).val = (j 0).val; omega
  | ⟨1, _⟩ => show win2_16.index t (1 : Fin 2) * 128 + 1 * (j 1).val = (j 1).val; omega
theorem blk_17 (c : Dev nD) (t : Fin cfg2.N) : iblk2 V c 17 t = V c main_v40 := by
  obtain ⟨e0, e1⟩ := idx_17 t
  funext j
  show V c main_v40 (((cfg2.win 17).blk t).view.emb j) = V c main_v40 j
  refine congrArg _ (funext fun a => Fin.ext ?_)
  match a with
  | ⟨0, _⟩ => show win2_17.index t (0 : Fin 2) * 128 + 1 * (j 0).val = (j 0).val; omega
  | ⟨1, _⟩ => show win2_17.index t (1 : Fin 2) * 128 + 1 * (j 1).val = (j 1).val; omega
theorem blk_18 (c : Dev nD) (t : Fin cfg2.N) : iblk2 V c 18 t = V c main_v30 := by
  obtain ⟨e0, e1⟩ := idx_18 t
  funext j
  show V c main_v30 (((cfg2.win 18).blk t).view.emb j) = V c main_v30 j
  refine congrArg _ (funext fun a => Fin.ext ?_)
  match a with
  | ⟨0, _⟩ => show win2_18.index t (0 : Fin 2) * 1 + 1 * (j 0).val = (j 0).val; omega
  | ⟨1, _⟩ => show win2_18.index t (1 : Fin 2) * 128 + 1 * (j 1).val = (j 1).val; omega

/-- Reading the output window's block t off an array is taking its rows t·4096 …. -/
theorem read_out (t : Fin cfg2.N) (X : Mat 262144 128) :
    ((cfg2.win 19).blk t).view.read (Elt Ideal) X = rowsAt (rows t) X := by
  obtain ⟨e0, e1⟩ := idx_19 t
  funext j
  show X (((cfg2.win 19).blk t).view.emb j) = X (ix2 (rows t (j 0)) (j 1))
  refine congrArg _ (funext fun a => Fin.ext ?_)
  match a with
  | ⟨0, _⟩ => show win2_19.index t (0 : Fin 2) * 4096 + 1 * (j 0).val = t.val * 4096 + (j 0).val; omega
  | ⟨1, _⟩ => show win2_19.index t (1 : Fin 2) * 128 + 1 * (j 1).val = (j 1).val; omega

/-- The stage of the arrays the launch finds. -/
def G (c : Dev nD) : Mat 262144 128 :=
  updStage (V c main_arg0) (V c main_v12) (V c main_arg9) (rowVec (V c main_v13)) (V c main_arg14) (V c main_v31) (rowVec (V c main_v15)) (V c main_v32) (rowVec (V c main_v17)) (V c main_arg19) (rowVec (V c main_v18)) (V c main_v34) (rowVec (V c main_v21)) (V c main_v38) (rowVec (V c main_v27)) (V c main_v36) (rowVec (V c main_v24)) (V c main_v40) (rowVec (V c main_v30))

/-- What point t writes back is block t of that stage of the arrays. -/
theorem flushed_eq (c : Dev nD) (t : Fin cfg2.N) :
    (dat2 V c).flushed 19 t = ((cfg2.win 19).blk t).view.read (Elt Ideal) (G V c) := by
  show (cfg2.win 19).cut (grid2.coords t) ((dat2 V c).after 19 t) = _
  rw [after2_19]
  unfold out2_19
  rw [View.canon_unit_zero hz]
  simp only [View.ld_unit_zero (S := S4096x128) hz, View.ld_unit_zero (S := S4096x64) hz, View.ld_unit_zero (S := S128x128) hz, View.ld_unit_zero (S := S1x128) hz, View.ld_unit_zero (S := S64x128) hz]
  rw [pay_upd, blk_0 V c t, blk_1 V c t, blk_2 V c t, blk_3 V c t, blk_4 V c t, blk_5 V c t, blk_6 V c t, blk_7 V c t, blk_8 V c t, blk_9 V c t, blk_10 V c t, blk_11 V c t, blk_12 V c t, blk_13 V c t, blk_14 V c t, blk_15 V c t, blk_16 V c t, blk_17 V c t, blk_18 V c t, read_out t]
  rfl

/-- An index of the output array is in point t's block iff each coordinate is in the block's range. -/
theorem mem_blk (t : Fin cfg2.N) (i : S262144x128.Idx) :
    i ∈ ((cfg2.win 19).blk t).view.set ↔ ∀ a : Fin 2, win2_19.index t a * S4096x128.size a ≤ (i a).val ∧ (i a).val < win2_19.index t a * S4096x128.size a + S4096x128.size a := by
  show i ∈ ((View.whole main_v41).slice (win2_19.rect t)).set ↔ _
  rw [View.set_slice_whole, Rect.mem_set_unit]
  exact Iff.rfl

/-- Every row lies in some point's block: row r in block r / 4096. -/
theorem cover (i : S262144x128.Idx) : ∃ t : Fin cfg2.N, (cfg2.win 19).flush t = true ∧ i ∈ ((cfg2.win 19).blk t).view.set := by
  have hi0 : (i 0).val < 262144 := (i 0).isLt
  have hi1 : (i 1).val < 128 := (i 1).isLt
  let t : Fin cfg2.N := ⟨(i 0).val / 4096, lt_of_lt_of_eq (by omega : (i 0).val / 4096 < 64) N_2.symm⟩
  obtain ⟨e0, e1⟩ := idx_19 t
  have et : t.val = (i 0).val / 4096 := rfl
  refine ⟨t, flush2_19 t, ?_⟩
  rw [mem_blk]
  intro a
  match a with
  | ⟨0, _⟩ => show win2_19.index t (0 : Fin 2) * 4096 ≤ (i 0).val ∧ (i 0).val < win2_19.index t (0 : Fin 2) * 4096 + 4096; omega
  | ⟨1, _⟩ => show win2_19.index t (1 : Fin 2) * 128 ≤ (i 1).val ∧ (i 1).val < win2_19.index t (1 : Fin 2) * 128 + 128; omega

/-- After the launch the output array is that stage of the arrays the launch found. -/
theorem final (c : Dev nD) : (dat2 V c).arrAt 19 cfg2.N = G V c :=
  (dat2 V c).arrAt_eq_of_cover 19 (G V c) (fun t _ => flushed_eq V c t) (cover)

end Cert.Block.R2

end
-- ==== Proof.KValue.lean ====
/-
  The kernel program's result as a function of its arguments.

  The buffer contents at the boundaries between the program's segments are followed from the launch memory to the
  end.  A stretch of host operations gives each buffer it writes the operation's value of the buffers it reads and
  leaves every other buffer alone; a launch leaves its output array at the stage of the arrays it found (the three
  launch modules) and every other buffer alone.  So: the first launch's output is stage one of the arguments; the
  gather reads it at the wrapped source indices; the second launch's output is stage two of the gathered rows; the
  sum scatters it onto the edges; the weights of the third launch are the reshaped and sliced arguments; and the
  third launch's output, the program's result, is stage three of all that.  No argument array is ever written.
-/
import proofs.«124901_j62199716381203_2_alg».proof.Proof.KRun
import proofs.«124901_j62199716381203_2_alg».proof.Proof.Region0
import proofs.«124901_j62199716381203_2_alg».proof.Proof.Region1
import proofs.«124901_j62199716381203_2_alg».proof.Proof.Region2

set_option maxRecDepth 16384

noncomputable section

namespace Cert.Block.KV

open Idealize.ShloMosaic Idealize.ShloMosaic.TcCoe Idealize.ShloMosaic.ValueIdx Idealize.ShloMosaic.Pipeline Idealize.SL.Sem Cert.KernelIdeal Cert.KernelIdeal.Gen Cert.Block

variable (m : (ℓ : Loc nD τ sig) → Buf (Elt Ideal) ℓ) (ρ : Dev nD → PrngReg) (c : Dev nD)

/-- The source indices with the negative ones wrapped, as a column. -/
abbrev wrapCol (a3 : IVec S2097152 32) : IVec S2097152x1 32 :=
  broadcastInDim S2097152x1 ![0] bcast_S2097152_S2097152x1_0
    (select (cmpi .slt a3 (broadcastInDim S2097152 ![] bcast_S_S2097152 (constantI S_ 32 0#32)))
      (addi a3 (broadcastInDim S2097152 ![] bcast_S_S2097152 (constantI S_ 32 262144#32))) a3)

/-- The rows of an E × 64 array at the wrapped source indices. -/
abbrev gatherK (a3 : IVec S2097152 32) (x : Mat 262144 64) : Mat 2097152 64 :=
  Host.gather gather_S262144x64_S2097152x1_S2097152x64_1_0_n_n_0_1_164 (x : FVec Ideal S262144x64 .f32) (wrapCol a3)

/-- A T × 64 array summed onto the edges at the destination indices, from zeros. -/
abbrev scatterK (a4 : IVec S2097152 32) (u : Mat 2097152 64) : Mat 262144 64 :=
  Host.scatterAdd (F := Ideal) scatter_S262144x64_S2097152x1_S2097152x64_1_0_0_1
    (broadcastInDim S262144x64 ![] bcast_S_S262144x64 (constant (F := Ideal) S_ .f32 0x00000000#32))
    (broadcastInDim S2097152x1 ![0] bcast_S2097152_S2097152x1_0 a4) (u : FVec Ideal S2097152x64 .f32)

/-! ## After the first stretch (the bias of stage one reshaped to a row) -/

theorem v1_v0 : V1 m ρ c main_v0 = shapeCast S1x128 (m ((c : Thread nD τ).loc main_arg12)) shapeCasts_S128_S1x128 := by
  show StableHlo.after hostOps0 _ (Proc.devRef .tc main_v0) = _
  after_results
  first | done | rfl
theorem v1_arg0 : V1 m ρ c main_arg0 = (m ((c : Thread nD τ).loc main_arg0)) := by
  show StableHlo.after hostOps0 _ (Proc.devRef .tc main_arg0) = _
  after_results
  first | done | rfl
theorem v1_arg1 : V1 m ρ c main_arg1 = (m ((c : Thread nD τ).loc main_arg1)) := by
  show StableHlo.after hostOps0 _ (Proc.devRef .tc main_arg1) = _
  after_results
  first | done | rfl
theorem v1_arg2 : V1 m ρ c main_arg2 = (m ((c : Thread nD τ).loc main_arg2)) := by
  show StableHlo.after hostOps0 _ (Proc.devRef .tc main_arg2) = _
  after_results
  first | done | rfl
theorem v1_arg3 : V1 m ρ c main_arg3 = (m ((c : Thread nD τ).loc main_arg3)) := by
  show StableHlo.after hostOps0 _ (Proc.devRef .tc main_arg3) = _
  after_results
  first | done | rfl
theorem v1_arg4 : V1 m ρ c main_arg4 = (m ((c : Thread nD τ).loc main_arg4)) := by
  show StableHlo.after hostOps0 _ (Proc.devRef .tc main_arg4) = _
  after_results
  first | done | rfl
theorem v1_arg5 : V1 m ρ c main_arg5 = (m ((c : Thread nD τ).loc main_arg5)) := by
  show StableHlo.after hostOps0 _ (Proc.devRef .tc main_arg5) = _
  after_results
  first | done | rfl
theorem v1_arg6 : V1 m ρ c main_arg6 = (m ((c : Thread nD τ).loc main_arg6)) := by
  show StableHlo.after hostOps0 _ (Proc.devRef .tc main_arg6) = _
  after_results
  first | done | rfl
theorem v1_arg7 : V1 m ρ c main_arg7 = (m ((c : Thread nD τ).loc main_arg7)) := by
  show StableHlo.after hostOps0 _ (Proc.devRef .tc main_arg7) = _
  after_results
  first | done | rfl
theorem v1_arg8 : V1 m ρ c main_arg8 = (m ((c : Thread nD τ).loc main_arg8)) := by
  show StableHlo.after hostOps0 _ (Proc.devRef .tc main_arg8) = _
  after_results
  first | done | rfl
theorem v1_arg9 : V1 m ρ c main_arg9 = (m ((c : Thread nD τ).loc main_arg9)) := by
  show StableHlo.after hostOps0 _ (Proc.devRef .tc main_arg9) = _
  after_results
  first | done | rfl
theorem v1_arg10 : V1 m ρ c main_arg10 = (m ((c : Thread nD τ).loc main_arg10)) := by
  show StableHlo.after hostOps0 _ (Proc.devRef .tc main_arg10) = _
  after_results
  first | done | rfl
theorem v1_arg11 : V1 m ρ c main_arg11 = (m ((c : Thread nD τ).loc main_arg11)) := by
  show StableHlo.after hostOps0 _ (Proc.devRef .tc main_arg11) = _
  after_results
  first | done | rfl
theorem v1_arg13 : V1 m ρ c main_arg13 = (m ((c : Thread nD τ).loc main_arg13)) := by
  show StableHlo.after hostOps0 _ (Proc.devRef .tc main_arg13) = _
  after_results
  first | done | rfl
theorem v1_arg14 : V1 m ρ c main_arg14 = (m ((c : Thread nD τ).loc main_arg14)) := by
  show StableHlo.after hostOps0 _ (Proc.devRef .tc main_arg14) = _
  after_results
  first | done | rfl
theorem v1_arg15 : V1 m ρ c main_arg15 = (m ((c : Thread nD τ).loc main_arg15)) := by
  show StableHlo.after hostOps0 _ (Proc.devRef .tc main_arg15) = _
  after_results
  first | done | rfl
theorem v1_arg16 : V1 m ρ c main_arg16 = (m ((c : Thread nD τ).loc main_arg16)) := by
  show StableHlo.after hostOps0 _ (Proc.devRef .tc main_arg16) = _
  after_results
  first | done | rfl
theorem v1_arg17 : V1 m ρ c main_arg17 = (m ((c : Thread nD τ).loc main_arg17)) := by
  show StableHlo.after hostOps0 _ (Proc.devRef .tc main_arg17) = _
  after_results
  first | done | rfl
theorem v1_arg18 : V1 m ρ c main_arg18 = (m ((c : Thread nD τ).loc main_arg18)) := by
  show StableHlo.after hostOps0 _ (Proc.devRef .tc main_arg18) = _
  after_results
  first | done | rfl
theorem v1_arg19 : V1 m ρ c main_arg19 = (m ((c : Thread nD τ).loc main_arg19)) := by
  show StableHlo.after hostOps0 _ (Proc.devRef .tc main_arg19) = _
  after_results
  first | done | rfl
theorem v1_arg20 : V1 m ρ c main_arg20 = (m ((c : Thread nD τ).loc main_arg20)) := by
  show StableHlo.after hostOps0 _ (Proc.devRef .tc main_arg20) = _
  after_results
  first | done | rfl
theorem v1_arg21 : V1 m ρ c main_arg21 = (m ((c : Thread nD τ).loc main_arg21)) := by
  show StableHlo.after hostOps0 _ (Proc.devRef .tc main_arg21) = _
  after_results
  first | done | rfl
theorem v1_arg22 : V1 m ρ c main_arg22 = (m ((c : Thread nD τ).loc main_arg22)) := by
  show StableHlo.after hostOps0 _ (Proc.devRef .tc main_arg22) = _
  after_results
  first | done | rfl
theorem v1_arg23 : V1 m ρ c main_arg23 = (m ((c : Thread nD τ).loc main_arg23)) := by
  show StableHlo.after hostOps0 _ (Proc.devRef .tc main_arg23) = _
  after_results
  first | done | rfl
theorem v1_arg24 : V1 m ρ c main_arg24 = (m ((c : Thread nD τ).loc main_arg24)) := by
  show StableHlo.after hostOps0 _ (Proc.devRef .tc main_arg24) = _
  after_results
  first | done | rfl

/-! ## After the first launch -/

/-- Stage one of the arguments. -/
abbrev xkj : Mat 262144 64 :=
  edgeStage (m ((c : Thread nD τ).loc main_arg0)) (m ((c : Thread nD τ).loc main_arg1)) (m ((c : Thread nD τ).loc main_arg5)) (m ((c : Thread nD τ).loc main_arg6)) (m ((c : Thread nD τ).loc main_arg11)) (rowVec (shapeCast S1x128 (m ((c : Thread nD τ).loc main_arg12)) shapeCasts_S128_S1x128)) (m ((c : Thread nD τ).loc main_arg13))

theorem w2_v1 : W2 m ρ c (Proc.devRef .tc main_v1) = xkj m c :=
  (W2_arr m ρ c 7).trans ((R0.final (V1 m ρ) c).trans (by
    unfold R0.G
    rw [v1_arg0, v1_arg1, v1_arg5, v1_arg6, v1_arg11, v1_v0, v1_arg13]))
theorem w2_arg3 : W2 m ρ c (Proc.devRef .tc main_arg3) = (m ((c : Thread nD τ).loc main_arg3)) :=
  (W2_of_ne m ρ c main_arg3 (by decide)).trans (v1_arg3 m ρ c)
theorem w2_arg2 : W2 m ρ c (Proc.devRef .tc main_arg2) = (m ((c : Thread nD τ).loc main_arg2)) :=
  (W2_of_ne m ρ c main_arg2 (by decide)).trans (v1_arg2 m ρ c)
theorem w2_arg7 : W2 m ρ c (Proc.devRef .tc main_arg7) = (m ((c : Thread nD τ).loc main_arg7)) :=
  (W2_of_ne m ρ c main_arg7 (by decide)).trans (v1_arg7 m ρ c)
theorem w2_arg8 : W2 m ρ c (Proc.devRef .tc main_arg8) = (m ((c : Thread nD τ).loc main_arg8)) :=
  (W2_of_ne m ρ c main_arg8 (by decide)).trans (v1_arg8 m ρ c)
theorem w2_arg4 : W2 m ρ c (Proc.devRef .tc main_arg4) = (m ((c : Thread nD τ).loc main_arg4)) :=
  (W2_of_ne m ρ c main_arg4 (by decide)).trans (v1_arg4 m ρ c)
theorem w2_arg10 : W2 m ρ c (Proc.devRef .tc main_arg10) = (m ((c : Thread nD τ).loc main_arg10)) :=
  (W2_of_ne m ρ c main_arg10 (by decide)).trans (v1_arg10 m ρ c)
theorem w2_arg15 : W2 m ρ c (Proc.devRef .tc main_arg15) = (m ((c : Thread nD τ).loc main_arg15)) :=
  (W2_of_ne m ρ c main_arg15 (by decide)).trans (v1_arg15 m ρ c)
theorem w2_arg16 : W2 m ρ c (Proc.devRef .tc main_arg16) = (m ((c : Thread nD τ).loc main_arg16)) :=
  (W2_of_ne m ρ c main_arg16 (by decide)).trans (v1_arg16 m ρ c)
theorem w2_arg17 : W2 m ρ c (Proc.devRef .tc main_arg17) = (m ((c : Thread nD τ).loc main_arg17)) :=
  (W2_of_ne m ρ c main_arg17 (by decide)).trans (v1_arg17 m ρ c)
theorem w2_arg18 : W2 m ρ c (Proc.devRef .tc main_arg18) = (m ((c : Thread nD τ).loc main_arg18)) :=
  (W2_of_ne m ρ c main_arg18 (by decide)).trans (v1_arg18 m ρ c)
theorem w2_arg20 : W2 m ρ c (Proc.devRef .tc main_arg20) = (m ((c : Thread nD τ).loc main_arg20)) :=
  (W2_of_ne m ρ c main_arg20 (by decide)).trans (v1_arg20 m ρ c)
theorem w2_arg21 : W2 m ρ c (Proc.devRef .tc main_arg21) = (m ((c : Thread nD τ).loc main_arg21)) :=
  (W2_of_ne m ρ c main_arg21 (by decide)).trans (v1_arg21 m ρ c)
theorem w2_arg22 : W2 m ρ c (Proc.devRef .tc main_arg22) = (m ((c : Thread nD τ).loc main_arg22)) :=
  (W2_of_ne m ρ c main_arg22 (by decide)).trans (v1_arg22 m ρ c)
theorem w2_arg23 : W2 m ρ c (Proc.devRef .tc main_arg23) = (m ((c : Thread nD τ).loc main_arg23)) :=
  (W2_of_ne m ρ c main_arg23 (by decide)).trans (v1_arg23 m ρ c)
theorem w2_arg24 : W2 m ρ c (Proc.devRef .tc main_arg24) = (m ((c : Thread nD τ).loc main_arg24)) :=
  (W2_of_ne m ρ c main_arg24 (by decide)).trans (v1_arg24 m ρ c)
theorem w2_arg0 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (v1_arg0 m ρ c)))
theorem w2_arg9 : W2 m ρ c (Proc.devRef .tc main_arg9) = (m ((c : Thread nD τ).loc main_arg9)) :=
  (W2_of_ne m ρ c main_arg9 (by decide)).trans (v1_arg9 m ρ c)
theorem w2_arg14 : W2 m ρ c (Proc.devRef .tc main_arg14) = (m ((c : Thread nD τ).loc main_arg14)) :=
  (W2_of_ne m ρ c main_arg14 (by decide)).trans (v1_arg14 m ρ c)
theorem w2_arg19 : W2 m ρ c (Proc.devRef .tc main_arg19) = (m ((c : Thread nD τ).loc main_arg19)) :=
  (W2_of_ne m ρ c main_arg19 (by decide)).trans (v1_arg19 m ρ c)

/-! ## After the second stretch (the gather) -/

theorem v3_v8 : V3 m ρ c main_v8 = gatherK (m ((c : Thread nD τ).loc main_arg3)) (xkj m c) :=
  (show V3 m ρ c main_v8 = gatherK (W2 m ρ c (Proc.devRef .tc main_arg3)) (W2 m ρ c (Proc.devRef .tc main_v1)) from by
    show StableHlo.after hostOps1 _ (Proc.devRef .tc main_v8) = _
    after_results
    first | done | rfl).trans (by rw [w2_v1, w2_arg3])
theorem v3_arg2 : V3 m ρ c main_arg2 = (m ((c : Thread nD τ).loc main_arg2)) :=
  (show V3 m ρ c main_arg2 = W2 m ρ c (Proc.devRef .tc main_arg2) from by
    show StableHlo.after hostOps1 _ (Proc.devRef .tc main_arg2) = _
    after_results
    first | done | rfl).trans (w2_arg2 m ρ c)
theorem v3_arg7 : V3 m ρ c main_arg7 = (m ((c : Thread nD τ).loc main_arg7)) :=
  (show V3 m ρ c main_arg7 = W2 m ρ c (Proc.devRef .tc main_arg7) from by
    show StableHlo.after hostOps1 _ (Proc.devRef .tc main_arg7) = _
    after_results
    first | done | rfl).trans (w2_arg7 m ρ c)
theorem v3_arg8 : V3 m ρ c main_arg8 = (m ((c : Thread nD τ).loc main_arg8)) :=
  (show V3 m ρ c main_arg8 = W2 m ρ c (Proc.devRef .tc main_arg8) from by
    show StableHlo.after hostOps1 _ (Proc.devRef .tc main_arg8) = _
    after_results
    first | done | rfl).trans (w2_arg8 m ρ c)
theorem v3_arg4 : V3 m ρ c main_arg4 = (m ((c : Thread nD τ).loc main_arg4)) :=
  (show V3 m ρ c main_arg4 = W2 m ρ c (Proc.devRef .tc main_arg4) from by
    show StableHlo.after hostOps1 _ (Proc.devRef .tc main_arg4) = _
    after_results
    first | done | rfl).trans (w2_arg4 m ρ c)
theorem v3_arg10 : V3 m ρ c main_arg10 = (m ((c : Thread nD τ).loc main_arg10)) :=
  (show V3 m ρ c main_arg10 = W2 m ρ c (Proc.devRef .tc main_arg10) from by
    show StableHlo.after hostOps1 _ (Proc.devRef .tc main_arg10) = _
    after_results
    first | done | rfl).trans (w2_arg10 m ρ c)
theorem v3_arg15 : V3 m ρ c main_arg15 = (m ((c : Thread nD τ).loc main_arg15)) :=
  (show V3 m ρ c main_arg15 = W2 m ρ c (Proc.devRef .tc main_arg15) from by
    show StableHlo.after hostOps1 _ (Proc.devRef .tc main_arg15) = _
    after_results
    first | done | rfl).trans (w2_arg15 m ρ c)
theorem v3_arg16 : V3 m ρ c main_arg16 = (m ((c : Thread nD τ).loc main_arg16)) :=
  (show V3 m ρ c main_arg16 = W2 m ρ c (Proc.devRef .tc main_arg16) from by
    show StableHlo.after hostOps1 _ (Proc.devRef .tc main_arg16) = _
    after_results
    first | done | rfl).trans (w2_arg16 m ρ c)
theorem v3_arg17 : V3 m ρ c main_arg17 = (m ((c : Thread nD τ).loc main_arg17)) :=
  (show V3 m ρ c main_arg17 = W2 m ρ c (Proc.devRef .tc main_arg17) from by
    show StableHlo.after hostOps1 _ (Proc.devRef .tc main_arg17) = _
    after_results
    first | done | rfl).trans (w2_arg17 m ρ c)
theorem v3_arg18 : V3 m ρ c main_arg18 = (m ((c : Thread nD τ).loc main_arg18)) :=
  (show V3 m ρ c main_arg18 = W2 m ρ c (Proc.devRef .tc main_arg18) from by
    show StableHlo.after hostOps1 _ (Proc.devRef .tc main_arg18) = _
    after_results
    first | done | rfl).trans (w2_arg18 m ρ c)
theorem v3_arg20 : V3 m ρ c main_arg20 = (m ((c : Thread nD τ).loc main_arg20)) :=
  (show V3 m ρ c main_arg20 = W2 m ρ c (Proc.devRef .tc main_arg20) from by
    show StableHlo.after hostOps1 _ (Proc.devRef .tc main_arg20) = _
    after_results
    first | done | rfl).trans (w2_arg20 m ρ c)
theorem v3_arg21 : V3 m ρ c main_arg21 = (m ((c : Thread nD τ).loc main_arg21)) :=
  (show V3 m ρ c main_arg21 = W2 m ρ c (Proc.devRef .tc main_arg21) from by
    show StableHlo.after hostOps1 _ (Proc.devRef .tc main_arg21) = _
    after_results
    first | done | rfl).trans (w2_arg21 m ρ c)
theorem v3_arg22 : V3 m ρ c main_arg22 = (m ((c : Thread nD τ).loc main_arg22)) :=
  (show V3 m ρ c main_arg22 = W2 m ρ c (Proc.devRef .tc main_arg22) from by
    show StableHlo.after hostOps1 _ (Proc.devRef .tc main_arg22) = _
    after_results
    first | done | rfl).trans (w2_arg22 m ρ c)
theorem v3_arg23 : V3 m ρ c main_arg23 = (m ((c : Thread nD τ).loc main_arg23)) :=
  (show V3 m ρ c main_arg23 = W2 m ρ c (Proc.devRef .tc main_arg23) from by
    show StableHlo.after hostOps1 _ (Proc.devRef .tc main_arg23) = _
    after_results
    first | done | rfl).trans (w2_arg23 m ρ c)
theorem v3_arg24 : V3 m ρ c main_arg24 = (m ((c : Thread nD τ).loc main_arg24)) :=
  (show V3 m ρ c main_arg24 = W2 m ρ c (Proc.devRef .tc main_arg24) from by
    show StableHlo.after hostOps1 _ (Proc.devRef .tc main_arg24) = _
    after_results
    first | done | rfl).trans (w2_arg24 m ρ c)
theorem v3_arg0 : V3 m ρ c main_arg0 = (m ((c : Thread nD τ).loc main_arg0)) :=
  (show V3 m ρ c main_arg0 = W2 m ρ c (Proc.devRef .tc main_arg0) from by
    show StableHlo.after hostOps1 _ (Proc.devRef .tc main_arg0) = _
    after_results
    first | done | rfl).trans (w2_arg0 m ρ c)
theorem v3_arg9 : V3 m ρ c main_arg9 = (m ((c : Thread nD τ).loc main_arg9)) :=
  (show V3 m ρ c main_arg9 = W2 m ρ c (Proc.devRef .tc main_arg9) from by
    show StableHlo.after hostOps1 _ (Proc.devRef .tc main_arg9) = _
    after_results
    first | done | rfl).trans (w2_arg9 m ρ c)
theorem v3_arg14 : V3 m ρ c main_arg14 = (m ((c : Thread nD τ).loc main_arg14)) :=
  (show V3 m ρ c main_arg14 = W2 m ρ c (Proc.devRef .tc main_arg14) from by
    show StableHlo.after hostOps1 _ (Proc.devRef .tc main_arg14) = _
    after_results
    first | done | rfl).trans (w2_arg14 m ρ c)
theorem v3_arg19 : V3 m ρ c main_arg19 = (m ((c : Thread nD τ).loc main_arg19)) :=
  (show V3 m ρ c main_arg19 = W2 m ρ c (Proc.devRef .tc main_arg19) from by
    show StableHlo.after hostOps1 _ (Proc.devRef .tc main_arg19) = _
    after_results
    first | done | rfl).trans (w2_arg19 m ρ c)

/-! ## After the second launch -/

/-- Stage two of the gathered rows. -/
abbrev msgs : Mat 2097152 64 := msgStage (m ((c : Thread nD τ).loc main_arg2)) (gatherK (m ((c : Thread nD τ).loc main_arg3)) (xkj m c)) (m ((c : Thread nD τ).loc main_arg7)) (m ((c : Thread nD τ).loc main_arg8))

theorem w4_v9 : W4 m ρ c (Proc.devRef .tc main_v9) = msgs m c :=
  (W4_arr m ρ c 4).trans ((R1.final (V3 m ρ) c).trans (by
    unfold R1.G
    rw [v3_arg2, v3_v8, v3_arg7, v3_arg8]))
theorem w4_arg4 : W4 m ρ c (Proc.devRef .tc main_arg4) = (m ((c : Thread nD τ).loc main_arg4)) :=
  (W4_of_ne m ρ c main_arg4 (by decide)).trans (v3_arg4 m ρ c)
theorem w4_arg10 : W4 m ρ c (Proc.devRef .tc main_arg10) = (m ((c : Thread nD τ).loc main_arg10)) :=
  (W4_of_ne m ρ c main_arg10 (by decide)).trans (v3_arg10 m ρ c)
theorem w4_arg15 : W4 m ρ c (Proc.devRef .tc main_arg15) = (m ((c : Thread nD τ).loc main_arg15)) :=
  (W4_of_ne m ρ c main_arg15 (by decide)).trans (v3_arg15 m ρ c)
theorem w4_arg16 : W4 m ρ c (Proc.devRef .tc main_arg16) = (m ((c : Thread nD τ).loc main_arg16)) :=
  (W4_of_ne m ρ c main_arg16 (by decide)).trans (v3_arg16 m ρ c)
theorem w4_arg17 : W4 m ρ c (Proc.devRef .tc main_arg17) = (m ((c : Thread nD τ).loc main_arg17)) :=
  (W4_of_ne m ρ c main_arg17 (by decide)).trans (v3_arg17 m ρ c)
theorem w4_arg18 : W4 m ρ c (Proc.devRef .tc main_arg18) = (m ((c : Thread nD τ).loc main_arg18)) :=
  (W4_of_ne m ρ c main_arg18 (by decide)).trans (v3_arg18 m ρ c)
theorem w4_arg20 : W4 m ρ c (Proc.devRef .tc main_arg20) = (m ((c : Thread nD τ).loc main_arg20)) :=
  (W4_of_ne m ρ c main_arg20 (by decide)).trans (v3_arg20 m ρ c)
theorem w4_arg21 : W4 m ρ c (Proc.devRef .tc main_arg21) = (m ((c : Thread nD τ).loc main_arg21)) :=
  (W4_of_ne m ρ c main_arg21 (by decide)).trans (v3_arg21 m ρ c)
theorem w4_arg22 : W4 m ρ c (Proc.devRef .tc main_arg22) = (m ((c : Thread nD τ).loc main_arg22)) :=
  (W4_of_ne m ρ c main_arg22 (by decide)).trans (v3_arg22 m ρ c)
theorem w4_arg23 : W4 m ρ c (Proc.devRef .tc main_arg23) = (m ((c : Thread nD τ).loc main_arg23)) :=
  (W4_of_ne m ρ c main_arg23 (by decide)).trans (v3_arg23 m ρ c)
theorem w4_arg24 : W4 m ρ c (Proc.devRef .tc main_arg24) = (m ((c : Thread nD τ).loc main_arg24)) :=
  (W4_of_ne m ρ c main_arg24 (by decide)).trans (v3_arg24 m ρ c)
theorem w4_arg0 : W4 m ρ c (Proc.devRef .tc main_arg0) = (m ((c : Thread nD τ).loc main_arg0)) :=
  (W4_of_ne m ρ c main_arg0 (by decide)).trans (v3_arg0 m ρ c)
theorem w4_arg9 : W4 m ρ c (Proc.devRef .tc main_arg9) = (m ((c : Thread nD τ).loc main_arg9)) :=
  (W4_of_ne m ρ c main_arg9 (by decide)).trans (v3_arg9 m ρ c)
theorem w4_arg14 : W4 m ρ c (Proc.devRef .tc main_arg14) = (m ((c : Thread nD τ).loc main_arg14)) :=
  (W4_of_ne m ρ c main_arg14 (by decide)).trans (v3_arg14 m ρ c)
theorem w4_arg19 : W4 m ρ c (Proc.devRef .tc main_arg19) = (m ((c : Thread nD τ).loc main_arg19)) :=
  (W4_of_ne m ρ c main_arg19 (by decide)).trans (v3_arg19 m ρ c)

/-! ## After the third stretch (the sum onto the edges; the weights and biases reshaped and sliced) -/
theorem v5_arg0 : V5 m ρ c main_arg0 = (m ((c : Thread nD τ).loc main_arg0)) :=
  (show V5 m ρ c main_arg0 = W4 m ρ c (Proc.devRef .tc main_arg0) from by
    show StableHlo.after hostOps2 _ (Proc.devRef .tc main_arg0) = _
    after_results
    first | done | rfl).trans (w4_arg0 m ρ c)
theorem v5_arg9 : V5 m ρ c main_arg9 = (m ((c : Thread nD τ).loc main_arg9)) :=
  (show V5 m ρ c main_arg9 = W4 m ρ c (Proc.devRef .tc main_arg9) from by
    show StableHlo.after hostOps2 _ (Proc.devRef .tc main_arg9) = _
    after_results
    first | done | rfl).trans (w4_arg9 m ρ c)
theorem v5_arg14 : V5 m ρ c main_arg14 = (m ((c : Thread nD τ).loc main_arg14)) :=
  (show V5 m ρ c main_arg14 = W4 m ρ c (Proc.devRef .tc main_arg14) from by
    show StableHlo.after hostOps2 _ (Proc.devRef .tc main_arg14) = _
    after_results
    first | done | rfl).trans (w4_arg14 m ρ c)
theorem v5_arg19 : V5 m ρ c main_arg19 = (m ((c : Thread nD τ).loc main_arg19)) :=
  (show V5 m ρ c main_arg19 = W4 m ρ c (Proc.devRef .tc main_arg19) from by
    show StableHlo.after hostOps2 _ (Proc.devRef .tc main_arg19) = _
    after_results
    first | done | rfl).trans (w4_arg19 m ρ c)
theorem v5_v12 : V5 m ρ c main_v12 = scatterK (m ((c : Thread nD τ).loc main_arg4)) (msgs m c) :=
  (show V5 m ρ c main_v12 = scatterK (W4 m ρ c (Proc.devRef .tc main_arg4)) (W4 m ρ c (Proc.devRef .tc main_v9)) from by
    show StableHlo.after hostOps2 _ (Proc.devRef .tc main_v12) = _
    after_results
    first | done | rfl).trans (by rw [w4_v9, w4_arg4])
theorem v5_v13 : V5 m ρ c main_v13 = (shapeCast S1x128 (m ((c : Thread nD τ).loc main_arg10)) shapeCasts_S128_S1x128) :=
  (show V5 m ρ c main_v13 = (shapeCast S1x128 (W4 m ρ c (Proc.devRef .tc main_arg10)) shapeCasts_S128_S1x128) from by
    show StableHlo.after hostOps2 _ (Proc.devRef .tc main_v13) = _
    after_results
    first | done | rfl).trans (by rw [w4_arg10])
theorem v5_v31 : V5 m ρ c main_v31 = (shapeCast S128x128 (m ((c : Thread nD τ).loc main_arg15)) shapeCasts_S1x128x128_S128x128) :=
  (show V5 m ρ c main_v31 = (shapeCast S128x128 (W4 m ρ c (Proc.devRef .tc main_arg15)) shapeCasts_S1x128x128_S128x128) from by
    show StableHlo.after hostOps2 _ (Proc.devRef .tc main_v31) = _
    after_results
    first | done | rfl).trans (by rw [w4_arg15])
theorem v5_v15 : V5 m ρ c main_v15 = (shapeCast S1x128 (shapeCast S128 (m ((c : Thread nD τ).loc main_arg16)) shapeCasts_S1x128_S128) shapeCasts_S128_S1x128) :=
  (show V5 m ρ c main_v15 = (shapeCast S1x128 (shapeCast S128 (W4 m ρ c (Proc.devRef .tc main_arg16)) shapeCasts_S1x128_S128) shapeCasts_S128_S1x128) from by
    show StableHlo.after hostOps2 _ (Proc.devRef .tc main_v15) = _
    after_results
    first | done | rfl).trans (by rw [w4_arg16])
theorem v5_v32 : V5 m ρ c main_v32 = (shapeCast S128x128 (m ((c : Thread nD τ).loc main_arg17)) shapeCasts_S1x128x128_S128x128) :=
  (show V5 m ρ c main_v32 = (shapeCast S128x128 (W4 m ρ c (Proc.devRef .tc main_arg17)) shapeCasts_S1x128x128_S128x128) from by
    show StableHlo.after hostOps2 _ (Proc.devRef .tc main_v32) = _
    after_results
    first | done | rfl).trans (by rw [w4_arg17])
theorem v5_v17 : V5 m ρ c main_v17 = (shapeCast S1x128 (shapeCast S128 (m ((c : Thread nD τ).loc main_arg18)) shapeCasts_S1x128_S128) shapeCasts_S128_S1x128) :=
  (show V5 m ρ c main_v17 = (shapeCast S1x128 (shapeCast S128 (W4 m ρ c (Proc.devRef .tc main_arg18)) shapeCasts_S1x128_S128) shapeCasts_S128_S1x128) from by
    show StableHlo.after hostOps2 _ (Proc.devRef .tc main_v17) = _
    after_results
    first | done | rfl).trans (by rw [w4_arg18])
theorem v5_v18 : V5 m ρ c main_v18 = (shapeCast S1x128 (m ((c : Thread nD τ).loc main_arg20)) shapeCasts_S128_S1x128) :=
  (show V5 m ρ c main_v18 = (shapeCast S1x128 (W4 m ρ c (Proc.devRef .tc main_arg20)) shapeCasts_S128_S1x128) from by
    show StableHlo.after hostOps2 _ (Proc.devRef .tc main_v18) = _
    after_results
    first | done | rfl).trans (by rw [w4_arg20])
theorem v5_v34 : V5 m ρ c main_v34 = (shapeCast S128x128 (extractStridedSlice S1x128x128 ![0, 0, 0] (m ((c : Thread nD τ).loc main_arg21)) slices_S2x128x128_S1x128x128_0_0_0) shapeCasts_S1x128x128_S128x128) :=
  (show V5 m ρ c main_v34 = (shapeCast S128x128 (extractStridedSlice S1x128x128 ![0, 0, 0] (W4 m ρ c (Proc.devRef .tc main_arg21)) slices_S2x128x128_S1x128x128_0_0_0) shapeCasts_S1x128x128_S128x128) from by
    show StableHlo.after hostOps2 _ (Proc.devRef .tc main_v34) = _
    after_results
    first | done | rfl).trans (by rw [w4_arg21])
theorem v5_v21 : V5 m ρ c main_v21 = (shapeCast S1x128 (shapeCast S128 (extractStridedSlice S1x128 ![0, 0] (m ((c : Thread nD τ).loc main_arg22)) slices_S2x128_S1x128_0_0) shapeCasts_S1x128_S128) shapeCasts_S128_S1x128) :=
  (show V5 m ρ c main_v21 = (shapeCast S1x128 (shapeCast S128 (extractStridedSlice S1x128 ![0, 0] (W4 m ρ c (Proc.devRef .tc main_arg22)) slices_S2x128_S1x128_0_0) shapeCasts_S1x128_S128) shapeCasts_S128_S1x128) from by
    show StableHlo.after hostOps2 _ (Proc.devRef .tc main_v21) = _
    after_results
    first | done | rfl).trans (by rw [w4_arg22])
theorem v5_v38 : V5 m ρ c main_v38 = (shapeCast S128x128 (extractStridedSlice S1x128x128 ![0, 0, 0] (m ((c : Thread nD τ).loc main_arg23)) slices_S2x128x128_S1x128x128_0_0_0) shapeCasts_S1x128x128_S128x128) :=
  (show V5 m ρ c main_v38 = (shapeCast S128x128 (extractStridedSlice S1x128x128 ![0, 0, 0] (W4 m ρ c (Proc.devRef .tc main_arg23)) slices_S2x128x128_S1x128x128_0_0_0) shapeCasts_S1x128x128_S128x128) from by
    show StableHlo.after hostOps2 _ (Proc.devRef .tc main_v38) = _
    after_results
    first | done | rfl).trans (by rw [w4_arg23])
theorem v5_v27 : V5 m ρ c main_v27 = (shapeCast S1x128 (shapeCast S128 (extractStridedSlice S1x128 ![0, 0] (m ((c : Thread nD τ).loc main_arg24)) slices_S2x128_S1x128_0_0) shapeCasts_S1x128_S128) shapeCasts_S128_S1x128) :=
  (show V5 m ρ c main_v27 = (shapeCast S1x128 (shapeCast S128 (extractStridedSlice S1x128 ![0, 0] (W4 m ρ c (Proc.devRef .tc main_arg24)) slices_S2x128_S1x128_0_0) shapeCasts_S1x128_S128) shapeCasts_S128_S1x128) from by
    show StableHlo.after hostOps2 _ (Proc.devRef .tc main_v27) = _
    after_results
    first | done | rfl).trans (by rw [w4_arg24])
theorem v5_v36 : V5 m ρ c main_v36 = (shapeCast S128x128 (extractStridedSlice S1x128x128 ![1, 0, 0] (m ((c : Thread nD τ).loc main_arg21)) slices_S2x128x128_S1x128x128_1_0_0) shapeCasts_S1x128x128_S128x128) :=
  (show V5 m ρ c main_v36 = (shapeCast S128x128 (extractStridedSlice S1x128x128 ![1, 0, 0] (W4 m ρ c (Proc.devRef .tc main_arg21)) slices_S2x128x128_S1x128x128_1_0_0) shapeCasts_S1x128x128_S128x128) from by
    show StableHlo.after hostOps2 _ (Proc.devRef .tc main_v36) = _
    after_results
    first | done | rfl).trans (by rw [w4_arg21])
theorem v5_v24 : V5 m ρ c main_v24 = (shapeCast S1x128 (shapeCast S128 (extractStridedSlice S1x128 ![1, 0] (m ((c : Thread nD τ).loc main_arg22)) slices_S2x128_S1x128_1_0) shapeCasts_S1x128_S128) shapeCasts_S128_S1x128) :=
  (show V5 m ρ c main_v24 = (shapeCast S1x128 (shapeCast S128 (extractStridedSlice S1x128 ![1, 0] (W4 m ρ c (Proc.devRef .tc main_arg22)) slices_S2x128_S1x128_1_0) shapeCasts_S1x128_S128) shapeCasts_S128_S1x128) from by
    show StableHlo.after hostOps2 _ (Proc.devRef .tc main_v24) = _
    after_results
    first | done | rfl).trans (by rw [w4_arg22])
theorem v5_v40 : V5 m ρ c main_v40 = (shapeCast S128x128 (extractStridedSlice S1x128x128 ![1, 0, 0] (m ((c : Thread nD τ).loc main_arg23)) slices_S2x128x128_S1x128x128_1_0_0) shapeCasts_S1x128x128_S128x128) :=
  (show V5 m ρ c main_v40 = (shapeCast S128x128 (extractStridedSlice S1x128x128 ![1, 0, 0] (W4 m ρ c (Proc.devRef .tc main_arg23)) slices_S2x128x128_S1x128x128_1_0_0) shapeCasts_S1x128x128_S128x128) from by
    show StableHlo.after hostOps2 _ (Proc.devRef .tc main_v40) = _
    after_results
    first | done | rfl).trans (by rw [w4_arg23])
theorem v5_v30 : V5 m ρ c main_v30 = (shapeCast S1x128 (shapeCast S128 (extractStridedSlice S1x128 ![1, 0] (m ((c : Thread nD τ).loc main_arg24)) slices_S2x128_S1x128_1_0) shapeCasts_S1x128_S128) shapeCasts_S128_S1x128) :=
  (show V5 m ρ c main_v30 = (shapeCast S1x128 (shapeCast S128 (extractStridedSlice S1x128 ![1, 0] (W4 m ρ c (Proc.devRef .tc main_arg24)) slices_S2x128_S1x128_1_0) shapeCasts_S1x128_S128) shapeCasts_S128_S1x128) from by
    show StableHlo.after hostOps2 _ (Proc.devRef .tc main_v30) = _
    after_results
    first | done | rfl).trans (by rw [w4_arg24])

/-! ## After the third launch: the result -/

/-- The program's result as a function of its arguments. -/
abbrev result : Mat 262144 128 :=
  updStage (m ((c : Thread nD τ).loc main_arg0)) (scatterK (m ((c : Thread nD τ).loc main_arg4)) (msgs m c)) (m ((c : Thread nD τ).loc main_arg9)) (rowVec (shapeCast S1x128 (m ((c : Thread nD τ).loc main_arg10)) shapeCasts_S128_S1x128)) (m ((c : Thread nD τ).loc main_arg14))
    (shapeCast S128x128 (m ((c : Thread nD τ).loc main_arg15)) shapeCasts_S1x128x128_S128x128) (rowVec (shapeCast S1x128 (shapeCast S128 (m ((c : Thread nD τ).loc main_arg16)) shapeCasts_S1x128_S128) shapeCasts_S128_S1x128)) (shapeCast S128x128 (m ((c : Thread nD τ).loc main_arg17)) shapeCasts_S1x128x128_S128x128) (rowVec (shapeCast S1x128 (shapeCast S128 (m ((c : Thread nD τ).loc main_arg18)) shapeCasts_S1x128_S128) shapeCasts_S128_S1x128))
    (m ((c : Thread nD τ).loc main_arg19)) (rowVec (shapeCast S1x128 (m ((c : Thread nD τ).loc main_arg20)) shapeCasts_S128_S1x128))
    (shapeCast S128x128 (extractStridedSlice S1x128x128 ![0, 0, 0] (m ((c : Thread nD τ).loc main_arg21)) slices_S2x128x128_S1x128x128_0_0_0) shapeCasts_S1x128x128_S128x128) (rowVec (shapeCast S1x128 (shapeCast S128 (extractStridedSlice S1x128 ![0, 0] (m ((c : Thread nD τ).loc main_arg22)) slices_S2x128_S1x128_0_0) shapeCasts_S1x128_S128) shapeCasts_S128_S1x128)) (shapeCast S128x128 (extractStridedSlice S1x128x128 ![0, 0, 0] (m ((c : Thread nD τ).loc main_arg23)) slices_S2x128x128_S1x128x128_0_0_0) shapeCasts_S1x128x128_S128x128) (rowVec (shapeCast S1x128 (shapeCast S128 (extractStridedSlice S1x128 ![0, 0] (m ((c : Thread nD τ).loc main_arg24)) slices_S2x128_S1x128_0_0) shapeCasts_S1x128_S128) shapeCasts_S128_S1x128))
    (shapeCast S128x128 (extractStridedSlice S1x128x128 ![1, 0, 0] (m ((c : Thread nD τ).loc main_arg21)) slices_S2x128x128_S1x128x128_1_0_0) shapeCasts_S1x128x128_S128x128) (rowVec (shapeCast S1x128 (shapeCast S128 (extractStridedSlice S1x128 ![1, 0] (m ((c : Thread nD τ).loc main_arg22)) slices_S2x128_S1x128_1_0) shapeCasts_S1x128_S128) shapeCasts_S128_S1x128)) (shapeCast S128x128 (extractStridedSlice S1x128x128 ![1, 0, 0] (m ((c : Thread nD τ).loc main_arg23)) slices_S2x128x128_S1x128x128_1_0_0) shapeCasts_S1x128x128_S128x128) (rowVec (shapeCast S1x128 (shapeCast S128 (extractStridedSlice S1x128 ![1, 0] (m ((c : Thread nD τ).loc main_arg24)) slices_S2x128_S1x128_1_0) shapeCasts_S1x128_S128) shapeCasts_S128_S1x128))

/-- Stage three of equal arguments is equal. -/
theorem updStage_congr {M : Nat} {m m' : Mat M 128} {μ μ' : Mat M 64} {Wji Wji' : Mat 128 128} {bji bji' : Fin 128 → EReal} {Wup Wup' : Mat 64 128} {A₀ A₀' : Mat 128 128} {a₀ a₀' : Fin 128 → EReal} {B₀ B₀' : Mat 128 128} {b₀ b₀' : Fin 128 → EReal} {Wf Wf' : Mat 128 128} {bf bf' : Fin 128 → EReal} {A₁ A₁' : Mat 128 128} {a₁ a₁' : Fin 128 → EReal} {B₁ B₁' : Mat 128 128} {b₁ b₁' : Fin 128 → EReal} {A₂ A₂' : Mat 128 128} {a₂ a₂' : Fin 128 → EReal} {B₂ B₂' : Mat 128 128} {b₂ b₂' : Fin 128 → EReal}
    (h0 : m = m') (h1 : μ = μ') (h2 : Wji = Wji') (h3 : bji = bji') (h4 : Wup = Wup') (h5 : A₀ = A₀') (h6 : a₀ = a₀') (h7 : B₀ = B₀') (h8 : b₀ = b₀') (h9 : Wf = Wf') (h10 : bf = bf') (h11 : A₁ = A₁') (h12 : a₁ = a₁') (h13 : B₁ = B₁') (h14 : b₁ = b₁') (h15 : A₂ = A₂') (h16 : a₂ = a₂') (h17 : B₂ = B₂') (h18 : b₂ = b₂') :
    updStage m μ Wji bji Wup A₀ a₀ B₀ b₀ Wf bf A₁ a₁ B₁ b₁ A₂ a₂ B₂ b₂ = updStage m' μ' Wji' bji' Wup' A₀' a₀' B₀' b₀' Wf' bf' A₁' a₁' B₁' b₁' A₂' a₂' B₂' b₂' := by
  subst_vars; rfl

theorem w6_v41 : W6 m ρ c (Proc.devRef .tc main_v41) = result m c :=
  (W6_arr m ρ c 19).trans ((R2.final (V5 m ρ) c).trans (by
    unfold R2.G
    exact updStage_congr
      (v5_arg0 m ρ c)
      (v5_v12 m ρ c)
      (v5_arg9 m ρ c)
      (congrArg rowVec (v5_v13 m ρ c))
      (v5_arg14 m ρ c)
      (v5_v31 m ρ c)
      (congrArg rowVec (v5_v15 m ρ c))
      (v5_v32 m ρ c)
      (congrArg rowVec (v5_v17 m ρ c))
      (v5_arg19 m ρ c)
      (congrArg rowVec (v5_v18 m ρ c))
      (v5_v34 m ρ c)
      (congrArg rowVec (v5_v21 m ρ c))
      (v5_v38 m ρ c)
      (congrArg rowVec (v5_v27 m ρ c))
      (v5_v36 m ρ c)
      (congrArg rowVec (v5_v24 m ρ c))
      (v5_v40 m ρ c)
      (congrArg rowVec (v5_v30 m ρ c))))

/-- Every weakly fair execution of the kernel program terminates without a fault, with the result buffer at
    `result` of the arguments and every argument array as launched. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c _ (mem_uc main_v41 (by decide))).trans (w6_v41 m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c),
      (h c _ (mem_uc main_arg20 (by decide))).trans (W6_main_arg20 m ρ c),
      (h c _ (mem_uc main_arg21 (by decide))).trans (W6_main_arg21 m ρ c),
      (h c _ (mem_uc main_arg22 (by decide))).trans (W6_main_arg22 m ρ c),
      (h c _ (mem_uc main_arg23 (by decide))).trans (W6_main_arg23 m ρ c),
      (h c _ (mem_uc main_arg24 (by decide))).trans (W6_main_arg24 m ρ c)⟩)
    (KRun.run m ρ)

end Cert.Block.KV

end
-- ==== Proof.RefOps.lean ====
/-
  The host reference program as a list of its operations.

  The program is a straight line of 181 whole-array operations: 82 of its own and, for each of its eleven
  applications of the activation  z ↦ z · 1 / (1 + e^(-z)),  the nine operations of that function's body written over
  the buffers of that application (negation, exponential, the constant one, its broadcast, the sum, the constant one
  again, its broadcast, the quotient, the product).  The line is given in four consecutive parts, cut where a value
  is used again much later: after the sum u₀ (operation 66), after the sum of the edge embeddings with the dense layer
  (operation 111), and after the second residual pair (operation 146).  Running the program is running the four parts
  in order, and what a buffer holds at the end is the fold of the operations' results over the contents at launch.
-/
import proofs.«124901_j62199716381203_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 to 66: the two radial products, the two dense layers of the edge embeddings with their activations, the down-projection and its activation, the angular products, the wrapped source index, the gather, the product of messages, the zero array, the scatter-add, the up-projection with its activation, and the sum u₀. -/
abbrev opsA : List (HloOp τ sig (Elt F)) :=
  [ binary main_arg1 main_arg5 main_v0 ((fun l r => Host.dotGeneral dot_S262144x6_S6x8_S262144x8_1_0_0_1_n_n none l r) : (⟨S262144x6, .f32⟩ : BufTy).Contents (Elt F) → (⟨S6x8, .f32⟩ : BufTy).Contents (Elt F) → (⟨S262144x8, .f32⟩ : BufTy).Contents (Elt F)),
    binary main_v0 main_arg6 main_v1 ((fun l r => Host.dotGeneral dot_S262144x8_S8x128_S262144x128_1_0_0_1_n_n none l r) : (⟨S262144x8, .f32⟩ : BufTy).Contents (Elt F) → (⟨S8x128, .f32⟩ : BufTy).Contents (Elt F) → (⟨S262144x128, .f32⟩ : BufTy).Contents (Elt F)),
    binary main_arg0 main_arg9 main_v2 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg10 main_v3 (broadcastInDim S1x128 ![1] bcast_S128_S1x128_1 : (⟨S128, .f32⟩ : BufTy).Contents (Elt F) → (⟨S1x128, .f32⟩ : BufTy).Contents (Elt F)),
    unary main_v3 main_v4 (broadcastInDim S262144x128 ![0, 1] bcast_S1x128_S262144x128_0_1 : (⟨S1x128, .f32⟩ : BufTy).Contents (Elt F) → (⟨S262144x128, .f32⟩ : BufTy).Contents (Elt F)),
    binary main_v2 main_v4 main_v5 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v5) (TRef.of (T := ⟨S262144x128, .f32⟩) main_call0_v0) Host.negf,
    TRef.unary (TRef.of (T := ⟨S262144x128, .f32⟩) main_call0_v0) (TRef.of (T := ⟨S262144x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S262144x128, .f32⟩) main_call0_v2) (broadcastInDim S262144x128 ![] bcast_S_S262144x128),
    TRef.binary (TRef.of (T := ⟨S262144x128, .f32⟩) main_call0_v2) (TRef.of (T := ⟨S262144x128, .f32⟩) main_call0_v1) (TRef.of (T := ⟨S262144x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S262144x128, .f32⟩) main_call0_v4) (broadcastInDim S262144x128 ![] bcast_S_S262144x128),
    TRef.binary (TRef.of (T := ⟨S262144x128, .f32⟩) main_call0_v4) (TRef.of (T := ⟨S262144x128, .f32⟩) main_call0_v3) (TRef.of (T := ⟨S262144x128, .f32⟩) main_call0_v5) Host.divf,
    TRef.binary (TRef.of (T := ⟨S262144x128, .f32⟩) main_v5) (TRef.of (T := ⟨S262144x128, .f32⟩) main_call0_v5) (TRef.of (T := ⟨S262144x128, .f32⟩) main_v6) mulf,
    binary main_arg0 main_arg11 main_v7 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg12 main_v8 (broadcastInDim S1x128 ![1] bcast_S128_S1x128_1 : (⟨S128, .f32⟩ : BufTy).Contents (Elt F) → (⟨S1x128, .f32⟩ : BufTy).Contents (Elt F)),
    unary main_v8 main_v9 (broadcastInDim S262144x128 ![0, 1] bcast_S1x128_S262144x128_0_1 : (⟨S1x128, .f32⟩ : BufTy).Contents (Elt F) → (⟨S262144x128, .f32⟩ : BufTy).Contents (Elt F)),
    binary main_v7 main_v9 main_v10 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v10) (TRef.of (T := ⟨S262144x128, .f32⟩) main_call1_v0) Host.negf,
    TRef.unary (TRef.of (T := ⟨S262144x128, .f32⟩) main_call1_v0) (TRef.of (T := ⟨S262144x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S262144x128, .f32⟩) main_call1_v2) (broadcastInDim S262144x128 ![] bcast_S_S262144x128),
    TRef.binary (TRef.of (T := ⟨S262144x128, .f32⟩) main_call1_v2) (TRef.of (T := ⟨S262144x128, .f32⟩) main_call1_v1) (TRef.of (T := ⟨S262144x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S262144x128, .f32⟩) main_call1_v4) (broadcastInDim S262144x128 ![] bcast_S_S262144x128),
    TRef.binary (TRef.of (T := ⟨S262144x128, .f32⟩) main_call1_v4) (TRef.of (T := ⟨S262144x128, .f32⟩) main_call1_v3) (TRef.of (T := ⟨S262144x128, .f32⟩) main_call1_v5) Host.divf,
    TRef.binary (TRef.of (T := ⟨S262144x128, .f32⟩) main_v10) (TRef.of (T := ⟨S262144x128, .f32⟩) main_call1_v5) (TRef.of (T := ⟨S262144x128, .f32⟩) main_v11) mulf,
    binary main_v11 main_v1 main_v12 (mulf : (⟨S262144x128, .f32⟩ : BufTy).Contents (Elt F) → (⟨S262144x128, .f32⟩ : BufTy).Contents (Elt F) → (⟨S262144x128, .f32⟩ : BufTy).Contents (Elt F)),
    binary main_v12 main_arg13 main_v13 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    TRef.unary (TRef.of (T := ⟨S262144x64, .f32⟩) main_v13) (TRef.of (T := ⟨S262144x64, .f32⟩) main_call2_v0) Host.negf,
    TRef.unary (TRef.of (T := ⟨S262144x64, .f32⟩) main_call2_v0) (TRef.of (T := ⟨S262144x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S262144x64, .f32⟩) main_call2_v2) (broadcastInDim S262144x64 ![] bcast_S_S262144x64),
    TRef.binary (TRef.of (T := ⟨S262144x64, .f32⟩) main_call2_v2) (TRef.of (T := ⟨S262144x64, .f32⟩) main_call2_v1) (TRef.of (T := ⟨S262144x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S262144x64, .f32⟩) main_call2_v4) (broadcastInDim S262144x64 ![] bcast_S_S262144x64),
    TRef.binary (TRef.of (T := ⟨S262144x64, .f32⟩) main_call2_v4) (TRef.of (T := ⟨S262144x64, .f32⟩) main_call2_v3) (TRef.of (T := ⟨S262144x64, .f32⟩) main_call2_v5) Host.divf,
    TRef.binary (TRef.of (T := ⟨S262144x64, .f32⟩) main_v13) (TRef.of (T := ⟨S262144x64, .f32⟩) main_call2_v5) (TRef.of (T := ⟨S262144x64, .f32⟩) main_v14) mulf,
    binary main_arg2 main_arg7 main_v15 ((fun l r => Host.dotGeneral dot_S2097152x42_S42x8_S2097152x8_1_0_0_1_n_n none l r) : (⟨S2097152x42, .f32⟩ : BufTy).Contents (Elt F) → (⟨S42x8, .f32⟩ : BufTy).Contents (Elt F) → (⟨S2097152x8, .f32⟩ : BufTy).Contents (Elt F)),
    binary main_v15 main_arg8 main_v16 ((fun l r => Host.dotGeneral dot_S2097152x8_S8x64_S2097152x64_1_0_0_1_n_n none l r) : (⟨S2097152x8, .f32⟩ : BufTy).Contents (Elt F) → (⟨S8x64, .f32⟩ : BufTy).Contents (Elt F) → (⟨S2097152x64, .f32⟩ : BufTy).Contents (Elt F)),
    nullary main_c (constantI S_ 32 0#32),
    unary main_c main_v17 (broadcastInDim S2097152 ![] bcast_S_S2097152 : (⟨S_, .i32⟩ : BufTy).Contents (Elt F) → (⟨S2097152, .i32⟩ : BufTy).Contents (Elt F)),
    binary main_arg3 main_v17 main_v18 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 262144#32),
    unary main_c_0 main_v19 (broadcastInDim S2097152 ![] bcast_S_S2097152 : (⟨S_, .i32⟩ : BufTy).Contents (Elt F) → (⟨S2097152, .i32⟩ : BufTy).Contents (Elt F)),
    binary main_arg3 main_v19 main_v20 (addi : (⟨S2097152, .i32⟩ : BufTy).Contents (Elt F) → (⟨S2097152, .i32⟩ : BufTy).Contents (Elt F) → (⟨S2097152, .i32⟩ : BufTy).Contents (Elt F)),
    ternary main_v18 main_v20 main_arg3 main_v21 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v21 main_v22 (broadcastInDim S2097152x1 ![0] bcast_S2097152_S2097152x1_0 : (⟨S2097152, .i32⟩ : BufTy).Contents (Elt F) → (⟨S2097152x1, .i32⟩ : BufTy).Contents (Elt F)),
    binary main_v14 main_v22 main_v23 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    binary main_v23 main_v16 main_v24 (mulf : (⟨S2097152x64, .f32⟩ : BufTy).Contents (Elt F) → (⟨S2097152x64, .f32⟩ : BufTy).Contents (Elt F) → (⟨S2097152x64, .f32⟩ : BufTy).Contents (Elt F)),
    nullary main_cst (constant S_ .f32 0x00000000#32),
    unary main_cst main_v25 (broadcastInDim S262144x64 ![] bcast_S_S262144x64 : (⟨S_, .f32⟩ : BufTy).Contents (Elt F) → (⟨S262144x64, .f32⟩ : BufTy).Contents (Elt F)),
    unary main_arg4 main_v26 (broadcastInDim S2097152x1 ![0] bcast_S2097152_S2097152x1_0 : (⟨S2097152, .i32⟩ : BufTy).Contents (Elt F) → (⟨S2097152x1, .i32⟩ : BufTy).Contents (Elt F)),
    ternary main_v25 main_v26 main_v24 main_v27 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v27 main_arg14 main_v28 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    TRef.unary (TRef.of (T := ⟨S262144x128, .f32⟩) main_v28) (TRef.of (T := ⟨S262144x128, .f32⟩) main_call3_v0) Host.negf,
    TRef.unary (TRef.of (T := ⟨S262144x128, .f32⟩) main_call3_v0) (TRef.of (T := ⟨S262144x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S262144x128, .f32⟩) main_call3_v2) (broadcastInDim S262144x128 ![] bcast_S_S262144x128),
    TRef.binary (TRef.of (T := ⟨S262144x128, .f32⟩) main_call3_v2) (TRef.of (T := ⟨S262144x128, .f32⟩) main_call3_v1) (TRef.of (T := ⟨S262144x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S262144x128, .f32⟩) main_call3_v4) (broadcastInDim S262144x128 ![] bcast_S_S262144x128),
    TRef.binary (TRef.of (T := ⟨S262144x128, .f32⟩) main_call3_v4) (TRef.of (T := ⟨S262144x128, .f32⟩) main_call3_v3) (TRef.of (T := ⟨S262144x128, .f32⟩) main_call3_v5) Host.divf,
    TRef.binary (TRef.of (T := ⟨S262144x128, .f32⟩) main_v28) (TRef.of (T := ⟨S262144x128, .f32⟩) main_call3_v5) (TRef.of (T := ⟨S262144x128, .f32⟩) main_v29) mulf,
    binary main_v29 main_v6 main_v30 (addf : (⟨S262144x128, .f32⟩ : BufTy).Contents (Elt F) → (⟨S262144x128, .f32⟩ : BufTy).Contents (Elt F) → (⟨S262144x128, .f32⟩ : BufTy).Contents (Elt F)) ]

/-- Operations 67 to 111: the weights of the first residual pair reshaped, the pair itself, the dense layer after it with its activation, and the sum with the edge embeddings. -/
abbrev opsB : List (HloOp τ sig (Elt F)) :=
  [ reshape main_arg15 main_v31 rfl shapeCasts_S1x128x128_S128x128,
    reshape main_arg16 main_v32 rfl shapeCasts_S1x128_S128,
    reshape main_arg17 main_v33 rfl shapeCasts_S1x128x128_S128x128,
    reshape main_arg18 main_v34 rfl shapeCasts_S1x128_S128,
    binary main_v30 main_v31 main_v35 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v32 main_v36 (broadcastInDim S1x128 ![1] bcast_S128_S1x128_1 : (⟨S128, .f32⟩ : BufTy).Contents (Elt F) → (⟨S1x128, .f32⟩ : BufTy).Contents (Elt F)),
    unary main_v36 main_v37 (broadcastInDim S262144x128 ![0, 1] bcast_S1x128_S262144x128_0_1 : (⟨S1x128, .f32⟩ : BufTy).Contents (Elt F) → (⟨S262144x128, .f32⟩ : BufTy).Contents (Elt F)),
    binary main_v35 main_v37 main_v38 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v38) (TRef.of (T := ⟨S262144x128, .f32⟩) main_call4_v0) Host.negf,
    TRef.unary (TRef.of (T := ⟨S262144x128, .f32⟩) main_call4_v0) (TRef.of (T := ⟨S262144x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S262144x128, .f32⟩) main_call4_v2) (broadcastInDim S262144x128 ![] bcast_S_S262144x128),
    TRef.binary (TRef.of (T := ⟨S262144x128, .f32⟩) main_call4_v2) (TRef.of (T := ⟨S262144x128, .f32⟩) main_call4_v1) (TRef.of (T := ⟨S262144x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S262144x128, .f32⟩) main_call4_v4) (broadcastInDim S262144x128 ![] bcast_S_S262144x128),
    TRef.binary (TRef.of (T := ⟨S262144x128, .f32⟩) main_call4_v4) (TRef.of (T := ⟨S262144x128, .f32⟩) main_call4_v3) (TRef.of (T := ⟨S262144x128, .f32⟩) main_call4_v5) Host.divf,
    TRef.binary (TRef.of (T := ⟨S262144x128, .f32⟩) main_v38) (TRef.of (T := ⟨S262144x128, .f32⟩) main_call4_v5) (TRef.of (T := ⟨S262144x128, .f32⟩) main_v39) mulf,
    binary main_v39 main_v33 main_v40 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v34 main_v41 (broadcastInDim S1x128 ![1] bcast_S128_S1x128_1 : (⟨S128, .f32⟩ : BufTy).Contents (Elt F) → (⟨S1x128, .f32⟩ : BufTy).Contents (Elt F)),
    unary main_v41 main_v42 (broadcastInDim S262144x128 ![0, 1] bcast_S1x128_S262144x128_0_1 : (⟨S1x128, .f32⟩ : BufTy).Contents (Elt F) → (⟨S262144x128, .f32⟩ : BufTy).Contents (Elt F)),
    binary main_v40 main_v42 main_v43 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v43) (TRef.of (T := ⟨S262144x128, .f32⟩) main_call5_v0) Host.negf,
    TRef.unary (TRef.of (T := ⟨S262144x128, .f32⟩) main_call5_v0) (TRef.of (T := ⟨S262144x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S262144x128, .f32⟩) main_call5_v2) (broadcastInDim S262144x128 ![] bcast_S_S262144x128),
    TRef.binary (TRef.of (T := ⟨S262144x128, .f32⟩) main_call5_v2) (TRef.of (T := ⟨S262144x128, .f32⟩) main_call5_v1) (TRef.of (T := ⟨S262144x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S262144x128, .f32⟩) main_call5_v4) (broadcastInDim S262144x128 ![] bcast_S_S262144x128),
    TRef.binary (TRef.of (T := ⟨S262144x128, .f32⟩) main_call5_v4) (TRef.of (T := ⟨S262144x128, .f32⟩) main_call5_v3) (TRef.of (T := ⟨S262144x128, .f32⟩) main_call5_v5) Host.divf,
    TRef.binary (TRef.of (T := ⟨S262144x128, .f32⟩) main_v43) (TRef.of (T := ⟨S262144x128, .f32⟩) main_call5_v5) (TRef.of (T := ⟨S262144x128, .f32⟩) main_v44) mulf,
    binary main_v30 main_v44 main_v45 (addf : (⟨S262144x128, .f32⟩ : BufTy).Contents (Elt F) → (⟨S262144x128, .f32⟩ : BufTy).Contents (Elt F) → (⟨S262144x128, .f32⟩ : BufTy).Contents (Elt F)),
    binary main_v45 main_arg19 main_v46 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v47 (broadcastInDim S1x128 ![1] bcast_S128_S1x128_1 : (⟨S128, .f32⟩ : BufTy).Contents (Elt F) → (⟨S1x128, .f32⟩ : BufTy).Contents (Elt F)),
    unary main_v47 main_v48 (broadcastInDim S262144x128 ![0, 1] bcast_S1x128_S262144x128_0_1 : (⟨S1x128, .f32⟩ : BufTy).Contents (Elt F) → (⟨S262144x128, .f32⟩ : BufTy).Contents (Elt F)),
    binary main_v46 main_v48 main_v49 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v49) (TRef.of (T := ⟨S262144x128, .f32⟩) main_call6_v0) Host.negf,
    TRef.unary (TRef.of (T := ⟨S262144x128, .f32⟩) main_call6_v0) (TRef.of (T := ⟨S262144x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S262144x128, .f32⟩) main_call6_v2) (broadcastInDim S262144x128 ![] bcast_S_S262144x128),
    TRef.binary (TRef.of (T := ⟨S262144x128, .f32⟩) main_call6_v2) (TRef.of (T := ⟨S262144x128, .f32⟩) main_call6_v1) (TRef.of (T := ⟨S262144x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S262144x128, .f32⟩) main_call6_v4) (broadcastInDim S262144x128 ![] bcast_S_S262144x128),
    TRef.binary (TRef.of (T := ⟨S262144x128, .f32⟩) main_call6_v4) (TRef.of (T := ⟨S262144x128, .f32⟩) main_call6_v3) (TRef.of (T := ⟨S262144x128, .f32⟩) main_call6_v5) Host.divf,
    TRef.binary (TRef.of (T := ⟨S262144x128, .f32⟩) main_v49) (TRef.of (T := ⟨S262144x128, .f32⟩) main_call6_v5) (TRef.of (T := ⟨S262144x128, .f32⟩) main_v50) mulf,
    binary main_arg0 main_v50 main_v51 (addf : (⟨S262144x128, .f32⟩ : BufTy).Contents (Elt F) → (⟨S262144x128, .f32⟩ : BufTy).Contents (Elt F) → (⟨S262144x128, .f32⟩ : BufTy).Contents (Elt F)) ]

/-- Operations 112 to 146: the first slices of the stacked weights reshaped, and the second residual pair. -/
abbrev opsC : List (HloOp τ sig (Elt F)) :=
  [ unary main_arg21 main_v52 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v52 main_v53 rfl shapeCasts_S1x128x128_S128x128,
    unary main_arg22 main_v54 ((extractStridedSlice S1x128 ![0, 0] · slices_S2x128_S1x128_0_0) : (⟨S2x128, .f32⟩ : BufTy).Contents (Elt F) → (⟨S1x128, .f32⟩ : BufTy).Contents (Elt F)),
    reshape main_v54 main_v55 rfl shapeCasts_S1x128_S128,
    unary main_arg23 main_v56 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v56 main_v57 rfl shapeCasts_S1x128x128_S128x128,
    unary main_arg24 main_v58 ((extractStridedSlice S1x128 ![0, 0] · slices_S2x128_S1x128_0_0) : (⟨S2x128, .f32⟩ : BufTy).Contents (Elt F) → (⟨S1x128, .f32⟩ : BufTy).Contents (Elt F)),
    reshape main_v58 main_v59 rfl shapeCasts_S1x128_S128,
    binary main_v51 main_v53 main_v60 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v55 main_v61 (broadcastInDim S1x128 ![1] bcast_S128_S1x128_1 : (⟨S128, .f32⟩ : BufTy).Contents (Elt F) → (⟨S1x128, .f32⟩ : BufTy).Contents (Elt F)),
    unary main_v61 main_v62 (broadcastInDim S262144x128 ![0, 1] bcast_S1x128_S262144x128_0_1 : (⟨S1x128, .f32⟩ : BufTy).Contents (Elt F) → (⟨S262144x128, .f32⟩ : BufTy).Contents (Elt F)),
    binary main_v60 main_v62 main_v63 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v63) (TRef.of (T := ⟨S262144x128, .f32⟩) main_call7_v0) Host.negf,
    TRef.unary (TRef.of (T := ⟨S262144x128, .f32⟩) main_call7_v0) (TRef.of (T := ⟨S262144x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S262144x128, .f32⟩) main_call7_v2) (broadcastInDim S262144x128 ![] bcast_S_S262144x128),
    TRef.binary (TRef.of (T := ⟨S262144x128, .f32⟩) main_call7_v2) (TRef.of (T := ⟨S262144x128, .f32⟩) main_call7_v1) (TRef.of (T := ⟨S262144x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S262144x128, .f32⟩) main_call7_v4) (broadcastInDim S262144x128 ![] bcast_S_S262144x128),
    TRef.binary (TRef.of (T := ⟨S262144x128, .f32⟩) main_call7_v4) (TRef.of (T := ⟨S262144x128, .f32⟩) main_call7_v3) (TRef.of (T := ⟨S262144x128, .f32⟩) main_call7_v5) Host.divf,
    TRef.binary (TRef.of (T := ⟨S262144x128, .f32⟩) main_v63) (TRef.of (T := ⟨S262144x128, .f32⟩) main_call7_v5) (TRef.of (T := ⟨S262144x128, .f32⟩) main_v64) mulf,
    binary main_v64 main_v57 main_v65 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v59 main_v66 (broadcastInDim S1x128 ![1] bcast_S128_S1x128_1 : (⟨S128, .f32⟩ : BufTy).Contents (Elt F) → (⟨S1x128, .f32⟩ : BufTy).Contents (Elt F)),
    unary main_v66 main_v67 (broadcastInDim S262144x128 ![0, 1] bcast_S1x128_S262144x128_0_1 : (⟨S1x128, .f32⟩ : BufTy).Contents (Elt F) → (⟨S262144x128, .f32⟩ : BufTy).Contents (Elt F)),
    binary main_v65 main_v67 main_v68 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v68) (TRef.of (T := ⟨S262144x128, .f32⟩) main_call8_v0) Host.negf,
    TRef.unary (TRef.of (T := ⟨S262144x128, .f32⟩) main_call8_v0) (TRef.of (T := ⟨S262144x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S262144x128, .f32⟩) main_call8_v2) (broadcastInDim S262144x128 ![] bcast_S_S262144x128),
    TRef.binary (TRef.of (T := ⟨S262144x128, .f32⟩) main_call8_v2) (TRef.of (T := ⟨S262144x128, .f32⟩) main_call8_v1) (TRef.of (T := ⟨S262144x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S262144x128, .f32⟩) main_call8_v4) (broadcastInDim S262144x128 ![] bcast_S_S262144x128),
    TRef.binary (TRef.of (T := ⟨S262144x128, .f32⟩) main_call8_v4) (TRef.of (T := ⟨S262144x128, .f32⟩) main_call8_v3) (TRef.of (T := ⟨S262144x128, .f32⟩) main_call8_v5) Host.divf,
    TRef.binary (TRef.of (T := ⟨S262144x128, .f32⟩) main_v68) (TRef.of (T := ⟨S262144x128, .f32⟩) main_call8_v5) (TRef.of (T := ⟨S262144x128, .f32⟩) main_v69) mulf,
    binary main_v51 main_v69 main_v70 (addf : (⟨S262144x128, .f32⟩ : BufTy).Contents (Elt F) → (⟨S262144x128, .f32⟩ : BufTy).Contents (Elt F) → (⟨S262144x128, .f32⟩ : BufTy).Contents (Elt F)) ]

/-- Operations 147 to 181: the second slices of the stacked weights reshaped, and the third residual pair. -/
abbrev opsD : List (HloOp τ sig (Elt F)) :=
  [ unary main_arg21 main_v71 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v71 main_v72 rfl shapeCasts_S1x128x128_S128x128,
    unary main_arg22 main_v73 ((extractStridedSlice S1x128 ![1, 0] · slices_S2x128_S1x128_1_0) : (⟨S2x128, .f32⟩ : BufTy).Contents (Elt F) → (⟨S1x128, .f32⟩ : BufTy).Contents (Elt F)),
    reshape main_v73 main_v74 rfl shapeCasts_S1x128_S128,
    unary main_arg23 main_v75 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v75 main_v76 rfl shapeCasts_S1x128x128_S128x128,
    unary main_arg24 main_v77 ((extractStridedSlice S1x128 ![1, 0] · slices_S2x128_S1x128_1_0) : (⟨S2x128, .f32⟩ : BufTy).Contents (Elt F) → (⟨S1x128, .f32⟩ : BufTy).Contents (Elt F)),
    reshape main_v77 main_v78 rfl shapeCasts_S1x128_S128,
    binary main_v70 main_v72 main_v79 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v74 main_v80 (broadcastInDim S1x128 ![1] bcast_S128_S1x128_1 : (⟨S128, .f32⟩ : BufTy).Contents (Elt F) → (⟨S1x128, .f32⟩ : BufTy).Contents (Elt F)),
    unary main_v80 main_v81 (broadcastInDim S262144x128 ![0, 1] bcast_S1x128_S262144x128_0_1 : (⟨S1x128, .f32⟩ : BufTy).Contents (Elt F) → (⟨S262144x128, .f32⟩ : BufTy).Contents (Elt F)),
    binary main_v79 main_v81 main_v82 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v82) (TRef.of (T := ⟨S262144x128, .f32⟩) main_call9_v0) Host.negf,
    TRef.unary (TRef.of (T := ⟨S262144x128, .f32⟩) main_call9_v0) (TRef.of (T := ⟨S262144x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S262144x128, .f32⟩) main_call9_v2) (broadcastInDim S262144x128 ![] bcast_S_S262144x128),
    TRef.binary (TRef.of (T := ⟨S262144x128, .f32⟩) main_call9_v2) (TRef.of (T := ⟨S262144x128, .f32⟩) main_call9_v1) (TRef.of (T := ⟨S262144x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S262144x128, .f32⟩) main_call9_v4) (broadcastInDim S262144x128 ![] bcast_S_S262144x128),
    TRef.binary (TRef.of (T := ⟨S262144x128, .f32⟩) main_call9_v4) (TRef.of (T := ⟨S262144x128, .f32⟩) main_call9_v3) (TRef.of (T := ⟨S262144x128, .f32⟩) main_call9_v5) Host.divf,
    TRef.binary (TRef.of (T := ⟨S262144x128, .f32⟩) main_v82) (TRef.of (T := ⟨S262144x128, .f32⟩) main_call9_v5) (TRef.of (T := ⟨S262144x128, .f32⟩) main_v83) mulf,
    binary main_v83 main_v76 main_v84 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v78 main_v85 (broadcastInDim S1x128 ![1] bcast_S128_S1x128_1 : (⟨S128, .f32⟩ : BufTy).Contents (Elt F) → (⟨S1x128, .f32⟩ : BufTy).Contents (Elt F)),
    unary main_v85 main_v86 (broadcastInDim S262144x128 ![0, 1] bcast_S1x128_S262144x128_0_1 : (⟨S1x128, .f32⟩ : BufTy).Contents (Elt F) → (⟨S262144x128, .f32⟩ : BufTy).Contents (Elt F)),
    binary main_v84 main_v86 main_v87 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v87) (TRef.of (T := ⟨S262144x128, .f32⟩) main_call10_v0) Host.negf,
    TRef.unary (TRef.of (T := ⟨S262144x128, .f32⟩) main_call10_v0) (TRef.of (T := ⟨S262144x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S262144x128, .f32⟩) main_call10_v2) (broadcastInDim S262144x128 ![] bcast_S_S262144x128),
    TRef.binary (TRef.of (T := ⟨S262144x128, .f32⟩) main_call10_v2) (TRef.of (T := ⟨S262144x128, .f32⟩) main_call10_v1) (TRef.of (T := ⟨S262144x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S262144x128, .f32⟩) main_call10_v4) (broadcastInDim S262144x128 ![] bcast_S_S262144x128),
    TRef.binary (TRef.of (T := ⟨S262144x128, .f32⟩) main_call10_v4) (TRef.of (T := ⟨S262144x128, .f32⟩) main_call10_v3) (TRef.of (T := ⟨S262144x128, .f32⟩) main_call10_v5) Host.divf,
    TRef.binary (TRef.of (T := ⟨S262144x128, .f32⟩) main_v87) (TRef.of (T := ⟨S262144x128, .f32⟩) main_call10_v5) (TRef.of (T := ⟨S262144x128, .f32⟩) main_v88) mulf,
    binary main_v70 main_v88 main_v89 (addf : (⟨S262144x128, .f32⟩ : BufTy).Contents (Elt F) → (⟨S262144x128, .f32⟩ : BufTy).Contents (Elt F) → (⟨S262144x128, .f32⟩ : BufTy).Contents (Elt F)) ]

/-- The whole line: the four parts in order. -/
abbrev ops : List (HloOp τ sig (Elt F)) := opsA ++ (opsB ++ (opsC ++ opsD))

set_option maxRecDepth 8192 in
theorem opsA_sub : (opsA : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

set_option maxRecDepth 8192 in
theorem opsB_sub : (opsB : List (HloOp τ sig (Elt F))).Forall fun op => op.bufs ⊆ tcRefs τ sig :=
  ⟨reshape_bufs_sub .., reshape_bufs_sub .., reshape_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

set_option maxRecDepth 8192 in
theorem opsC_sub : (opsC : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

set_option maxRecDepth 8192 in
theorem opsD_sub : (opsD : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

/-- Every operation of the line touches buffers of the core only. -/
theorem ops_sub : (ops : List (HloOp τ sig (Elt F))).Forall fun op => op.bufs ⊆ tcRefs τ sig := by
  rw [List.forall_iff_forall_mem]
  intro op h
  simp only [ops, List.mem_append] at h
  rcases h with h | h | h | h
  · exact List.forall_iff_forall_mem.mp opsA_sub op h
  · exact List.forall_iff_forall_mem.mp opsB_sub op h
  · exact List.forall_iff_forall_mem.mp opsC_sub op h
  · exact List.forall_iff_forall_mem.mp opsD_sub op h

set_option maxRecDepth 8192 in
set_option maxHeartbeats 4000000 in
/-- The program is that line: each application of the activation unfolds to its nine operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.RefSide

end
-- ==== Proof.LibAfterCut.lean ====
/-
  A line of host operations run in two parts.

  The contents of the buffers after a list of operations is a fold over the list, so the contents after a list cut at
  any position are the contents after its second part, started from the contents after its first part.  A buffer
  written in the first part and read in the second is thereby read from intermediate contents, so each part can be
  described by itself, as a function of the contents it starts from.
-/
import Idealize.ShloMosaic.Lib.StableHlo.Run

namespace Cert.Lib.AfterCut

open Idealize.ShloMosaic Idealize.ShloMosaic.StableHlo

variable {τ : Topo} {sig : RefSig} {Val : EltTy → Type}

/-- The contents after two lines, one after the other, are those after their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `n` operations. -/
theorem after_cut (n : ℕ) (l : List (HloOp τ sig Val)) (V : Valuation τ sig Val) :
    after l V = after (l.drop n) (after (l.take n) V) := by
  rw [← after_append, List.take_append_drop]

end Cert.Lib.AfterCut
-- ==== Proof.RefRun.lean ====
/-
  The run of the host reference program, read as four parts.

  The program is a straight line of host operations on buffers that nothing else touches, so every weakly fair
  execution of it terminates, and at the end each buffer holds the fold of the operations' results over the contents
  at launch.  The line being the four parts in order, that fold is the fold of the fourth part over the fold of the
  third over the fold of the second over the fold of the first.
-/
import proofs.«124901_j62199716381203_2_alg».proof.Proof.RefOps
import proofs.«124901_j62199716381203_2_alg».proof.Proof.LibAfterCut

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! Every operation determines all that it writes. -/

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h
  · exact opsA_fresh op h
  · exact opsB_fresh op h
  · exact opsC_fresh op h
  · exact opsD_fresh op h

/-- The contents after the whole line are those after the fourth part, from those after the third, from those after
    the second, from those after the first. -/
theorem after_ops (V : Valuation τ sig (Elt F)) :
    after ops V = after opsD (after opsC (after opsB (after opsA V))) := by
  show after (opsA ++ (opsB ++ (opsC ++ opsD))) V = _
  rw [Cert.Lib.AfterCut.after_append, Cert.Lib.AfterCut.after_append, Cert.Lib.AfterCut.after_append]

/-- On every device, for any float values, from any memory with zero counters: every weakly fair execution of the
    program terminates, and every buffer of the core ends at the fold of the four parts over the launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsD (after opsC (after opsB (after opsA (launchContents m c)))) (b : DevRef τ sig) :=
  (θ_run defs _ _).mono (fun _ h c b => (h c b).trans (by rw [after_ops]))
    (run_seq scopedRefs_eq scopedSems_eq defs main (fun _ => ops) main_eq (fun _ => ops_sub) m ρ (fun _ => ops_fresh))

end Cert.RefSide

end
-- ==== Proof.LibTypedRef.lean ====
/-
  A typed reference to a buffer carries a proof that the buffer's type is the value's type, and moves contents
  between the two along it. Moving a value to the buffer's type and back is the identity, and a value moved to the
  buffer's type is (heterogeneously) the value itself: the two facts that let a chain of host operations, written
  through typed references, be read as the plain composition of the operations.
-/
import Idealize.ShloMosaic.Lib.StableHlo

namespace Cert.Lib.TypedRef

open Idealize.ShloMosaic Idealize.ShloMosaic.StableHlo

variable {sig : RefSig} {Val : EltTy → Type} {T : BufTy}

/-- To the buffer's type and back. -/
theorem ofBuf_toBuf_id (x : TRef sig T) (v : T.Contents Val) : x.ofBuf (x.toBuf v) = v := by
  obtain ⟨r, h, h2, h3⟩ := x
  subst h
  rfl

/-- A value at the buffer's type is the value. -/
theorem toBuf_heq (x : TRef sig T) (v w : T.Contents Val) (h : v = w) : HEq (x.toBuf v) w := by
  subst h
  exact cast_heq _ _

end Cert.Lib.TypedRef
-- ==== Proof.RefRead.lean ====
/-
  Reading the host operations as the layers of the block.

  Three kinds of facts, all about spelling.  (1) The activation's body moves its argument and its result between the
  type of the tensor value and the type of the buffer that holds it; at the buffers of this program the two types are
  the same, so each move is the identity.  (2) Each general product of the program is a plain matrix product: its
  dimension record is the plain one.  (3) The nine operations of the activation's body compute
  z · 1 / (1 + e^(-z)), the ones being the float pattern of 1.0 laid out over the array; the layout's list of
  dimensions is empty, and any two empty lists are equal, so the fact is stated for any such list.
-/
import proofs.«124901_j62199716381203_2_alg».proof.Proof.RefOps
import proofs.«124901_j62199716381203_2_alg».proof.Proof.LibTypedRef
import proofs.«124901_j62199716381203_2_alg».proof.Proof.BlockSpec

noncomputable section

namespace Cert.RefSide

open Cert.ReferenceIdeal Cert.ReferenceIdeal.Gen Idealize.ShloMosaic Idealize.ShloMosaic.TcCoe Idealize.SL.Sem Idealize.ShloMosaic.StableHlo
open Cert.Block

variable {Val : EltTy → Type}

/-! ## The moves between a value's type and its buffer's type are the identity -/

theorem ofBuf_main_v5 (h1 h2 h3) (v : (main_v5 : Ref sig .tc).ty.Contents Val) : (TRef.of (T := ⟨S262144x128, .f32⟩) main_v5 h1 h2 h3).ofBuf v = v := rfl
theorem ofBuf_main_v10 (h1 h2 h3) (v : (main_v10 : Ref sig .tc).ty.Contents Val) : (TRef.of (T := ⟨S262144x128, .f32⟩) main_v10 h1 h2 h3).ofBuf v = v := rfl
theorem ofBuf_main_v13 (h1 h2 h3) (v : (main_v13 : Ref sig .tc).ty.Contents Val) : (TRef.of (T := ⟨S262144x64, .f32⟩) main_v13 h1 h2 h3).ofBuf v = v := rfl
theorem ofBuf_main_v28 (h1 h2 h3) (v : (main_v28 : Ref sig .tc).ty.Contents Val) : (TRef.of (T := ⟨S262144x128, .f32⟩) main_v28 h1 h2 h3).ofBuf v = v := rfl
theorem ofBuf_main_v38 (h1 h2 h3) (v : (main_v38 : Ref sig .tc).ty.Contents Val) : (TRef.of (T := ⟨S262144x128, .f32⟩) main_v38 h1 h2 h3).ofBuf v = v := rfl
theorem ofBuf_main_v43 (h1 h2 h3) (v : (main_v43 : Ref sig .tc).ty.Contents Val) : (TRef.of (T := ⟨S262144x128, .f32⟩) main_v43 h1 h2 h3).ofBuf v = v := rfl
theorem ofBuf_main_v49 (h1 h2 h3) (v : (main_v49 : Ref sig .tc).ty.Contents Val) : (TRef.of (T := ⟨S262144x128, .f32⟩) main_v49 h1 h2 h3).ofBuf v = v := rfl
theorem ofBuf_main_v63 (h1 h2 h3) (v : (main_v63 : Ref sig .tc).ty.Contents Val) : (TRef.of (T := ⟨S262144x128, .f32⟩) main_v63 h1 h2 h3).ofBuf v = v := rfl
theorem ofBuf_main_v68 (h1 h2 h3) (v : (main_v68 : Ref sig .tc).ty.Contents Val) : (TRef.of (T := ⟨S262144x128, .f32⟩) main_v68 h1 h2 h3).ofBuf v = v := rfl
theorem ofBuf_main_v82 (h1 h2 h3) (v : (main_v82 : Ref sig .tc).ty.Contents Val) : (TRef.of (T := ⟨S262144x128, .f32⟩) main_v82 h1 h2 h3).ofBuf v = v := rfl
theorem ofBuf_main_v87 (h1 h2 h3) (v : (main_v87 : Ref sig .tc).ty.Contents Val) : (TRef.of (T := ⟨S262144x128, .f32⟩) main_v87 h1 h2 h3).ofBuf v = v := rfl
theorem toBuf_main_v6 (h1 h2 h3) (v : (⟨S262144x128, .f32⟩ : BufTy).Contents Val) : (TRef.of (T := ⟨S262144x128, .f32⟩) main_v6 h1 h2 h3).toBuf v = v := rfl
theorem toBuf_main_v11 (h1 h2 h3) (v : (⟨S262144x128, .f32⟩ : BufTy).Contents Val) : (TRef.of (T := ⟨S262144x128, .f32⟩) main_v11 h1 h2 h3).toBuf v = v := rfl
theorem toBuf_main_v14 (h1 h2 h3) (v : (⟨S262144x64, .f32⟩ : BufTy).Contents Val) : (TRef.of (T := ⟨S262144x64, .f32⟩) main_v14 h1 h2 h3).toBuf v = v := rfl
theorem toBuf_main_v29 (h1 h2 h3) (v : (⟨S262144x128, .f32⟩ : BufTy).Contents Val) : (TRef.of (T := ⟨S262144x128, .f32⟩) main_v29 h1 h2 h3).toBuf v = v := rfl
theorem toBuf_main_v39 (h1 h2 h3) (v : (⟨S262144x128, .f32⟩ : BufTy).Contents Val) : (TRef.of (T := ⟨S262144x128, .f32⟩) main_v39 h1 h2 h3).toBuf v = v := rfl
theorem toBuf_main_v44 (h1 h2 h3) (v : (⟨S262144x128, .f32⟩ : BufTy).Contents Val) : (TRef.of (T := ⟨S262144x128, .f32⟩) main_v44 h1 h2 h3).toBuf v = v := rfl
theorem toBuf_main_v50 (h1 h2 h3) (v : (⟨S262144x128, .f32⟩ : BufTy).Contents Val) : (TRef.of (T := ⟨S262144x128, .f32⟩) main_v50 h1 h2 h3).toBuf v = v := rfl
theorem toBuf_main_v64 (h1 h2 h3) (v : (⟨S262144x128, .f32⟩ : BufTy).Contents Val) : (TRef.of (T := ⟨S262144x128, .f32⟩) main_v64 h1 h2 h3).toBuf v = v := rfl
theorem toBuf_main_v69 (h1 h2 h3) (v : (⟨S262144x128, .f32⟩ : BufTy).Contents Val) : (TRef.of (T := ⟨S262144x128, .f32⟩) main_v69 h1 h2 h3).toBuf v = v := rfl
theorem toBuf_main_v83 (h1 h2 h3) (v : (⟨S262144x128, .f32⟩ : BufTy).Contents Val) : (TRef.of (T := ⟨S262144x128, .f32⟩) main_v83 h1 h2 h3).toBuf v = v := rfl
theorem toBuf_main_v88 (h1 h2 h3) (v : (⟨S262144x128, .f32⟩ : BufTy).Contents Val) : (TRef.of (T := ⟨S262144x128, .f32⟩) main_v88 h1 h2 h3).toBuf v = v := rfl

/-! ## The general products are plain matrix products -/

theorem dims_E6_8 : dot_S262144x6_S6x8_S262144x8_1_0_0_1_n_n = DotDims.plain 262144 6 8 := rfl
theorem dims_E8_128 : dot_S262144x8_S8x128_S262144x128_1_0_0_1_n_n = DotDims.plain 262144 8 128 := rfl
theorem dims_E128_128 : dot_S262144x128_S128x128_S262144x128_1_0_0_1_n_n = DotDims.plain 262144 128 128 := rfl
theorem dims_E128_64 : dot_S262144x128_S128x64_S262144x64_1_0_0_1_n_n = DotDims.plain 262144 128 64 := rfl
theorem dims_T42_8 : dot_S2097152x42_S42x8_S2097152x8_1_0_0_1_n_n = DotDims.plain 2097152 42 8 := rfl
theorem dims_T8_64 : dot_S2097152x8_S8x64_S2097152x64_1_0_0_1_n_n = DotDims.plain 2097152 8 64 := rfl
theorem dims_E64_128 : dot_S262144x64_S64x128_S262144x128_1_0_0_1_n_n = DotDims.plain 262144 64 128 := rfl

/-! ## The activation -/

theorem silu_E128 (d : Fin 0 → Fin S262144x128.rank) (h : S_.BroadcastsInDim S262144x128 d) (z : FVec Ideal S262144x128 .f32) :
    mulf z (Host.divf (broadcastInDim S262144x128 d h (constant S_ .f32 0x3F800000#32))
      (addf (broadcastInDim S262144x128 d h (constant S_ .f32 0x3F800000#32)) (Host.exp (Host.negf z)))) = silu z := by
  obtain rfl : d = ![] := Subsingleton.elim _ _
  exact host_silu_eq _ z
theorem silu_E64 (d : Fin 0 → Fin S262144x64.rank) (h : S_.BroadcastsInDim S262144x64 d) (z : FVec Ideal S262144x64 .f32) :
    mulf z (Host.divf (broadcastInDim S262144x64 d h (constant S_ .f32 0x3F800000#32))
      (addf (broadcastInDim S262144x64 d h (constant S_ .f32 0x3F800000#32)) (Host.exp (Host.negf z)))) = silu z := by
  obtain rfl : d = ![] := Subsingleton.elim _ _
  exact host_silu_eq _ z

end Cert.RefSide

end
-- ==== Proof.RefStages.lean ====
/-
  The value of the host reference program, and the four arrays it passes through.

  The program computes the edge-message block on the whole arrays: stage one on the edges, its rows gathered to the
  triplets at the source indices (an index below zero counted from the end), stage two on the triplets, the messages
  summed onto the edges at the destination indices, stage three on the edges.  Stage three is, in order: the sum u₀,
  a residual pair, a dense layer added to the edge embeddings, and two more residual pairs.  The four arrays named
  here are u₀, the array after the dense layer, and the arrays after the second and the third residual pair; each is a
  function of the one before it and of the program's arguments, and the program's value is the last.
-/
import proofs.«124901_j62199716381203_2_alg».proof.Proof.Gen.ReferenceIdeal
import proofs.«124901_j62199716381203_2_alg».proof.Proof.BlockSpec

noncomputable section

namespace Cert.RefSide

open Cert.ReferenceIdeal Cert.ReferenceIdeal.Gen Idealize.ShloMosaic Idealize.SL.Sem
open Cert.Block

/-- The value of the reference program, as a function of its twenty-five arguments. -/
def value (a0 : (⟨S262144x128, .f32⟩ : BufTy).Contents (Elt Ideal)) (a1 : (⟨S262144x6, .f32⟩ : BufTy).Contents (Elt Ideal)) (a2 : (⟨S2097152x42, .f32⟩ : BufTy).Contents (Elt Ideal)) (a3 : (⟨S2097152, .i32⟩ : BufTy).Contents (Elt Ideal)) (a4 : (⟨S2097152, .i32⟩ : BufTy).Contents (Elt Ideal)) (a5 : (⟨S6x8, .f32⟩ : BufTy).Contents (Elt Ideal)) (a6 : (⟨S8x128, .f32⟩ : BufTy).Contents (Elt Ideal)) (a7 : (⟨S42x8, .f32⟩ : BufTy).Contents (Elt Ideal)) (a8 : (⟨S8x64, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x64, .f32⟩ : BufTy).Contents (Elt Ideal)) (a14 : (⟨S64x128, .f32⟩ : BufTy).Contents (Elt Ideal)) (a15 : (⟨S1x128x128, .f32⟩ : BufTy).Contents (Elt Ideal)) (a16 : (⟨S1x128, .f32⟩ : BufTy).Contents (Elt Ideal)) (a17 : (⟨S1x128x128, .f32⟩ : BufTy).Contents (Elt Ideal)) (a18 : (⟨S1x128, .f32⟩ : BufTy).Contents (Elt Ideal)) (a19 : (⟨S128x128, .f32⟩ : BufTy).Contents (Elt Ideal)) (a20 : (⟨S128, .f32⟩ : BufTy).Contents (Elt Ideal)) (a21 : (⟨S2x128x128, .f32⟩ : BufTy).Contents (Elt Ideal)) (a22 : (⟨S2x128, .f32⟩ : BufTy).Contents (Elt Ideal)) (a23 : (⟨S2x128x128, .f32⟩ : BufTy).Contents (Elt Ideal)) (a24 : (⟨S2x128, .f32⟩ : BufTy).Contents (Elt Ideal)) : Mat 262144 128 :=
  blockValue
    (fun x => Host.gather gather_S262144x64_S2097152x1_S2097152x64_1_0_n_n_0_1_164 x
      (broadcastInDim S2097152x1 ![0] bcast_S2097152_S2097152x1_0
        (select (cmpi .slt a3 (broadcastInDim S2097152 ![] bcast_S_S2097152 (constantI S_ 32 0#32)))
          (addi a3 (broadcastInDim S2097152 ![] bcast_S_S2097152 (constantI S_ 32 262144#32))) a3)))
    (fun u => Host.scatterAdd (F := Ideal) scatter_S262144x64_S2097152x1_S2097152x64_1_0_0_1
      (broadcastInDim S262144x64 ![] bcast_S_S262144x64 (constant (F := Ideal) S_ .f32 0x00000000#32))
      (broadcastInDim S2097152x1 ![0] bcast_S2097152_S2097152x1_0 a4) u)
    a0 a1 a2 a5 a6 a7 a8 a9 (vec a10) a11 (vec a12) a13 a14
    (shapeCast S128x128 a15 shapeCasts_S1x128x128_S128x128) (vec (shapeCast S128 a16 shapeCasts_S1x128_S128)) (shapeCast S128x128 a17 shapeCasts_S1x128x128_S128x128) (vec (shapeCast S128 a18 shapeCasts_S1x128_S128))
    a19 (vec a20)
    (shapeCast S128x128 (extractStridedSlice S1x128x128 ![0, 0, 0] a21 slices_S2x128x128_S1x128x128_0_0_0) shapeCasts_S1x128x128_S128x128) (vec (shapeCast S128 (extractStridedSlice S1x128 ![0, 0] a22 slices_S2x128_S1x128_0_0) shapeCasts_S1x128_S128)) (shapeCast S128x128 (extractStridedSlice S1x128x128 ![0, 0, 0] a23 slices_S2x128x128_S1x128x128_0_0_0) shapeCasts_S1x128x128_S128x128) (vec (shapeCast S128 (extractStridedSlice S1x128 ![0, 0] a24 slices_S2x128_S1x128_0_0) shapeCasts_S1x128_S128))
    (shapeCast S128x128 (extractStridedSlice S1x128x128 ![1, 0, 0] a21 slices_S2x128x128_S1x128x128_1_0_0) shapeCasts_S1x128x128_S128x128) (vec (shapeCast S128 (extractStridedSlice S1x128 ![1, 0] a22 slices_S2x128_S1x128_1_0) shapeCasts_S1x128_S128)) (shapeCast S128x128 (extractStridedSlice S1x128x128 ![1, 0, 0] a23 slices_S2x128x128_S1x128x128_1_0_0) shapeCasts_S1x128x128_S128x128) (vec (shapeCast S128 (extractStridedSlice S1x128 ![1, 0] a24 slices_S2x128_S1x128_1_0) shapeCasts_S1x128_S128))

/-- The sum u₀ = silu(μ · W_up) + silu(m · W_ji + b_ji), μ the messages summed onto the edges. -/
def sA (a0 : (⟨S262144x128, .f32⟩ : BufTy).Contents (Elt Ideal)) (a1 : (⟨S262144x6, .f32⟩ : BufTy).Contents (Elt Ideal)) (a2 : (⟨S2097152x42, .f32⟩ : BufTy).Contents (Elt Ideal)) (a3 : (⟨S2097152, .i32⟩ : BufTy).Contents (Elt Ideal)) (a4 : (⟨S2097152, .i32⟩ : BufTy).Contents (Elt Ideal)) (a5 : (⟨S6x8, .f32⟩ : BufTy).Contents (Elt Ideal)) (a6 : (⟨S8x128, .f32⟩ : BufTy).Contents (Elt Ideal)) (a7 : (⟨S42x8, .f32⟩ : BufTy).Contents (Elt Ideal)) (a8 : (⟨S8x64, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x64, .f32⟩ : BufTy).Contents (Elt Ideal)) (a14 : (⟨S64x128, .f32⟩ : BufTy).Contents (Elt Ideal)) : Mat 262144 128 :=
  add (silu (mm ((fun u => Host.scatterAdd (F := Ideal) scatter_S262144x64_S2097152x1_S2097152x64_1_0_0_1
      (broadcastInDim S262144x64 ![] bcast_S_S262144x64 (constant (F := Ideal) S_ .f32 0x00000000#32))
      (broadcastInDim S2097152x1 ![0] bcast_S2097152_S2097152x1_0 a4) u)
      (msgStage a2 ((fun x => Host.gather gather_S262144x64_S2097152x1_S2097152x64_1_0_n_n_0_1_164 x
      (broadcastInDim S2097152x1 ![0] bcast_S2097152_S2097152x1_0
        (select (cmpi .slt a3 (broadcastInDim S2097152 ![] bcast_S_S2097152 (constantI S_ 32 0#32)))
          (addi a3 (broadcastInDim S2097152 ![] bcast_S_S2097152 (constantI S_ 32 262144#32))) a3))) (edgeStage a0 a1 a5 a6 a11 (vec a12) a13)) a7 a8)) a14))
    (act a0 a9 (vec a10))

/-- m + silu(res(x) · W_f + b_f), res the first residual pair. -/
def sB (x : Mat 262144 128) (a0 : (⟨S262144x128, .f32⟩ : BufTy).Contents (Elt Ideal)) (a15 : (⟨S1x128x128, .f32⟩ : BufTy).Contents (Elt Ideal)) (a16 : (⟨S1x128, .f32⟩ : BufTy).Contents (Elt Ideal)) (a17 : (⟨S1x128x128, .f32⟩ : BufTy).Contents (Elt Ideal)) (a18 : (⟨S1x128, .f32⟩ : BufTy).Contents (Elt Ideal)) (a19 : (⟨S128x128, .f32⟩ : BufTy).Contents (Elt Ideal)) (a20 : (⟨S128, .f32⟩ : BufTy).Contents (Elt Ideal)) : Mat 262144 128 :=
  add a0 (act (res x (shapeCast S128x128 a15 shapeCasts_S1x128x128_S128x128) (vec (shapeCast S128 a16 shapeCasts_S1x128_S128)) (shapeCast S128x128 a17 shapeCasts_S1x128x128_S128x128) (vec (shapeCast S128 a18 shapeCasts_S1x128_S128))) a19 (vec a20))

/-- The second residual pair: its weights are the first slices of the stacked arguments. -/
def sC (x : Mat 262144 128) (a21 : (⟨S2x128x128, .f32⟩ : BufTy).Contents (Elt Ideal)) (a22 : (⟨S2x128, .f32⟩ : BufTy).Contents (Elt Ideal)) (a23 : (⟨S2x128x128, .f32⟩ : BufTy).Contents (Elt Ideal)) (a24 : (⟨S2x128, .f32⟩ : BufTy).Contents (Elt Ideal)) : Mat 262144 128 :=
  res x (shapeCast S128x128 (extractStridedSlice S1x128x128 ![0, 0, 0] a21 slices_S2x128x128_S1x128x128_0_0_0) shapeCasts_S1x128x128_S128x128) (vec (shapeCast S128 (extractStridedSlice S1x128 ![0, 0] a22 slices_S2x128_S1x128_0_0) shapeCasts_S1x128_S128)) (shapeCast S128x128 (extractStridedSlice S1x128x128 ![0, 0, 0] a23 slices_S2x128x128_S1x128x128_0_0_0) shapeCasts_S1x128x128_S128x128) (vec (shapeCast S128 (extractStridedSlice S1x128 ![0, 0] a24 slices_S2x128_S1x128_0_0) shapeCasts_S1x128_S128))

/-- The third residual pair: its weights are the second slices of the stacked arguments. -/
def sD (x : Mat 262144 128) (a21 : (⟨S2x128x128, .f32⟩ : BufTy).Contents (Elt Ideal)) (a22 : (⟨S2x128, .f32⟩ : BufTy).Contents (Elt Ideal)) (a23 : (⟨S2x128x128, .f32⟩ : BufTy).Contents (Elt Ideal)) (a24 : (⟨S2x128, .f32⟩ : BufTy).Contents (Elt Ideal)) : Mat 262144 128 :=
  res x (shapeCast S128x128 (extractStridedSlice S1x128x128 ![1, 0, 0] a21 slices_S2x128x128_S1x128x128_1_0_0) shapeCasts_S1x128x128_S128x128) (vec (shapeCast S128 (extractStridedSlice S1x128 ![1, 0] a22 slices_S2x128_S1x128_1_0) shapeCasts_S1x128_S128)) (shapeCast S128x128 (extractStridedSlice S1x128x128 ![1, 0, 0] a23 slices_S2x128x128_S1x128x128_1_0_0) shapeCasts_S1x128x128_S128x128) (vec (shapeCast S128 (extractStridedSlice S1x128 ![1, 0] a24 slices_S2x128_S1x128_1_0) shapeCasts_S1x128_S128))

/-- The program's value is the four arrays in turn. -/
theorem value_eq (a0 : (⟨S262144x128, .f32⟩ : BufTy).Contents (Elt Ideal)) (a1 : (⟨S262144x6, .f32⟩ : BufTy).Contents (Elt Ideal)) (a2 : (⟨S2097152x42, .f32⟩ : BufTy).Contents (Elt Ideal)) (a3 : (⟨S2097152, .i32⟩ : BufTy).Contents (Elt Ideal)) (a4 : (⟨S2097152, .i32⟩ : BufTy).Contents (Elt Ideal)) (a5 : (⟨S6x8, .f32⟩ : BufTy).Contents (Elt Ideal)) (a6 : (⟨S8x128, .f32⟩ : BufTy).Contents (Elt Ideal)) (a7 : (⟨S42x8, .f32⟩ : BufTy).Contents (Elt Ideal)) (a8 : (⟨S8x64, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x64, .f32⟩ : BufTy).Contents (Elt Ideal)) (a14 : (⟨S64x128, .f32⟩ : BufTy).Contents (Elt Ideal)) (a15 : (⟨S1x128x128, .f32⟩ : BufTy).Contents (Elt Ideal)) (a16 : (⟨S1x128, .f32⟩ : BufTy).Contents (Elt Ideal)) (a17 : (⟨S1x128x128, .f32⟩ : BufTy).Contents (Elt Ideal)) (a18 : (⟨S1x128, .f32⟩ : BufTy).Contents (Elt Ideal)) (a19 : (⟨S128x128, .f32⟩ : BufTy).Contents (Elt Ideal)) (a20 : (⟨S128, .f32⟩ : BufTy).Contents (Elt Ideal)) (a21 : (⟨S2x128x128, .f32⟩ : BufTy).Contents (Elt Ideal)) (a22 : (⟨S2x128, .f32⟩ : BufTy).Contents (Elt Ideal)) (a23 : (⟨S2x128x128, .f32⟩ : BufTy).Contents (Elt Ideal)) (a24 : (⟨S2x128, .f32⟩ : BufTy).Contents (Elt Ideal)) :
    value a0 a1 a2 a3 a4 a5 a6 a7 a8 a9 a10 a11 a12 a13 a14 a15 a16 a17 a18 a19 a20 a21 a22 a23 a24
      = sD (sC (sB (sA a0 a1 a2 a3 a4 a5 a6 a7 a8 a9 a10 a11 a12 a13 a14) a0 a15 a16 a17 a18 a19 a20) a21 a22 a23 a24) a21 a22 a23 a24 := rfl

/-! Equal arguments give equal arrays. -/

theorem sA_congr {a0 a1 a2 a3 a4 a5 a6 a7 a8 a9 a10 a11 a12 a13 a14 b0 b1 b2 b3 b4 b5 b6 b7 b8 b9 b10 b11 b12 b13 b14}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    sA a0 a1 a2 a3 a4 a5 a6 a7 a8 a9 a10 a11 a12 a13 a14 = sA b0 b1 b2 b3 b4 b5 b6 b7 b8 b9 b10 b11 b12 b13 b14 := by
  subst_vars; rfl
theorem sB_congr {x y a0 a15 a16 a17 a18 a19 a20 b0 b15 b16 b17 b18 b19 b20}
    (hx : x = y) (h0 : a0 = b0) (h15 : a15 = b15) (h16 : a16 = b16) (h17 : a17 = b17) (h18 : a18 = b18) (h19 : a19 = b19) (h20 : a20 = b20) :
    sB x a0 a15 a16 a17 a18 a19 a20 = sB y b0 b15 b16 b17 b18 b19 b20 := by
  subst_vars; rfl
theorem sC_congr {x y a21 a22 a23 a24 b21 b22 b23 b24}
    (hx : x = y) (h21 : a21 = b21) (h22 : a22 = b22) (h23 : a23 = b23) (h24 : a24 = b24) :
    sC x a21 a22 a23 a24 = sC y b21 b22 b23 b24 := by
  subst_vars; rfl
theorem sD_congr {x y a21 a22 a23 a24 b21 b22 b23 b24}
    (hx : x = y) (h21 : a21 = b21) (h22 : a22 = b22) (h23 : a23 = b23) (h24 : a24 = b24) :
    sD x a21 a22 a23 a24 = sD y b21 b22 b23 b24 := by
  subst_vars; rfl

end Cert.RefSide

end
-- ==== Proof.RefPartA.lean ====
/-
  The first part of the host reference program, read back.

  From contents V, the first part leaves in the buffer of value 30 the array
      u₀ = silu( μ · W_up ) + silu( m · W_ji + b_ji ),
  where μ is the scatter-add, at the destination indices, of the messages
      gather( silu( (silu(m · W_kj + b_kj) ⊙ ((rbf · W₁) · W₂)) · W_down ), src )  ⊙  ((sbf · V₁) · V₂),
  the source indices wrapped once around the number of edges where negative.  The program multiplies the gathered
  rows by the angular products in that order; the product of entries commutes.
-/
import proofs.«124901_j62199716381203_2_alg».proof.Proof.RefRead
import proofs.«124901_j62199716381203_2_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo
open Cert.Block Cert.Lib.TypedRef

/-- The product of the gathered rows with the angular products, in the program's order, is stage two. -/
theorem msg_flip (g : Mat 2097152 64) (sbf : Mat 2097152 42) (V₁ : Mat 42 8) (V₂ : Mat 8 64) :
    mul g (mm (mm sbf V₁) V₂) = msgStage sbf g V₁ V₂ := Cert.Block.mul_comm' _ _

/-- The first part computes u₀ from the arguments. -/
theorem A_v30 (V : Valuation τ sig (Elt Ideal)) : after (opsA (F := Ideal)) V (main_v30 : DevRef τ sig)
    = sA (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  after_results_simp
  simp only [ofBuf_toBuf_id, ofBuf_main_v5, ofBuf_main_v10, ofBuf_main_v13, ofBuf_main_v28, ofBuf_main_v38, ofBuf_main_v43, ofBuf_main_v49, ofBuf_main_v63, ofBuf_main_v68, ofBuf_main_v82, ofBuf_main_v87, toBuf_main_v6, toBuf_main_v11, toBuf_main_v14, toBuf_main_v29, toBuf_main_v39, toBuf_main_v44, toBuf_main_v50, toBuf_main_v64, toBuf_main_v69, toBuf_main_v83, toBuf_main_v88, dims_E6_8, dims_E8_128, dims_E128_128, dims_E128_64, dims_T42_8, dims_T8_64, dims_E64_128, dotGeneral_eq_mm, broadcastInDim2_eq_rep, silu_E128, silu_E64]
  simp only [addf_eq, mulf_eq, msg_flip]
  rfl

/-! No operation of this part writes an argument of the program. -/

theorem A_arg0 (V : Valuation τ sig (Elt Ideal)) : after (opsA (F := Ideal)) V (main_arg0 : DevRef τ sig) = V (main_arg0 : DevRef τ sig) := by after_results_simp
theorem A_arg1 (V : Valuation τ sig (Elt Ideal)) : after (opsA (F := Ideal)) V (main_arg1 : DevRef τ sig) = V (main_arg1 : DevRef τ sig) := by after_results_simp
theorem A_arg2 (V : Valuation τ sig (Elt Ideal)) : after (opsA (F := Ideal)) V (main_arg2 : DevRef τ sig) = V (main_arg2 : DevRef τ sig) := by after_results_simp
theorem A_arg3 (V : Valuation τ sig (Elt Ideal)) : after (opsA (F := Ideal)) V (main_arg3 : DevRef τ sig) = V (main_arg3 : DevRef τ sig) := by after_results_simp
theorem A_arg4 (V : Valuation τ sig (Elt Ideal)) : after (opsA (F := Ideal)) V (main_arg4 : DevRef τ sig) = V (main_arg4 : DevRef τ sig) := by after_results_simp
theorem A_arg5 (V : Valuation τ sig (Elt Ideal)) : after (opsA (F := Ideal)) V (main_arg5 : DevRef τ sig) = V (main_arg5 : DevRef τ sig) := by after_results_simp
theorem A_arg6 (V : Valuation τ sig (Elt Ideal)) : after (opsA (F := Ideal)) V (main_arg6 : DevRef τ sig) = V (main_arg6 : DevRef τ sig) := by after_results_simp
theorem A_arg7 (V : Valuation τ sig (Elt Ideal)) : after (opsA (F := Ideal)) V (main_arg7 : DevRef τ sig) = V (main_arg7 : DevRef τ sig) := by after_results_simp
theorem A_arg8 (V : Valuation τ sig (Elt Ideal)) : after (opsA (F := Ideal)) V (main_arg8 : DevRef τ sig) = V (main_arg8 : DevRef τ sig) := by after_results_simp
theorem A_arg9 (V : Valuation τ sig (Elt Ideal)) : after (opsA (F := Ideal)) V (main_arg9 : DevRef τ sig) = V (main_arg9 : DevRef τ sig) := by after_results_simp
theorem A_arg10 (V : Valuation τ sig (Elt Ideal)) : after (opsA (F := Ideal)) V (main_arg10 : DevRef τ sig) = V (main_arg10 : DevRef τ sig) := by after_results_simp
theorem A_arg11 (V : Valuation τ sig (Elt Ideal)) : after (opsA (F := Ideal)) V (main_arg11 : DevRef τ sig) = V (main_arg11 : DevRef τ sig) := by after_results_simp
theorem A_arg12 (V : Valuation τ sig (Elt Ideal)) : after (opsA (F := Ideal)) V (main_arg12 : DevRef τ sig) = V (main_arg12 : DevRef τ sig) := by after_results_simp
theorem A_arg13 (V : Valuation τ sig (Elt Ideal)) : after (opsA (F := Ideal)) V (main_arg13 : DevRef τ sig) = V (main_arg13 : DevRef τ sig) := by after_results_simp
theorem A_arg14 (V : Valuation τ sig (Elt Ideal)) : after (opsA (F := Ideal)) V (main_arg14 : DevRef τ sig) = V (main_arg14 : DevRef τ sig) := by after_results_simp
theorem A_arg15 (V : Valuation τ sig (Elt Ideal)) : after (opsA (F := Ideal)) V (main_arg15 : DevRef τ sig) = V (main_arg15 : DevRef τ sig) := by after_results_simp
theorem A_arg16 (V : Valuation τ sig (Elt Ideal)) : after (opsA (F := Ideal)) V (main_arg16 : DevRef τ sig) = V (main_arg16 : DevRef τ sig) := by after_results_simp
theorem A_arg17 (V : Valuation τ sig (Elt Ideal)) : after (opsA (F := Ideal)) V (main_arg17 : DevRef τ sig) = V (main_arg17 : DevRef τ sig) := by after_results_simp
theorem A_arg18 (V : Valuation τ sig (Elt Ideal)) : after (opsA (F := Ideal)) V (main_arg18 : DevRef τ sig) = V (main_arg18 : DevRef τ sig) := by after_results_simp
theorem A_arg19 (V : Valuation τ sig (Elt Ideal)) : after (opsA (F := Ideal)) V (main_arg19 : DevRef τ sig) = V (main_arg19 : DevRef τ sig) := by after_results_simp
theorem A_arg20 (V : Valuation τ sig (Elt Ideal)) : after (opsA (F := Ideal)) V (main_arg20 : DevRef τ sig) = V (main_arg20 : DevRef τ sig) := by after_results_simp
theorem A_arg21 (V : Valuation τ sig (Elt Ideal)) : after (opsA (F := Ideal)) V (main_arg21 : DevRef τ sig) = V (main_arg21 : DevRef τ sig) := by after_results_simp
theorem A_arg22 (V : Valuation τ sig (Elt Ideal)) : after (opsA (F := Ideal)) V (main_arg22 : DevRef τ sig) = V (main_arg22 : DevRef τ sig) := by after_results_simp
theorem A_arg23 (V : Valuation τ sig (Elt Ideal)) : after (opsA (F := Ideal)) V (main_arg23 : DevRef τ sig) = V (main_arg23 : DevRef τ sig) := by after_results_simp
theorem A_arg24 (V : Valuation τ sig (Elt Ideal)) : after (opsA (F := Ideal)) V (main_arg24 : DevRef τ sig) = V (main_arg24 : DevRef τ sig) := by after_results_simp

end Cert.RefSide

end
-- ==== Proof.RefPartB.lean ====
/-
  The second part of the host reference program, read back.

  From contents V, the second part leaves in the buffer of value 51 the array
      m + silu( res(u₀) · W_f + b_f ),     res(x) = x + silu( silu(x · A + a) · B + b ),
  where u₀ is what V holds for value 30, m the edge embeddings, and A, a, B, b the first residual pair's weights
  (the stacked arguments with their leading axis of length one dropped).
-/
import proofs.«124901_j62199716381203_2_alg».proof.Proof.RefRead
import proofs.«124901_j62199716381203_2_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo
open Cert.Block Cert.Lib.TypedRef

/-- The second part computes the array after the dense layer from u₀ and the arguments. -/
theorem B_v51 (V : Valuation τ sig (Elt Ideal)) : after (opsB (F := Ideal)) V (main_v51 : DevRef τ sig)
    = sB (V (main_v30 : DevRef τ sig)) (V (main_arg0 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) := by
  after_results_simp
  simp only [ofBuf_toBuf_id, ofBuf_main_v5, ofBuf_main_v10, ofBuf_main_v13, ofBuf_main_v28, ofBuf_main_v38, ofBuf_main_v43, ofBuf_main_v49, ofBuf_main_v63, ofBuf_main_v68, ofBuf_main_v82, ofBuf_main_v87, toBuf_main_v6, toBuf_main_v11, toBuf_main_v14, toBuf_main_v29, toBuf_main_v39, toBuf_main_v44, toBuf_main_v50, toBuf_main_v64, toBuf_main_v69, toBuf_main_v83, toBuf_main_v88, dims_E6_8, dims_E8_128, dims_E128_128, dims_E128_64, dims_T42_8, dims_T8_64, dims_E64_128, dotGeneral_eq_mm, broadcastInDim2_eq_rep, silu_E128, silu_E64]
  simp only [addf_eq, mulf_eq]
  rfl

/-! No operation of this part writes an argument of the program. -/

theorem B_arg0 (V : Valuation τ sig (Elt Ideal)) : after (opsB (F := Ideal)) V (main_arg0 : DevRef τ sig) = V (main_arg0 : DevRef τ sig) := by after_results_simp
theorem B_arg1 (V : Valuation τ sig (Elt Ideal)) : after (opsB (F := Ideal)) V (main_arg1 : DevRef τ sig) = V (main_arg1 : DevRef τ sig) := by after_results_simp
theorem B_arg2 (V : Valuation τ sig (Elt Ideal)) : after (opsB (F := Ideal)) V (main_arg2 : DevRef τ sig) = V (main_arg2 : DevRef τ sig) := by after_results_simp
theorem B_arg3 (V : Valuation τ sig (Elt Ideal)) : after (opsB (F := Ideal)) V (main_arg3 : DevRef τ sig) = V (main_arg3 : DevRef τ sig) := by after_results_simp
theorem B_arg4 (V : Valuation τ sig (Elt Ideal)) : after (opsB (F := Ideal)) V (main_arg4 : DevRef τ sig) = V (main_arg4 : DevRef τ sig) := by after_results_simp
theorem B_arg5 (V : Valuation τ sig (Elt Ideal)) : after (opsB (F := Ideal)) V (main_arg5 : DevRef τ sig) = V (main_arg5 : DevRef τ sig) := by after_results_simp
theorem B_arg6 (V : Valuation τ sig (Elt Ideal)) : after (opsB (F := Ideal)) V (main_arg6 : DevRef τ sig) = V (main_arg6 : DevRef τ sig) := by after_results_simp
theorem B_arg7 (V : Valuation τ sig (Elt Ideal)) : after (opsB (F := Ideal)) V (main_arg7 : DevRef τ sig) = V (main_arg7 : DevRef τ sig) := by after_results_simp
theorem B_arg8 (V : Valuation τ sig (Elt Ideal)) : after (opsB (F := Ideal)) V (main_arg8 : DevRef τ sig) = V (main_arg8 : DevRef τ sig) := by after_results_simp
theorem B_arg9 (V : Valuation τ sig (Elt Ideal)) : after (opsB (F := Ideal)) V (main_arg9 : DevRef τ sig) = V (main_arg9 : DevRef τ sig) := by after_results_simp
theorem B_arg10 (V : Valuation τ sig (Elt Ideal)) : after (opsB (F := Ideal)) V (main_arg10 : DevRef τ sig) = V (main_arg10 : DevRef τ sig) := by after_results_simp
theorem B_arg11 (V : Valuation τ sig (Elt Ideal)) : after (opsB (F := Ideal)) V (main_arg11 : DevRef τ sig) = V (main_arg11 : DevRef τ sig) := by after_results_simp
theorem B_arg12 (V : Valuation τ sig (Elt Ideal)) : after (opsB (F := Ideal)) V (main_arg12 : DevRef τ sig) = V (main_arg12 : DevRef τ sig) := by after_results_simp
theorem B_arg13 (V : Valuation τ sig (Elt Ideal)) : after (opsB (F := Ideal)) V (main_arg13 : DevRef τ sig) = V (main_arg13 : DevRef τ sig) := by after_results_simp
theorem B_arg14 (V : Valuation τ sig (Elt Ideal)) : after (opsB (F := Ideal)) V (main_arg14 : DevRef τ sig) = V (main_arg14 : DevRef τ sig) := by after_results_simp
theorem B_arg15 (V : Valuation τ sig (Elt Ideal)) : after (opsB (F := Ideal)) V (main_arg15 : DevRef τ sig) = V (main_arg15 : DevRef τ sig) := by after_results_simp
theorem B_arg16 (V : Valuation τ sig (Elt Ideal)) : after (opsB (F := Ideal)) V (main_arg16 : DevRef τ sig) = V (main_arg16 : DevRef τ sig) := by after_results_simp
theorem B_arg17 (V : Valuation τ sig (Elt Ideal)) : after (opsB (F := Ideal)) V (main_arg17 : DevRef τ sig) = V (main_arg17 : DevRef τ sig) := by after_results_simp
theorem B_arg18 (V : Valuation τ sig (Elt Ideal)) : after (opsB (F := Ideal)) V (main_arg18 : DevRef τ sig) = V (main_arg18 : DevRef τ sig) := by after_results_simp
theorem B_arg19 (V : Valuation τ sig (Elt Ideal)) : after (opsB (F := Ideal)) V (main_arg19 : DevRef τ sig) = V (main_arg19 : DevRef τ sig) := by after_results_simp
theorem B_arg20 (V : Valuation τ sig (Elt Ideal)) : after (opsB (F := Ideal)) V (main_arg20 : DevRef τ sig) = V (main_arg20 : DevRef τ sig) := by after_results_simp
theorem B_arg21 (V : Valuation τ sig (Elt Ideal)) : after (opsB (F := Ideal)) V (main_arg21 : DevRef τ sig) = V (main_arg21 : DevRef τ sig) := by after_results_simp
theorem B_arg22 (V : Valuation τ sig (Elt Ideal)) : after (opsB (F := Ideal)) V (main_arg22 : DevRef τ sig) = V (main_arg22 : DevRef τ sig) := by after_results_simp
theorem B_arg23 (V : Valuation τ sig (Elt Ideal)) : after (opsB (F := Ideal)) V (main_arg23 : DevRef τ sig) = V (main_arg23 : DevRef τ sig) := by after_results_simp
theorem B_arg24 (V : Valuation τ sig (Elt Ideal)) : after (opsB (F := Ideal)) V (main_arg24 : DevRef τ sig) = V (main_arg24 : DevRef τ sig) := by after_results_simp

end Cert.RefSide

end
-- ==== Proof.RefPartC.lean ====
/-
  The third part of the host reference program, read back.

  From contents V, the third part leaves in the buffer of value 70 the array  res(x) = x + silu( silu(x · A + a) · B + b ),
  where x is what V holds for value 51 and A, a, B, b are the first slices of the stacked weights, their leading axis
  of length one dropped.
-/
import proofs.«124901_j62199716381203_2_alg».proof.Proof.RefRead
import proofs.«124901_j62199716381203_2_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo
open Cert.Block Cert.Lib.TypedRef

/-- The third part applies the second residual pair to the contents of value 51. -/
theorem C_v70 (V : Valuation τ sig (Elt Ideal)) : after (opsC (F := Ideal)) V (main_v70 : DevRef τ sig)
    = sC (V (main_v51 : DevRef τ sig)) (V (main_arg21 : DevRef τ sig)) (V (main_arg22 : DevRef τ sig)) (V (main_arg23 : DevRef τ sig)) (V (main_arg24 : DevRef τ sig)) := by
  after_results_simp
  simp only [ofBuf_toBuf_id, ofBuf_main_v5, ofBuf_main_v10, ofBuf_main_v13, ofBuf_main_v28, ofBuf_main_v38, ofBuf_main_v43, ofBuf_main_v49, ofBuf_main_v63, ofBuf_main_v68, ofBuf_main_v82, ofBuf_main_v87, toBuf_main_v6, toBuf_main_v11, toBuf_main_v14, toBuf_main_v29, toBuf_main_v39, toBuf_main_v44, toBuf_main_v50, toBuf_main_v64, toBuf_main_v69, toBuf_main_v83, toBuf_main_v88, dims_E6_8, dims_E8_128, dims_E128_128, dims_E128_64, dims_T42_8, dims_T8_64, dims_E64_128, dotGeneral_eq_mm, broadcastInDim2_eq_rep, silu_E128, silu_E64]
  simp only [addf_eq, mulf_eq]
  rfl

/-! No operation of this part writes an argument of the program. -/

theorem C_arg0 (V : Valuation τ sig (Elt Ideal)) : after (opsC (F := Ideal)) V (main_arg0 : DevRef τ sig) = V (main_arg0 : DevRef τ sig) := by after_results_simp
theorem C_arg1 (V : Valuation τ sig (Elt Ideal)) : after (opsC (F := Ideal)) V (main_arg1 : DevRef τ sig) = V (main_arg1 : DevRef τ sig) := by after_results_simp
theorem C_arg2 (V : Valuation τ sig (Elt Ideal)) : after (opsC (F := Ideal)) V (main_arg2 : DevRef τ sig) = V (main_arg2 : DevRef τ sig) := by after_results_simp
theorem C_arg3 (V : Valuation τ sig (Elt Ideal)) : after (opsC (F := Ideal)) V (main_arg3 : DevRef τ sig) = V (main_arg3 : DevRef τ sig) := by after_results_simp
theorem C_arg4 (V : Valuation τ sig (Elt Ideal)) : after (opsC (F := Ideal)) V (main_arg4 : DevRef τ sig) = V (main_arg4 : DevRef τ sig) := by after_results_simp
theorem C_arg5 (V : Valuation τ sig (Elt Ideal)) : after (opsC (F := Ideal)) V (main_arg5 : DevRef τ sig) = V (main_arg5 : DevRef τ sig) := by after_results_simp
theorem C_arg6 (V : Valuation τ sig (Elt Ideal)) : after (opsC (F := Ideal)) V (main_arg6 : DevRef τ sig) = V (main_arg6 : DevRef τ sig) := by after_results_simp
theorem C_arg7 (V : Valuation τ sig (Elt Ideal)) : after (opsC (F := Ideal)) V (main_arg7 : DevRef τ sig) = V (main_arg7 : DevRef τ sig) := by after_results_simp
theorem C_arg8 (V : Valuation τ sig (Elt Ideal)) : after (opsC (F := Ideal)) V (main_arg8 : DevRef τ sig) = V (main_arg8 : DevRef τ sig) := by after_results_simp
theorem C_arg9 (V : Valuation τ sig (Elt Ideal)) : after (opsC (F := Ideal)) V (main_arg9 : DevRef τ sig) = V (main_arg9 : DevRef τ sig) := by after_results_simp
theorem C_arg10 (V : Valuation τ sig (Elt Ideal)) : after (opsC (F := Ideal)) V (main_arg10 : DevRef τ sig) = V (main_arg10 : DevRef τ sig) := by after_results_simp
theorem C_arg11 (V : Valuation τ sig (Elt Ideal)) : after (opsC (F := Ideal)) V (main_arg11 : DevRef τ sig) = V (main_arg11 : DevRef τ sig) := by after_results_simp
theorem C_arg12 (V : Valuation τ sig (Elt Ideal)) : after (opsC (F := Ideal)) V (main_arg12 : DevRef τ sig) = V (main_arg12 : DevRef τ sig) := by after_results_simp
theorem C_arg13 (V : Valuation τ sig (Elt Ideal)) : after (opsC (F := Ideal)) V (main_arg13 : DevRef τ sig) = V (main_arg13 : DevRef τ sig) := by after_results_simp
theorem C_arg14 (V : Valuation τ sig (Elt Ideal)) : after (opsC (F := Ideal)) V (main_arg14 : DevRef τ sig) = V (main_arg14 : DevRef τ sig) := by after_results_simp
theorem C_arg15 (V : Valuation τ sig (Elt Ideal)) : after (opsC (F := Ideal)) V (main_arg15 : DevRef τ sig) = V (main_arg15 : DevRef τ sig) := by after_results_simp
theorem C_arg16 (V : Valuation τ sig (Elt Ideal)) : after (opsC (F := Ideal)) V (main_arg16 : DevRef τ sig) = V (main_arg16 : DevRef τ sig) := by after_results_simp
theorem C_arg17 (V : Valuation τ sig (Elt Ideal)) : after (opsC (F := Ideal)) V (main_arg17 : DevRef τ sig) = V (main_arg17 : DevRef τ sig) := by after_results_simp
theorem C_arg18 (V : Valuation τ sig (Elt Ideal)) : after (opsC (F := Ideal)) V (main_arg18 : DevRef τ sig) = V (main_arg18 : DevRef τ sig) := by after_results_simp
theorem C_arg19 (V : Valuation τ sig (Elt Ideal)) : after (opsC (F := Ideal)) V (main_arg19 : DevRef τ sig) = V (main_arg19 : DevRef τ sig) := by after_results_simp
theorem C_arg20 (V : Valuation τ sig (Elt Ideal)) : after (opsC (F := Ideal)) V (main_arg20 : DevRef τ sig) = V (main_arg20 : DevRef τ sig) := by after_results_simp
theorem C_arg21 (V : Valuation τ sig (Elt Ideal)) : after (opsC (F := Ideal)) V (main_arg21 : DevRef τ sig) = V (main_arg21 : DevRef τ sig) := by after_results_simp
theorem C_arg22 (V : Valuation τ sig (Elt Ideal)) : after (opsC (F := Ideal)) V (main_arg22 : DevRef τ sig) = V (main_arg22 : DevRef τ sig) := by after_results_simp
theorem C_arg23 (V : Valuation τ sig (Elt Ideal)) : after (opsC (F := Ideal)) V (main_arg23 : DevRef τ sig) = V (main_arg23 : DevRef τ sig) := by after_results_simp
theorem C_arg24 (V : Valuation τ sig (Elt Ideal)) : after (opsC (F := Ideal)) V (main_arg24 : DevRef τ sig) = V (main_arg24 : DevRef τ sig) := by after_results_simp

end Cert.RefSide

end
-- ==== Proof.RefPartD.lean ====
/-
  The fourth part of the host reference program, read back.

  From contents V, the fourth part leaves in the buffer of value 89, the program's result, the array
  res(x) = x + silu( silu(x · A + a) · B + b ),  where x is what V holds for value 70 and A, a, B, b are the second
  slices of the stacked weights, their leading axis of length one dropped.
-/
import proofs.«124901_j62199716381203_2_alg».proof.Proof.RefRead
import proofs.«124901_j62199716381203_2_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo
open Cert.Block Cert.Lib.TypedRef

/-- The fourth part applies the third residual pair to the contents of value 70. -/
theorem D_v89 (V : Valuation τ sig (Elt Ideal)) : after (opsD (F := Ideal)) V (main_v89 : DevRef τ sig)
    = sD (V (main_v70 : DevRef τ sig)) (V (main_arg21 : DevRef τ sig)) (V (main_arg22 : DevRef τ sig)) (V (main_arg23 : DevRef τ sig)) (V (main_arg24 : DevRef τ sig)) := by
  after_results_simp
  simp only [ofBuf_toBuf_id, ofBuf_main_v5, ofBuf_main_v10, ofBuf_main_v13, ofBuf_main_v28, ofBuf_main_v38, ofBuf_main_v43, ofBuf_main_v49, ofBuf_main_v63, ofBuf_main_v68, ofBuf_main_v82, ofBuf_main_v87, toBuf_main_v6, toBuf_main_v11, toBuf_main_v14, toBuf_main_v29, toBuf_main_v39, toBuf_main_v44, toBuf_main_v50, toBuf_main_v64, toBuf_main_v69, toBuf_main_v83, toBuf_main_v88, dims_E6_8, dims_E8_128, dims_E128_128, dims_E128_64, dims_T42_8, dims_T8_64, dims_E64_128, dotGeneral_eq_mm, broadcastInDim2_eq_rep, silu_E128, silu_E64]
  simp only [addf_eq, mulf_eq]
  rfl

/-! No operation of this part writes an argument of the program. -/

theorem D_arg0 (V : Valuation τ sig (Elt Ideal)) : after (opsD (F := Ideal)) V (main_arg0 : DevRef τ sig) = V (main_arg0 : DevRef τ sig) := by after_results_simp
theorem D_arg1 (V : Valuation τ sig (Elt Ideal)) : after (opsD (F := Ideal)) V (main_arg1 : DevRef τ sig) = V (main_arg1 : DevRef τ sig) := by after_results_simp
theorem D_arg2 (V : Valuation τ sig (Elt Ideal)) : after (opsD (F := Ideal)) V (main_arg2 : DevRef τ sig) = V (main_arg2 : DevRef τ sig) := by after_results_simp
theorem D_arg3 (V : Valuation τ sig (Elt Ideal)) : after (opsD (F := Ideal)) V (main_arg3 : DevRef τ sig) = V (main_arg3 : DevRef τ sig) := by after_results_simp
theorem D_arg4 (V : Valuation τ sig (Elt Ideal)) : after (opsD (F := Ideal)) V (main_arg4 : DevRef τ sig) = V (main_arg4 : DevRef τ sig) := by after_results_simp
theorem D_arg5 (V : Valuation τ sig (Elt Ideal)) : after (opsD (F := Ideal)) V (main_arg5 : DevRef τ sig) = V (main_arg5 : DevRef τ sig) := by after_results_simp
theorem D_arg6 (V : Valuation τ sig (Elt Ideal)) : after (opsD (F := Ideal)) V (main_arg6 : DevRef τ sig) = V (main_arg6 : DevRef τ sig) := by after_results_simp
theorem D_arg7 (V : Valuation τ sig (Elt Ideal)) : after (opsD (F := Ideal)) V (main_arg7 : DevRef τ sig) = V (main_arg7 : DevRef τ sig) := by after_results_simp
theorem D_arg8 (V : Valuation τ sig (Elt Ideal)) : after (opsD (F := Ideal)) V (main_arg8 : DevRef τ sig) = V (main_arg8 : DevRef τ sig) := by after_results_simp
theorem D_arg9 (V : Valuation τ sig (Elt Ideal)) : after (opsD (F := Ideal)) V (main_arg9 : DevRef τ sig) = V (main_arg9 : DevRef τ sig) := by after_results_simp
theorem D_arg10 (V : Valuation τ sig (Elt Ideal)) : after (opsD (F := Ideal)) V (main_arg10 : DevRef τ sig) = V (main_arg10 : DevRef τ sig) := by after_results_simp
theorem D_arg11 (V : Valuation τ sig (Elt Ideal)) : after (opsD (F := Ideal)) V (main_arg11 : DevRef τ sig) = V (main_arg11 : DevRef τ sig) := by after_results_simp
theorem D_arg12 (V : Valuation τ sig (Elt Ideal)) : after (opsD (F := Ideal)) V (main_arg12 : DevRef τ sig) = V (main_arg12 : DevRef τ sig) := by after_results_simp
theorem D_arg13 (V : Valuation τ sig (Elt Ideal)) : after (opsD (F := Ideal)) V (main_arg13 : DevRef τ sig) = V (main_arg13 : DevRef τ sig) := by after_results_simp
theorem D_arg14 (V : Valuation τ sig (Elt Ideal)) : after (opsD (F := Ideal)) V (main_arg14 : DevRef τ sig) = V (main_arg14 : DevRef τ sig) := by after_results_simp
theorem D_arg15 (V : Valuation τ sig (Elt Ideal)) : after (opsD (F := Ideal)) V (main_arg15 : DevRef τ sig) = V (main_arg15 : DevRef τ sig) := by after_results_simp
theorem D_arg16 (V : Valuation τ sig (Elt Ideal)) : after (opsD (F := Ideal)) V (main_arg16 : DevRef τ sig) = V (main_arg16 : DevRef τ sig) := by after_results_simp
theorem D_arg17 (V : Valuation τ sig (Elt Ideal)) : after (opsD (F := Ideal)) V (main_arg17 : DevRef τ sig) = V (main_arg17 : DevRef τ sig) := by after_results_simp
theorem D_arg18 (V : Valuation τ sig (Elt Ideal)) : after (opsD (F := Ideal)) V (main_arg18 : DevRef τ sig) = V (main_arg18 : DevRef τ sig) := by after_results_simp
theorem D_arg19 (V : Valuation τ sig (Elt Ideal)) : after (opsD (F := Ideal)) V (main_arg19 : DevRef τ sig) = V (main_arg19 : DevRef τ sig) := by after_results_simp
theorem D_arg20 (V : Valuation τ sig (Elt Ideal)) : after (opsD (F := Ideal)) V (main_arg20 : DevRef τ sig) = V (main_arg20 : DevRef τ sig) := by after_results_simp
theorem D_arg21 (V : Valuation τ sig (Elt Ideal)) : after (opsD (F := Ideal)) V (main_arg21 : DevRef τ sig) = V (main_arg21 : DevRef τ sig) := by after_results_simp
theorem D_arg22 (V : Valuation τ sig (Elt Ideal)) : after (opsD (F := Ideal)) V (main_arg22 : DevRef τ sig) = V (main_arg22 : DevRef τ sig) := by after_results_simp
theorem D_arg23 (V : Valuation τ sig (Elt Ideal)) : after (opsD (F := Ideal)) V (main_arg23 : DevRef τ sig) = V (main_arg23 : DevRef τ sig) := by after_results_simp
theorem D_arg24 (V : Valuation τ sig (Elt Ideal)) : after (opsD (F := Ideal)) V (main_arg24 : DevRef τ sig) = V (main_arg24 : DevRef τ sig) := by after_results_simp

end Cert.RefSide

end
-- ==== Proof.RefValue.lean ====
/-
  The run of the host reference program and its value.

  Every weakly fair execution of the program terminates; at the end the result buffer holds the value of the
  edge-message block at the launch contents of the twenty-five arguments, and every argument holds what it held at
  launch.  The result is read part by part: the fourth part's result is the third residual pair of what the third
  part left, that is the second residual pair of what the second part left, that is the dense layer over the first
  residual pair of u₀, which the first part computes from the arguments; no part writes an argument.
-/
import proofs.«124901_j62199716381203_2_alg».proof.Proof.RefRun
import proofs.«124901_j62199716381203_2_alg».proof.Proof.RefPartA
import proofs.«124901_j62199716381203_2_alg».proof.Proof.RefPartB
import proofs.«124901_j62199716381203_2_alg».proof.Proof.RefPartC
import proofs.«124901_j62199716381203_2_alg».proof.Proof.RefPartD

noncomputable section

namespace Cert.RefSide

open Cert.ReferenceIdeal Cert.ReferenceIdeal.Gen Idealize.ShloMosaic Idealize.ShloMosaic.TcCoe Idealize.SL.Sem Idealize.ShloMosaic.StableHlo
open Cert.Block

/-- No part writes an argument: after the four parts each argument holds what it held before them. -/
theorem frame_arg0 (V : Valuation τ sig (Elt Ideal)) :
    after (opsD (F := Ideal)) (after opsC (after opsB (after opsA V))) (main_arg0 : DevRef τ sig) = V (main_arg0 : DevRef τ sig) :=
  (D_arg0 (after (opsC (F := Ideal)) (after (opsB (F := Ideal)) (after (opsA (F := Ideal)) V)))).trans ((C_arg0 (after (opsB (F := Ideal)) (after (opsA (F := Ideal)) V))).trans ((B_arg0 (after (opsA (F := Ideal)) V)).trans (A_arg0 V)))
theorem frame_arg1 (V : Valuation τ sig (Elt Ideal)) :
    after (opsD (F := Ideal)) (after opsC (after opsB (after opsA V))) (main_arg1 : DevRef τ sig) = V (main_arg1 : DevRef τ sig) :=
  (D_arg1 (after (opsC (F := Ideal)) (after (opsB (F := Ideal)) (after (opsA (F := Ideal)) V)))).trans ((C_arg1 (after (opsB (F := Ideal)) (after (opsA (F := Ideal)) V))).trans ((B_arg1 (after (opsA (F := Ideal)) V)).trans (A_arg1 V)))
theorem frame_arg2 (V : Valuation τ sig (Elt Ideal)) :
    after (opsD (F := Ideal)) (after opsC (after opsB (after opsA V))) (main_arg2 : DevRef τ sig) = V (main_arg2 : DevRef τ sig) :=
  (D_arg2 (after (opsC (F := Ideal)) (after (opsB (F := Ideal)) (after (opsA (F := Ideal)) V)))).trans ((C_arg2 (after (opsB (F := Ideal)) (after (opsA (F := Ideal)) V))).trans ((B_arg2 (after (opsA (F := Ideal)) V)).trans (A_arg2 V)))
theorem frame_arg3 (V : Valuation τ sig (Elt Ideal)) :
    after (opsD (F := Ideal)) (after opsC (after opsB (after opsA V))) (main_arg3 : DevRef τ sig) = V (main_arg3 : DevRef τ sig) :=
  (D_arg3 (after (opsC (F := Ideal)) (after (opsB (F := Ideal)) (after (opsA (F := Ideal)) V)))).trans ((C_arg3 (after (opsB (F := Ideal)) (after (opsA (F := Ideal)) V))).trans ((B_arg3 (after (opsA (F := Ideal)) V)).trans (A_arg3 V)))
theorem frame_arg4 (V : Valuation τ sig (Elt Ideal)) :
    after (opsD (F := Ideal)) (after opsC (after opsB (after opsA V))) (main_arg4 : DevRef τ sig) = V (main_arg4 : DevRef τ sig) :=
  (D_arg4 (after (opsC (F := Ideal)) (after (opsB (F := Ideal)) (after (opsA (F := Ideal)) V)))).trans ((C_arg4 (after (opsB (F := Ideal)) (after (opsA (F := Ideal)) V))).trans ((B_arg4 (after (opsA (F := Ideal)) V)).trans (A_arg4 V)))
theorem frame_arg5 (V : Valuation τ sig (Elt Ideal)) :
    after (opsD (F := Ideal)) (after opsC (after opsB (after opsA V))) (main_arg5 : DevRef τ sig) = V (main_arg5 : DevRef τ sig) :=
  (D_arg5 (after (opsC (F := Ideal)) (after (opsB (F := Ideal)) (after (opsA (F := Ideal)) V)))).trans ((C_arg5 (after (opsB (F := Ideal)) (after (opsA (F := Ideal)) V))).trans ((B_arg5 (after (opsA (F := Ideal)) V)).trans (A_arg5 V)))
theorem frame_arg6 (V : Valuation τ sig (Elt Ideal)) :
    after (opsD (F := Ideal)) (after opsC (after opsB (after opsA V))) (main_arg6 : DevRef τ sig) = V (main_arg6 : DevRef τ sig) :=
  (D_arg6 (after (opsC (F := Ideal)) (after (opsB (F := Ideal)) (after (opsA (F := Ideal)) V)))).trans ((C_arg6 (after (opsB (F := Ideal)) (after (opsA (F := Ideal)) V))).trans ((B_arg6 (after (opsA (F := Ideal)) V)).trans (A_arg6 V)))
theorem frame_arg7 (V : Valuation τ sig (Elt Ideal)) :
    after (opsD (F := Ideal)) (after opsC (after opsB (after opsA V))) (main_arg7 : DevRef τ sig) = V (main_arg7 : DevRef τ sig) :=
  (D_arg7 (after (opsC (F := Ideal)) (after (opsB (F := Ideal)) (after (opsA (F := Ideal)) V)))).trans ((C_arg7 (after (opsB (F := Ideal)) (after (opsA (F := Ideal)) V))).trans ((B_arg7 (after (opsA (F := Ideal)) V)).trans (A_arg7 V)))
theorem frame_arg8 (V : Valuation τ sig (Elt Ideal)) :
    after (opsD (F := Ideal)) (after opsC (after opsB (after opsA V))) (main_arg8 : DevRef τ sig) = V (main_arg8 : DevRef τ sig) :=
  (D_arg8 (after (opsC (F := Ideal)) (after (opsB (F := Ideal)) (after (opsA (F := Ideal)) V)))).trans ((C_arg8 (after (opsB (F := Ideal)) (after (opsA (F := Ideal)) V))).trans ((B_arg8 (after (opsA (F := Ideal)) V)).trans (A_arg8 V)))
theorem frame_arg9 (V : Valuation τ sig (Elt Ideal)) :
    after (opsD (F := Ideal)) (after opsC (after opsB (after opsA V))) (main_arg9 : DevRef τ sig) = V (main_arg9 : DevRef τ sig) :=
  (D_arg9 (after (opsC (F := Ideal)) (after (opsB (F := Ideal)) (after (opsA (F := Ideal)) V)))).trans ((C_arg9 (after (opsB (F := Ideal)) (after (opsA (F := Ideal)) V))).trans ((B_arg9 (after (opsA (F := Ideal)) V)).trans (A_arg9 V)))
theorem frame_arg10 (V : Valuation τ sig (Elt Ideal)) :
    after (opsD (F := Ideal)) (after opsC (after opsB (after opsA V))) (main_arg10 : DevRef τ sig) = V (main_arg10 : DevRef τ sig) :=
  (D_arg10 (after (opsC (F := Ideal)) (after (opsB (F := Ideal)) (after (opsA (F := Ideal)) V)))).trans ((C_arg10 (after (opsB (F := Ideal)) (after (opsA (F := Ideal)) V))).trans ((B_arg10 (after (opsA (F := Ideal)) V)).trans (A_arg10 V)))
theorem frame_arg11 (V : Valuation τ sig (Elt Ideal)) :
    after (opsD (F := Ideal)) (after opsC (after opsB (after opsA V))) (main_arg11 : DevRef τ sig) = V (main_arg11 : DevRef τ sig) :=
  (D_arg11 (after (opsC (F := Ideal)) (after (opsB (F := Ideal)) (after (opsA (F := Ideal)) V)))).trans ((C_arg11 (after (opsB (F := Ideal)) (after (opsA (F := Ideal)) V))).trans ((B_arg11 (after (opsA (F := Ideal)) V)).trans (A_arg11 V)))
theorem frame_arg12 (V : Valuation τ sig (Elt Ideal)) :
    after (opsD (F := Ideal)) (after opsC (after opsB (after opsA V))) (main_arg12 : DevRef τ sig) = V (main_arg12 : DevRef τ sig) :=
  (D_arg12 (after (opsC (F := Ideal)) (after (opsB (F := Ideal)) (after (opsA (F := Ideal)) V)))).trans ((C_arg12 (after (opsB (F := Ideal)) (after (opsA (F := Ideal)) V))).trans ((B_arg12 (after (opsA (F := Ideal)) V)).trans (A_arg12 V)))
theorem frame_arg13 (V : Valuation τ sig (Elt Ideal)) :
    after (opsD (F := Ideal)) (after opsC (after opsB (after opsA V))) (main_arg13 : DevRef τ sig) = V (main_arg13 : DevRef τ sig) :=
  (D_arg13 (after (opsC (F := Ideal)) (after (opsB (F := Ideal)) (after (opsA (F := Ideal)) V)))).trans ((C_arg13 (after (opsB (F := Ideal)) (after (opsA (F := Ideal)) V))).trans ((B_arg13 (after (opsA (F := Ideal)) V)).trans (A_arg13 V)))
theorem frame_arg14 (V : Valuation τ sig (Elt Ideal)) :
    after (opsD (F := Ideal)) (after opsC (after opsB (after opsA V))) (main_arg14 : DevRef τ sig) = V (main_arg14 : DevRef τ sig) :=
  (D_arg14 (after (opsC (F := Ideal)) (after (opsB (F := Ideal)) (after (opsA (F := Ideal)) V)))).trans ((C_arg14 (after (opsB (F := Ideal)) (after (opsA (F := Ideal)) V))).trans ((B_arg14 (after (opsA (F := Ideal)) V)).trans (A_arg14 V)))
theorem frame_arg15 (V : Valuation τ sig (Elt Ideal)) :
    after (opsD (F := Ideal)) (after opsC (after opsB (after opsA V))) (main_arg15 : DevRef τ sig) = V (main_arg15 : DevRef τ sig) :=
  (D_arg15 (after (opsC (F := Ideal)) (after (opsB (F := Ideal)) (after (opsA (F := Ideal)) V)))).trans ((C_arg15 (after (opsB (F := Ideal)) (after (opsA (F := Ideal)) V))).trans ((B_arg15 (after (opsA (F := Ideal)) V)).trans (A_arg15 V)))
theorem frame_arg16 (V : Valuation τ sig (Elt Ideal)) :
    after (opsD (F := Ideal)) (after opsC (after opsB (after opsA V))) (main_arg16 : DevRef τ sig) = V (main_arg16 : DevRef τ sig) :=
  (D_arg16 (after (opsC (F := Ideal)) (after (opsB (F := Ideal)) (after (opsA (F := Ideal)) V)))).trans ((C_arg16 (after (opsB (F := Ideal)) (after (opsA (F := Ideal)) V))).trans ((B_arg16 (after (opsA (F := Ideal)) V)).trans (A_arg16 V)))
theorem frame_arg17 (V : Valuation τ sig (Elt Ideal)) :
    after (opsD (F := Ideal)) (after opsC (after opsB (after opsA V))) (main_arg17 : DevRef τ sig) = V (main_arg17 : DevRef τ sig) :=
  (D_arg17 (after (opsC (F := Ideal)) (after (opsB (F := Ideal)) (after (opsA (F := Ideal)) V)))).trans ((C_arg17 (after (opsB (F := Ideal)) (after (opsA (F := Ideal)) V))).trans ((B_arg17 (after (opsA (F := Ideal)) V)).trans (A_arg17 V)))
theorem frame_arg18 (V : Valuation τ sig (Elt Ideal)) :
    after (opsD (F := Ideal)) (after opsC (after opsB (after opsA V))) (main_arg18 : DevRef τ sig) = V (main_arg18 : DevRef τ sig) :=
  (D_arg18 (after (opsC (F := Ideal)) (after (opsB (F := Ideal)) (after (opsA (F := Ideal)) V)))).trans ((C_arg18 (after (opsB (F := Ideal)) (after (opsA (F := Ideal)) V))).trans ((B_arg18 (after (opsA (F := Ideal)) V)).trans (A_arg18 V)))
theorem frame_arg19 (V : Valuation τ sig (Elt Ideal)) :
    after (opsD (F := Ideal)) (after opsC (after opsB (after opsA V))) (main_arg19 : DevRef τ sig) = V (main_arg19 : DevRef τ sig) :=
  (D_arg19 (after (opsC (F := Ideal)) (after (opsB (F := Ideal)) (after (opsA (F := Ideal)) V)))).trans ((C_arg19 (after (opsB (F := Ideal)) (after (opsA (F := Ideal)) V))).trans ((B_arg19 (after (opsA (F := Ideal)) V)).trans (A_arg19 V)))
theorem frame_arg20 (V : Valuation τ sig (Elt Ideal)) :
    after (opsD (F := Ideal)) (after opsC (after opsB (after opsA V))) (main_arg20 : DevRef τ sig) = V (main_arg20 : DevRef τ sig) :=
  (D_arg20 (after (opsC (F := Ideal)) (after (opsB (F := Ideal)) (after (opsA (F := Ideal)) V)))).trans ((C_arg20 (after (opsB (F := Ideal)) (after (opsA (F := Ideal)) V))).trans ((B_arg20 (after (opsA (F := Ideal)) V)).trans (A_arg20 V)))
theorem frame_arg21 (V : Valuation τ sig (Elt Ideal)) :
    after (opsD (F := Ideal)) (after opsC (after opsB (after opsA V))) (main_arg21 : DevRef τ sig) = V (main_arg21 : DevRef τ sig) :=
  (D_arg21 (after (opsC (F := Ideal)) (after (opsB (F := Ideal)) (after (opsA (F := Ideal)) V)))).trans ((C_arg21 (after (opsB (F := Ideal)) (after (opsA (F := Ideal)) V))).trans ((B_arg21 (after (opsA (F := Ideal)) V)).trans (A_arg21 V)))
theorem frame_arg22 (V : Valuation τ sig (Elt Ideal)) :
    after (opsD (F := Ideal)) (after opsC (after opsB (after opsA V))) (main_arg22 : DevRef τ sig) = V (main_arg22 : DevRef τ sig) :=
  (D_arg22 (after (opsC (F := Ideal)) (after (opsB (F := Ideal)) (after (opsA (F := Ideal)) V)))).trans ((C_arg22 (after (opsB (F := Ideal)) (after (opsA (F := Ideal)) V))).trans ((B_arg22 (after (opsA (F := Ideal)) V)).trans (A_arg22 V)))
theorem frame_arg23 (V : Valuation τ sig (Elt Ideal)) :
    after (opsD (F := Ideal)) (after opsC (after opsB (after opsA V))) (main_arg23 : DevRef τ sig) = V (main_arg23 : DevRef τ sig) :=
  (D_arg23 (after (opsC (F := Ideal)) (after (opsB (F := Ideal)) (after (opsA (F := Ideal)) V)))).trans ((C_arg23 (after (opsB (F := Ideal)) (after (opsA (F := Ideal)) V))).trans ((B_arg23 (after (opsA (F := Ideal)) V)).trans (A_arg23 V)))
theorem frame_arg24 (V : Valuation τ sig (Elt Ideal)) :
    after (opsD (F := Ideal)) (after opsC (after opsB (after opsA V))) (main_arg24 : DevRef τ sig) = V (main_arg24 : DevRef τ sig) :=
  (D_arg24 (after (opsC (F := Ideal)) (after (opsB (F := Ideal)) (after (opsA (F := Ideal)) V)))).trans ((C_arg24 (after (opsB (F := Ideal)) (after (opsA (F := Ideal)) V))).trans ((B_arg24 (after (opsA (F := Ideal)) V)).trans (A_arg24 V)))

/-- After the four parts the result buffer holds the program's value at the arguments' contents before them. -/
theorem result_eq (V : Valuation τ sig (Elt Ideal)) :
    after (opsD (F := Ideal)) (after opsC (after opsB (after opsA V))) (main_v89 : DevRef τ sig)
      = value (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) :=
  (D_v89 (after (opsC (F := Ideal)) (after (opsB (F := Ideal)) (after (opsA (F := Ideal)) V)))).trans ((sD_congr
    ((C_v70 (after (opsB (F := Ideal)) (after (opsA (F := Ideal)) V))).trans (sC_congr
      ((B_v51 (after (opsA (F := Ideal)) V)).trans (sB_congr (A_v30 V) (A_arg0 V) (A_arg15 V) (A_arg16 V) (A_arg17 V) (A_arg18 V) (A_arg19 V) (A_arg20 V)))
      ((B_arg21 (after (opsA (F := Ideal)) V)).trans (A_arg21 V)) ((B_arg22 (after (opsA (F := Ideal)) V)).trans (A_arg22 V)) ((B_arg23 (after (opsA (F := Ideal)) V)).trans (A_arg23 V)) ((B_arg24 (after (opsA (F := Ideal)) V)).trans (A_arg24 V))))
    ((C_arg21 (after (opsB (F := Ideal)) (after (opsA (F := Ideal)) V))).trans ((B_arg21 (after (opsA (F := Ideal)) V)).trans (A_arg21 V))) ((C_arg22 (after (opsB (F := Ideal)) (after (opsA (F := Ideal)) V))).trans ((B_arg22 (after (opsA (F := Ideal)) V)).trans (A_arg22 V))) ((C_arg23 (after (opsB (F := Ideal)) (after (opsA (F := Ideal)) V))).trans ((B_arg23 (after (opsA (F := Ideal)) V)).trans (A_arg23 V))) ((C_arg24 (after (opsB (F := Ideal)) (after (opsA (F := Ideal)) V))).trans ((B_arg24 (after (opsA (F := Ideal)) V)).trans (A_arg24 V)))).trans
    (value_eq (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig))).symm)

/-- On every device, from any memory with zero counters: every weakly fair execution of the reference program
    terminates with the result buffer at the block's value of the arguments' launch contents and every argument
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89)
        = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v89).trans (result_eq (launchContents m c)),
      (h c main_arg0).trans (frame_arg0 (launchContents m c)),
      (h c main_arg1).trans (frame_arg1 (launchContents m c)),
      (h c main_arg2).trans (frame_arg2 (launchContents m c)),
      (h c main_arg3).trans (frame_arg3 (launchContents m c)),
      (h c main_arg4).trans (frame_arg4 (launchContents m c)),
      (h c main_arg5).trans (frame_arg5 (launchContents m c)),
      (h c main_arg6).trans (frame_arg6 (launchContents m c)),
      (h c main_arg7).trans (frame_arg7 (launchContents m c)),
      (h c main_arg8).trans (frame_arg8 (launchContents m c)),
      (h c main_arg9).trans (frame_arg9 (launchContents m c)),
      (h c main_arg10).trans (frame_arg10 (launchContents m c)),
      (h c main_arg11).trans (frame_arg11 (launchContents m c)),
      (h c main_arg12).trans (frame_arg12 (launchContents m c)),
      (h c main_arg13).trans (frame_arg13 (launchContents m c)),
      (h c main_arg14).trans (frame_arg14 (launchContents m c)),
      (h c main_arg15).trans (frame_arg15 (launchContents m c)),
      (h c main_arg16).trans (frame_arg16 (launchContents m c)),
      (h c main_arg17).trans (frame_arg17 (launchContents m c)),
      (h c main_arg18).trans (frame_arg18 (launchContents m c)),
      (h c main_arg19).trans (frame_arg19 (launchContents m c)),
      (h c main_arg20).trans (frame_arg20 (launchContents m c)),
      (h c main_arg21).trans (frame_arg21 (launchContents m c)),
      (h c main_arg22).trans (frame_arg22 (launchContents m c)),
      (h c main_arg23).trans (frame_arg23 (launchContents m c)),
      (h c main_arg24).trans (frame_arg24 (launchContents m c))⟩)
    (run0 m ρ)

end Cert.RefSide

end
-- ==== Proof.lean ====
/-
  An edge-message block of a directional message-passing network, computed by three kernel launches with a gather and a
  sum between them, against the same block computed by whole-array host operations.

  With E = 262144 edges and T = 2097152 triplets, both programs compute
      x   = silu( ( silu(m · W_kj + b_kj) ⊙ ((rbf · W₁) · W₂) ) · W_down )                      on the edges,
      g   = the rows of x at the source indices (negative indices wrapped),                      on the triplets,
      μ   = the sum onto each edge of the rows of ((sbf · V₁) · V₂) ⊙ g with that destination,
      out = res₂(res₁(m + silu(res₀(silu(μ · W_up) + silu(m · W_ji + b_ji)) · W_f + b_f)))       on the edges,
  res(y) = y + silu(silu(y · A + a) · B + b), silu z = z · 1 / (1 + e^(-z)).  The kernel program computes x, the
  product before the sum, and out in launches over blocks of 4096 rows (its matrix unit in a narrower float format,
  which changes nothing at the exact values), and the gather and the sum by the same two host operations as the
  reference.  Every layer acts on each row by itself, so a launch's output array is the layer of the whole arrays
  (Region0, Region1, Region2); the contents are followed through the program (KValue); the reference's 181 host
  operations are read in four parts (RefOps … RefValue); and the two results are the same expression, the bias of a
  layer being spelt as a reshaped row on one side and as the vector on the other, and the elementwise product of the
  second stage taken in the other order.  No finiteness of the inputs is used: only that the extended reals'
  product commutes.
-/
import proofs.«124901_j62199716381203_2_alg».proof.Defs
import proofs.«124901_j62199716381203_2_alg».proof.Proof.Gen.Kernel
import proofs.«124901_j62199716381203_2_alg».proof.Proof.Gen.Kernel.Skeleton
import proofs.«124901_j62199716381203_2_alg».proof.Proof.Gen.Kernel.Launch
import proofs.«124901_j62199716381203_2_alg».proof.Proof.Gen.Kernel.Points
import proofs.«124901_j62199716381203_2_alg».proof.Proof.Gen.Kernel.Frame
import proofs.«124901_j62199716381203_2_alg».proof.Proof.Gen.KernelIdeal
import proofs.«124901_j62199716381203_2_alg».proof.Proof.Gen.KernelIdeal.Skeleton
import proofs.«124901_j62199716381203_2_alg».proof.Proof.Gen.KernelIdeal.Launch
import proofs.«124901_j62199716381203_2_alg».proof.Proof.Gen.KernelIdeal.Points
import proofs.«124901_j62199716381203_2_alg».proof.Proof.Gen.KernelIdeal.Frame
import proofs.«124901_j62199716381203_2_alg».proof.Proof.Gen.ReferenceIdeal
import proofs.«124901_j62199716381203_2_alg».proof.Proof.Gen.Pre_finite_inputs
import Idealize.ShloMosaic.Adequacy
import Idealize.ShloMosaic.Init
import proofs.«124901_j62199716381203_2_alg».proof.Proof.KValue
import proofs.«124901_j62199716381203_2_alg».proof.Proof.RefValue

set_option maxRecDepth 16384

noncomputable section

namespace Cert.Proof

open Idealize.ShloMosaic Idealize.ShloMosaic.TcCoe Idealize.ShloMosaic.ValueIdx Idealize.SL.Sem Cert.Block

/-- A vector reshaped to a 1 × 128 row, read along the row, is the vector. -/
theorem rowVec_row (v : FVec Ideal Cert.KernelIdeal.S128 .f32) (h : Cert.KernelIdeal.S128.ShapeCasts Cert.KernelIdeal.S1x128) :
    rowVec (shapeCast Cert.KernelIdeal.S1x128 v h) = vec v :=
  funext fun q => Cert.Lib.Dense.shapeCast_vec_row_apply v h q

/-- The reference's result of equal arguments is equal. -/
theorem value_congr {a0 b0 : _} {a1 b1 : _} {a2 b2 : _} {a3 b3 : _} {a4 b4 : _} {a5 b5 : _} {a6 b6 : _} {a7 b7 : _} {a8 b8 : _} {a9 b9 : _} {a10 b10 : _} {a11 b11 : _} {a12 b12 : _} {a13 b13 : _} {a14 b14 : _} {a15 b15 : _} {a16 b16 : _} {a17 b17 : _} {a18 b18 : _} {a19 b19 : _} {a20 b20 : _} {a21 b21 : _} {a22 b22 : _} {a23 b23 : _} {a24 b24 : _}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) :
    Cert.RefSide.value a0 a1 a2 a3 a4 a5 a6 a7 a8 a9 a10 a11 a12 a13 a14 a15 a16 a17 a18 a19 a20 a21 a22 a23 a24 = Cert.RefSide.value b0 b1 b2 b3 b4 b5 b6 b7 b8 b9 b10 b11 b12 b13 b14 b15 b16 b17 b18 b19 b20 b21 b22 b23 b24 := by
  subst_vars; rfl

/-- The two programs' results are the same expression of the arguments. -/
theorem results_agree (m : (ℓ : Loc Cert.KernelIdeal.nD Cert.KernelIdeal.τ Cert.KernelIdeal.sig) → Buf (Elt Ideal) ℓ)
    (c : Dev Cert.KernelIdeal.nD) :
    Cert.RefSide.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) = KV.result m c :=
  (KV.updStage_congr rfl
      (congrArg (fun b => KV.scatterK (m ((c.tc : Thread Cert.KernelIdeal.nD Cert.KernelIdeal.τ).loc Cert.KernelIdeal.main_arg4)) (msgStage (m ((c.tc : Thread Cert.KernelIdeal.nD Cert.KernelIdeal.τ).loc Cert.KernelIdeal.main_arg2)) (KV.gatherK (m ((c.tc : Thread Cert.KernelIdeal.nD Cert.KernelIdeal.τ).loc Cert.KernelIdeal.main_arg3))
        (edgeStage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) b (m ((c.tc : Thread Cert.KernelIdeal.nD Cert.KernelIdeal.τ).loc Cert.KernelIdeal.main_arg13)))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))) (rowVec_row _ _))
      rfl (rowVec_row _ _) rfl rfl (rowVec_row _ _) rfl (rowVec_row _ _) rfl (rowVec_row _ _)
      rfl (rowVec_row _ _) rfl (rowVec_row _ _) rfl (rowVec_row _ _) rfl (rowVec_row _ _)).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefSide.run m ρ)

/-- From memories agreeing on the arguments both programs end with the same result. -/
theorem algebraic : Cert.algebraic_KernelIdeal_ReferenceIdeal := by
  intro m ρ m' ρ' _ hagree
  refine ⟨fun c => KV.result m c, KV.run m ρ, ?_⟩
  refine (θ_run Cert.ReferenceIdeal.defs _ _).mono (fun r h c => ⟨(h c).1.trans ?_, (h c).2⟩) (Cert.RefSide.run m' ρ')
  obtain ⟨h0, h1, h2, h3, h4, h5, h6, h7, h8, h9, h10, h11, h12, h13, h14, h15, h16, h17, h18, h19, h20, h21, h22, h23, h24⟩ := hagree c
  exact (value_congr h0 h1 h2 h3 h4 h5 h6 h7 h8 h9 h10 h11 h12 h13 h14 h15 h16 h17 h18 h19 h20 h21 h22 h23 h24).trans (results_agree m c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
